-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x16 : Shape := ⟨2, ![800000, 16]⟩
abbrev S4x144x128 : Shape := ⟨3, ![4, 144, 128]⟩
abbrev S4x128 : Shape := ⟨2, ![4, 128]⟩
abbrev S4x128x64 : Shape := ⟨3, ![4, 128, 64]⟩
abbrev S4x64 : Shape := ⟨2, ![4, 64]⟩
abbrev S2x64x128 : Shape := ⟨3, ![2, 64, 128]⟩
abbrev S2x128 : Shape := ⟨2, ![2, 128]⟩
abbrev S2x128x64 : Shape := ⟨3, ![2, 128, 64]⟩
abbrev S2x64 : Shape := ⟨2, ![2, 64]⟩
abbrev S800000 : Shape := ⟨1, ![800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S4x144x128 : S_.BroadcastsInDim S4x144x128 (![] : Fin 0 → Fin S4x144x128.rank)
  reducesTo_S4x144x128_S_d0_1_2 : S4x144x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S2x64x128 : S_.BroadcastsInDim S2x64x128 (![] : Fin 0 → Fin S2x64x128.rank)
  reducesTo_S2x64x128_S_d0_1_2 : S2x64x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg7 : FVec F S2x128 .f32) (main_arg8 : FVec F S2x128x64 .f32) (main_arg9 : FVec F S2x64 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x64 .f32 := Host.absf main_arg8
  let main_cst_14 : FVec F S_ .f32 := constant S_ .f32 0x7F800000#32
  let main_v40 : FVec F S2x128x64 .f32 := broadcastInDim S2x128x64 ![] bcast_S_S2x128x64 main_cst_14
  let main_v41 : IVec S2x128x64 1 := cmpf .olt main_v39 main_v40
  let main_c_15 : IVec S_ 1 := constantI S_ 1 1#1
  let main_v42 : IVec S_ 1 := (fun x v => Host.reduce IntOp.andi x v reducesTo_S2x128x64_S_d0_1_2 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  main_v48

def fn_part1 {F : FTy → Type} [FloatOps F] (main_arg4 : FVec F S4x128x64 .f32) (main_arg5 : FVec F S4x64 .f32) (main_arg6 : FVec F S2x64x128 .f32) (main_arg7 : FVec F S2x128 .f32) (main_arg8 : FVec F S2x128x64 .f32) (main_arg9 : FVec F S2x64 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x64 .f32 := Host.absf main_arg4
  let main_cst_6 : FVec F S_ .f32 := constant S_ .f32 0x7F800000#32
  let main_v20 : FVec F S4x128x64 .f32 := broadcastInDim S4x128x64 ![] bcast_S_S4x128x64 main_cst_6
  let main_v21 : IVec S4x128x64 1 := cmpf .olt main_v19 main_v20
  let main_c_7 : IVec S_ 1 := constantI S_ 1 1#1
  let main_v22 : IVec S_ 1 := (fun x v => Host.reduce IntOp.andi x v reducesTo_S4x128x64_S_d0_1_2 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S2x64x128 .f32 := Host.absf main_arg6
  let main_cst_10 : FVec F S_ .f32 := constant S_ .f32 0x7F800000#32
  let main_v30 : FVec F S2x64x128 .f32 := broadcastInDim S2x64x128 ![] bcast_S_S2x64x128 main_cst_10
  let main_v31 : IVec S2x64x128 1 := cmpf .olt main_v29 main_v30
  let main_c_11 : IVec S_ 1 := constantI S_ 1 1#1
  let main_v32 : IVec S_ 1 := (fun x v => Host.reduce IntOp.andi x v reducesTo_S2x64x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S50000x64 .f32) (main_arg1 : FVec F S800000x16 .f32) (main_arg2 : FVec F S4x144x128 .f32) (main_arg3 : FVec F S4x128 .f32) (main_arg4 : FVec F S4x128x64 .f32) (main_arg5 : FVec F S4x64 .f32) (main_arg6 : FVec F S2x64x128 .f32) (main_arg7 : FVec F S2x128 .f32) (main_arg8 : FVec F S2x128x64 .f32) (main_arg9 : FVec F S2x64 .f32) (main_arg10 : IVec S800000 32) (main_arg11 : IVec S800000 32) (main_arg12 : IVec S800000 32) (main_arg13 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S4x144x128 .f32 := Host.absf main_arg2
  let main_cst_2 : FVec F S_ .f32 := constant S_ .f32 0x7F800000#32
  let main_v10 : FVec F S4x144x128 .f32 := broadcastInDim S4x144x128 ![] bcast_S_S4x144x128 main_cst_2
  let main_v11 : IVec S4x144x128 1 := cmpf .olt main_v9 main_v10
  let main_c_3 : IVec S_ 1 := constantI S_ 1 1#1
  let main_v12 : IVec S_ 1 := (fun x v => Host.reduce IntOp.andi x v reducesTo_S4x144x128_S_d0_1_2 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_arg6 main_arg7 main_arg8 main_arg9 main_v13 main_v16
-- ==== Kernel.lean ====
abbrev S50000x64 : Shape := ⟨2, ![50000, 64]⟩
abbrev S800000x16 : Shape := ⟨2, ![800000, 16]⟩
abbrev S4x144x128 : Shape := ⟨3, ![4, 144, 128]⟩
abbrev S4x128 : Shape := ⟨2, ![4, 128]⟩
abbrev S4x128x64 : Shape := ⟨3, ![4, 128, 64]⟩
abbrev S4x64 : Shape := ⟨2, ![4, 64]⟩
abbrev S2x64x128 : Shape := ⟨3, ![2, 64, 128]⟩
abbrev S2x128 : Shape := ⟨2, ![2, 128]⟩
abbrev S2x128x64 : Shape := ⟨3, ![2, 128, 64]⟩
abbrev S2x64 : Shape := ⟨2, ![2, 64]⟩
abbrev S800000 : Shape := ⟨1, ![800000]⟩
abbrev S50000 : Shape := ⟨1, ![50000]⟩
abbrev S_ : Shape := ⟨0, ![]⟩
abbrev S800000x1 : Shape := ⟨2, ![800000, 1]⟩
abbrev S800000x64 : Shape := ⟨2, ![800000, 64]⟩
abbrev S800000x145 : Shape := ⟨2, ![800000, 145]⟩
abbrev S2000x145 : Shape := ⟨2, ![2000, 145]⟩
abbrev S2000x64 : Shape := ⟨2, ![2000, 64]⟩
abbrev S2000x144 : Shape := ⟨2, ![2000, 144]⟩
abbrev S2000x1 : Shape := ⟨2, ![2000, 1]⟩
abbrev S1x144x128 : Shape := ⟨3, ![1, 144, 128]⟩
abbrev S144x128 : Shape := ⟨2, ![144, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S2000x128 : Shape := ⟨2, ![2000, 128]⟩
abbrev S50000x1 : Shape := ⟨2, ![50000, 1]⟩
abbrev S50000x65 : Shape := ⟨2, ![50000, 65]⟩
abbrev S2000x65 : Shape := ⟨2, ![2000, 65]⟩
abbrev S1x64x128 : Shape := ⟨3, ![1, 64, 128]⟩
abbrev S64x128 : Shape := ⟨2, ![64, 128]⟩

abbrev nBuf : Space → Nat
  | .hbm => 56
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000x16, .f32⟩
  | .hbm, ⟨2, _⟩ => ⟨S4x144x128, .f32⟩
  | .hbm, ⟨3, _⟩ => ⟨S4x128, .f32⟩
  | .hbm, ⟨4, _⟩ => ⟨S4x128x64, .f32⟩
  | .hbm, ⟨5, _⟩ => ⟨S4x64, .f32⟩
  | .hbm, ⟨6, _⟩ => ⟨S2x64x128, .f32⟩
  | .hbm, ⟨7, _⟩ => ⟨S2x128, .f32⟩
  | .hbm, ⟨8, _⟩ => ⟨S2x128x64, .f32⟩
  | .hbm, ⟨9, _⟩ => ⟨S2x64, .f32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S50000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S800000, .f32⟩
  | .hbm, ⟨33, _⟩ => ⟨S800000x1, .f32⟩
  | .hbm, ⟨34, _⟩ => ⟨S800000x145, .f32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S_, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S800000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S50000, .f32⟩
  | .hbm, ⟨53, _⟩ => ⟨S50000x1, .f32⟩
  | .hbm, ⟨54, _⟩ => ⟨S50000x65, .f32⟩
  | .hbm, ⟨55, _⟩ => ⟨S50000x64, .f32⟩
  | .local _ .vmem, ⟨0, _⟩ => ⟨S2000x145, .f32⟩
  | .local _ .vmem, ⟨1, _⟩ => ⟨S2000x145, .f32⟩
  | .local _ .vmem, ⟨2, _⟩ => ⟨S4x144x128, .f32⟩
  | .local _ .vmem, ⟨3, _⟩ => ⟨S4x128, .f32⟩
  | .local _ .vmem, ⟨4, _⟩ => ⟨S4x128x64, .f32⟩
  | .local _ .vmem, ⟨5, _⟩ => ⟨S4x64, .f32⟩
  | .local _ .vmem, ⟨6, _⟩ => ⟨S2000x64, .f32⟩
  | .local _ .vmem, ⟨7, _⟩ => ⟨S2000x64, .f32⟩
  | .local _ .vmem, ⟨8, _⟩ => ⟨S2000x65, .f32⟩
  | .local _ .vmem, ⟨9, _⟩ => ⟨S2000x65, .f32⟩
  | .local _ .vmem, ⟨10, _⟩ => ⟨S2x64x128, .f32⟩
  | .local _ .vmem, ⟨11, _⟩ => ⟨S2x128, .f32⟩
  | .local _ .vmem, ⟨12, _⟩ => ⟨S2x128x64, .f32⟩
  | .local _ .vmem, ⟨13, _⟩ => ⟨S2x64, .f32⟩
  | .local _ .vmem, ⟨14, _⟩ => ⟨S2000x64, .f32⟩
  | .local _ .vmem, ⟨15, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x145 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x65 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x16_S800000x64_S800000x1_S800000x145_d1 : Shape.Concatenates [S800000x64, S800000x16, S800000x64, S800000x1] S800000x145 1
  inb_S2000x145_S2000x144_0_0 : ∀ a, (![0, 0] : Fin 2 → Nat) a + S2000x144.size a ≤ S2000x145.size a
  h_S2000x144 : 0 < S2000x144.numel
  shapeCasts_S2000x144_S2000x144 : S2000x144.ShapeCasts S2000x144
  inb_S2000x145_S2000x1_0_144 : ∀ a, (![0, 144] : Fin 2 → Nat) a + S2000x1.size a ≤ S2000x145.size a
  h_S2000x1 : 0 < S2000x1.numel
  shapeCasts_S2000x1_S2000x1 : S2000x1.ShapeCasts S2000x1
  bitsLt_bf16_f32 : FTy.bits .bf16 < FTy.bits .f32
  inb_S4x144x128_S1x144x128_0_0_0 : ∀ a, (![0, 0, 0] : Fin 3 → Nat) a + S1x144x128.size a ≤ S4x144x128.size a
  h_S1x144x128 : 0 < S1x144x128.numel
  shapeCasts_S1x144x128_S144x128 : S1x144x128.ShapeCasts S144x128
  inb_S4x128_S1x128_0_0 : ∀ a, (![0, 0] : Fin 2 → Nat) a + S1x128.size a ≤ S4x128.size a
  h_S1x128 : 0 < S1x128.numel
  shapeCasts_S1x128_S128 : S1x128.ShapeCasts S128
  inb_S4x128x64_S1x128x64_0_0_0 : ∀ a, (![0, 0, 0] : Fin 3 → Nat) a + S1x128x64.size a ≤ S4x128x64.size a
  h_S1x128x64 : 0 < S1x128x64.numel
  shapeCasts_S1x128x64_S128x64 : S1x128x64.ShapeCasts S128x64
  inb_S4x64_S1x64_0_0 : ∀ a, (![0, 0] : Fin 2 → Nat) a + S1x64.size a ≤ S4x64.size a
  h_S1x64 : 0 < S1x64.numel
  shapeCasts_S1x64_S64 : S1x64.ShapeCasts S64
  shapeCasts_S128_S1x128 : S128.ShapeCasts S1x128
  broadcasts_S1x128_S2000x128 : S1x128.Broadcasts S2000x128
  shapeCasts_S64_S1x64 : S64.ShapeCasts S1x64
  broadcasts_S1x64_S2000x64 : S1x64.Broadcasts S2000x64
  natLt_1_32 : 1 < 32
  broadcasts_S2000x1_S2000x64 : S2000x1.Broadcasts S2000x64
  inb_S4x144x128_S1x144x128_1_0_0 : ∀ a, (![1, 0, 0] : Fin 3 → Nat) a + S1x144x128.size a ≤ S4x144x128.size a
  inb_S4x128_S1x128_1_0 : ∀ a, (![1, 0] : Fin 2 → Nat) a + S1x128.size a ≤ S4x128.size a
  inb_S4x128x64_S1x128x64_1_0_0 : ∀ a, (![1, 0, 0] : Fin 3 → Nat) a + S1x128x64.size a ≤ S4x128x64.size a
  inb_S4x64_S1x64_1_0 : ∀ a, (![1, 0] : Fin 2 → Nat) a + S1x64.size a ≤ S4x64.size a
  inb_S4x144x128_S1x144x128_2_0_0 : ∀ a, (![2, 0, 0] : Fin 3 → Nat) a + S1x144x128.size a ≤ S4x144x128.size a
  inb_S4x128_S1x128_2_0 : ∀ a, (![2, 0] : Fin 2 → Nat) a + S1x128.size a ≤ S4x128.size a
  inb_S4x128x64_S1x128x64_2_0_0 : ∀ a, (![2, 0, 0] : Fin 3 → Nat) a + S1x128x64.size a ≤ S4x128x64.size a
  inb_S4x64_S1x64_2_0 : ∀ a, (![2, 0] : Fin 2 → Nat) a + S1x64.size a ≤ S4x64.size a
  inb_S4x144x128_S1x144x128_3_0_0 : ∀ a, (![3, 0, 0] : Fin 3 → Nat) a + S1x144x128.size a ≤ S4x144x128.size a
  inb_S4x128_S1x128_3_0 : ∀ a, (![3, 0] : Fin 2 → Nat) a + S1x128.size a ≤ S4x128.size a
  inb_S4x128x64_S1x128x64_3_0_0 : ∀ a, (![3, 0, 0] : Fin 3 → Nat) a + S1x128x64.size a ≤ S4x128x64.size a
  inb_S4x64_S1x64_3_0 : ∀ a, (![3, 0] : Fin 2 → Nat) a + S1x64.size a ≤ S4x64.size a
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x1_S50000x65_d1 : Shape.Concatenates [S50000x64, S50000x1] S50000x65 1
  inb_S2000x65_S2000x64_0_0 : ∀ a, (![0, 0] : Fin 2 → Nat) a + S2000x64.size a ≤ S2000x65.size a
  shapeCasts_S2000x64_S2000x64 : S2000x64.ShapeCasts S2000x64
  inb_S2000x65_S2000x1_0_64 : ∀ a, (![0, 64] : Fin 2 → Nat) a + S2000x1.size a ≤ S2000x65.size a
  inb_S2x64x128_S1x64x128_0_0_0 : ∀ a, (![0, 0, 0] : Fin 3 → Nat) a + S1x64x128.size a ≤ S2x64x128.size a
  h_S1x64x128 : 0 < S1x64x128.numel
  shapeCasts_S1x64x128_S64x128 : S1x64x128.ShapeCasts S64x128
  inb_S2x128_S1x128_0_0 : ∀ a, (![0, 0] : Fin 2 → Nat) a + S1x128.size a ≤ S2x128.size a
  inb_S2x128x64_S1x128x64_0_0_0 : ∀ a, (![0, 0, 0] : Fin 3 → Nat) a + S1x128x64.size a ≤ S2x128x64.size a
  inb_S2x64_S1x64_0_0 : ∀ a, (![0, 0] : Fin 2 → Nat) a + S1x64.size a ≤ S2x64.size a
  inb_S2x64x128_S1x64x128_1_0_0 : ∀ a, (![1, 0, 0] : Fin 3 → Nat) a + S1x64x128.size a ≤ S2x64x128.size a
  inb_S2x128_S1x128_1_0 : ∀ a, (![1, 0] : Fin 2 → Nat) a + S1x128.size a ≤ S2x128.size a
  inb_S2x128x64_S1x128x64_1_0_0 : ∀ a, (![1, 0, 0] : Fin 3 → Nat) a + S1x128x64.size a ≤ S2x128x64.size a
  inb_S2x64_S1x64_1_0 : ∀ a, (![1, 0] : Fin 2 → Nat) a + S1x64.size a ≤ S2x64.size a
  gather_S50000x64_S800000x1_S800000x64_1_0_n_n_0_1_164_wf : GatherDims.WF S50000x64 S800000x1 S800000x64 [1] [0] [] [0] [] 1 ![1, 64]
  dot_S2000x144_S144x128_S2000x128_1_0_0_1_n_n_wf : DotDims.WF S2000x144 S144x128 S2000x128 [1] [0] [0] [1] [] []
  dot_S2000x128_S128x64_S2000x64_1_0_0_1_n_n_wf : DotDims.WF S2000x128 S128x64 S2000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x145.size a ≤ S800000x145.size a
  hwx0_0 : ∀ i : grid0.Coords, EltTy.bits .f32 = 32 ∨ (Rect.block (s := S800000x145) S2000x145.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x144x128.size a ≤ S4x144x128.size a
  hwx0_1 : ∀ i : grid0.Coords, EltTy.bits .f32 = 32 ∨ (Rect.block (s := S4x144x128) S4x144x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128x64.size a ≤ S4x128x64.size a
  hwx0_3 : ∀ i : grid0.Coords, EltTy.bits .f32 = 32 ∨ (Rect.block (s := S4x128x64) S4x128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S800000x64.size a
  hwx0_5 : ∀ i : grid0.Coords, EltTy.bits .f32 = 32 ∨ (Rect.block (s := S800000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x65.size a ≤ S50000x65.size a
  hwx1_0 : ∀ i : grid1.Coords, EltTy.bits .f32 = 32 ∨ (Rect.block (s := S50000x65) S2000x65.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64x128.size a ≤ S2x64x128.size a
  hwx1_1 : ∀ i : grid1.Coords, EltTy.bits .f32 = 32 ∨ (Rect.block (s := S2x64x128) S2x64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128x64.size a ≤ S2x128x64.size a
  hwx1_3 : ∀ i : grid1.Coords, EltTy.bits .f32 = 32 ∨ (Rect.block (s := S2x128x64) S2x128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x64.size a ≤ S2x64.size a
  hwx1_4 : ∀ i : grid1.Coords, EltTy.bits .f32 = 32 ∨ (Rect.block (s := S2x64) S2x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x144_S144x128_S2000x128_1_0_0_1_n_n : DotDims S2000x144 S144x128 S2000x128 where
  lhsContracting := [1]
  rhsContracting := [0]
  lhsNonContracting := [0]
  rhsNonContracting := [1]
  lhsBatch := []
  rhsBatch := []
  wf := dot_S2000x144_S144x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_v16) S2000x145.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x144x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x65.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S2x64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S2x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S2x128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S2x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x16 : Shape := ⟨2, ![800000, 16]⟩
abbrev S4x144x128 : Shape := ⟨3, ![4, 144, 128]⟩
abbrev S4x128 : Shape := ⟨2, ![4, 128]⟩
abbrev S4x128x64 : Shape := ⟨3, ![4, 128, 64]⟩
abbrev S4x64 : Shape := ⟨2, ![4, 64]⟩
abbrev S2x64x128 : Shape := ⟨3, ![2, 64, 128]⟩
abbrev S2x128 : Shape := ⟨2, ![2, 128]⟩
abbrev S2x128x64 : Shape := ⟨3, ![2, 128, 64]⟩
abbrev S2x64 : Shape := ⟨2, ![2, 64]⟩
abbrev S800000 : Shape := ⟨1, ![800000]⟩
abbrev S50000 : Shape := ⟨1, ![50000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S1x144x128 : Shape := ⟨3, ![1, 144, 128]⟩
abbrev S144x128 : Shape := ⟨2, ![144, 128]⟩
abbrev S800000x128 : Shape := ⟨2, ![800000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S50000x1 : Shape := ⟨2, ![50000, 1]⟩
abbrev S1x64x128 : Shape := ⟨3, ![1, 64, 128]⟩
abbrev S64x128 : Shape := ⟨2, ![64, 128]⟩
abbrev S50000x128 : Shape := ⟨2, ![50000, 128]⟩

abbrev nBuf : Space → Nat
  | .hbm => 227
  | .vmem => 0
  | .smem => 0
  | _ => 0

abbrev hbmTy0_0 (i : Nat) : BufTy := match i % 128 with
  | 0 => ⟨S50000x64, .f32⟩
  | 1 => ⟨S800000x16, .f32⟩
  | 2 => ⟨S4x144x128, .f32⟩
  | 3 => ⟨S4x128, .f32⟩
  | 4 => ⟨S4x128x64, .f32⟩
  | 5 => ⟨S4x64, .f32⟩
  | 6 => ⟨S2x64x128, .f32⟩
  | 7 => ⟨S2x128, .f32⟩
  | 8 => ⟨S2x128x64, .f32⟩
  | 9 => ⟨S2x64, .f32⟩
  | 10 => ⟨S800000, .i32⟩
  | 11 => ⟨S800000, .i32⟩
  | 12 => ⟨S800000, .i32⟩
  | 13 => ⟨S50000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x144, .f32⟩
  | 33 => ⟨S_, .f32⟩
  | 34 => ⟨S800000x64, .f32⟩
  | 35 => ⟨S1x144x128, .f32⟩
  | 36 => ⟨S144x128, .f32⟩
  | 37 => ⟨S800000x128, .f32⟩
  | 38 => ⟨S1x128, .f32⟩
  | 39 => ⟨S128, .f32⟩
  | 40 => ⟨S1x128, .f32⟩
  | 41 => ⟨S800000x128, .f32⟩
  | 42 => ⟨S800000x128, .f32⟩
  | 43 => ⟨S_, .f32⟩
  | 44 => ⟨S800000x128, .f32⟩
  | 45 => ⟨S800000x128, .f32⟩
  | 46 => ⟨S1x128x64, .f32⟩
  | 47 => ⟨S128x64, .f32⟩
  | 48 => ⟨S800000x64, .f32⟩
  | 49 => ⟨S1x64, .f32⟩
  | 50 => ⟨S64, .f32⟩
  | 51 => ⟨S1x64, .f32⟩
  | 52 => ⟨S800000x64, .f32⟩
  | 53 => ⟨S800000x64, .f32⟩
  | 54 => ⟨S_, .i32⟩
  | 55 => ⟨S800000, .i32⟩
  | 56 => ⟨S800000, .i1⟩
  | 57 => ⟨S800000x1, .i1⟩
  | 58 => ⟨S_, .f32⟩
  | 59 => ⟨S_, .f32⟩
  | 60 => ⟨S800000x64, .i1⟩
  | 61 => ⟨S800000x64, .f32⟩
  | 62 => ⟨S800000x64, .f32⟩
  | 63 => ⟨S800000x64, .f32⟩
  | 64 => ⟨S1x144x128, .f32⟩
  | 65 => ⟨S144x128, .f32⟩
  | 66 => ⟨S800000x128, .f32⟩
  | 67 => ⟨S1x128, .f32⟩
  | 68 => ⟨S128, .f32⟩
  | 69 => ⟨S1x128, .f32⟩
  | 70 => ⟨S800000x128, .f32⟩
  | 71 => ⟨S800000x128, .f32⟩
  | 72 => ⟨S_, .f32⟩
  | 73 => ⟨S800000x128, .f32⟩
  | 74 => ⟨S800000x128, .f32⟩
  | 75 => ⟨S1x128x64, .f32⟩
  | 76 => ⟨S128x64, .f32⟩
  | 77 => ⟨S800000x64, .f32⟩
  | 78 => ⟨S1x64, .f32⟩
  | 79 => ⟨S64, .f32⟩
  | 80 => ⟨S1x64, .f32⟩
  | 81 => ⟨S800000x64, .f32⟩
  | 82 => ⟨S800000x64, .f32⟩
  | 83 => ⟨S_, .i32⟩
  | 84 => ⟨S800000, .i32⟩
  | 85 => ⟨S800000, .i1⟩
  | 86 => ⟨S800000x1, .i1⟩
  | 87 => ⟨S_, .f32⟩
  | 88 => ⟨S_, .f32⟩
  | 89 => ⟨S800000x64, .i1⟩
  | 90 => ⟨S800000x64, .f32⟩
  | 91 => ⟨S800000x64, .f32⟩
  | 92 => ⟨S800000x64, .f32⟩
  | 93 => ⟨S1x144x128, .f32⟩
  | 94 => ⟨S144x128, .f32⟩
  | 95 => ⟨S800000x128, .f32⟩
  | 96 => ⟨S1x128, .f32⟩
  | 97 => ⟨S128, .f32⟩
  | 98 => ⟨S1x128, .f32⟩
  | 99 => ⟨S800000x128, .f32⟩
  | 100 => ⟨S800000x128, .f32⟩
  | 101 => ⟨S_, .f32⟩
  | 102 => ⟨S800000x128, .f32⟩
  | 103 => ⟨S800000x128, .f32⟩
  | 104 => ⟨S1x128x64, .f32⟩
  | 105 => ⟨S128x64, .f32⟩
  | 106 => ⟨S800000x64, .f32⟩
  | 107 => ⟨S1x64, .f32⟩
  | 108 => ⟨S64, .f32⟩
  | 109 => ⟨S1x64, .f32⟩
  | 110 => ⟨S800000x64, .f32⟩
  | 111 => ⟨S800000x64, .f32⟩
  | 112 => ⟨S_, .i32⟩
  | 113 => ⟨S800000, .i32⟩
  | 114 => ⟨S800000, .i1⟩
  | 115 => ⟨S800000x1, .i1⟩
  | 116 => ⟨S_, .f32⟩
  | 117 => ⟨S_, .f32⟩
  | 118 => ⟨S800000x64, .i1⟩
  | 119 => ⟨S800000x64, .f32⟩
  | 120 => ⟨S800000x64, .f32⟩
  | 121 => ⟨S800000x64, .f32⟩
  | 122 => ⟨S1x144x128, .f32⟩
  | 123 => ⟨S144x128, .f32⟩
  | 124 => ⟨S800000x128, .f32⟩
  | 125 => ⟨S1x128, .f32⟩
  | 126 => ⟨S128, .f32⟩
  | 127 => ⟨S1x128, .f32⟩
  | _ => ⟨S50000x64, .f32⟩

abbrev hbmTy0_1 (i : Nat) : BufTy := match i % 128 with
  | 0 => ⟨S800000x128, .f32⟩
  | 1 => ⟨S800000x128, .f32⟩
  | 2 => ⟨S_, .f32⟩
  | 3 => ⟨S800000x128, .f32⟩
  | 4 => ⟨S800000x128, .f32⟩
  | 5 => ⟨S1x128x64, .f32⟩
  | 6 => ⟨S128x64, .f32⟩
  | 7 => ⟨S800000x64, .f32⟩
  | 8 => ⟨S1x64, .f32⟩
  | 9 => ⟨S64, .f32⟩
  | 10 => ⟨S1x64, .f32⟩
  | 11 => ⟨S800000x64, .f32⟩
  | 12 => ⟨S800000x64, .f32⟩
  | 13 => ⟨S_, .i32⟩
  | 14 => ⟨S800000, .i32⟩
  | 15 => ⟨S800000, .i1⟩
  | 16 => ⟨S800000x1, .i1⟩
  | 17 => ⟨S_, .f32⟩
  | 18 => ⟨S_, .f32⟩
  | 19 => ⟨S800000x64, .i1⟩
  | 20 => ⟨S800000x64, .f32⟩
  | 21 => ⟨S800000x64, .f32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x64, .f32⟩
  | 38 => ⟨S50000x64, .f32⟩
  | 39 => ⟨S_, .f32⟩
  | 40 => ⟨S50000x64, .f32⟩
  | 41 => ⟨S1x64x128, .f32⟩
  | 42 => ⟨S64x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x64, .f32⟩
  | 53 => ⟨S128x64, .f32⟩
  | 54 => ⟨S50000x64, .f32⟩
  | 55 => ⟨S1x64, .f32⟩
  | 56 => ⟨S64, .f32⟩
  | 57 => ⟨S1x64, .f32⟩
  | 58 => ⟨S50000x64, .f32⟩
  | 59 => ⟨S50000x64, .f32⟩
  | 60 => ⟨S_, .i32⟩
  | 61 => ⟨S50000, .i32⟩
  | 62 => ⟨S50000, .i1⟩
  | 63 => ⟨S50000x1, .i1⟩
  | 64 => ⟨S_, .f32⟩
  | 65 => ⟨S_, .f32⟩
  | 66 => ⟨S50000x64, .i1⟩
  | 67 => ⟨S50000x64, .f32⟩
  | 68 => ⟨S50000x64, .f32⟩
  | 69 => ⟨S50000x64, .f32⟩
  | 70 => ⟨S1x64x128, .f32⟩
  | 71 => ⟨S64x128, .f32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S1x128x64, .f32⟩
  | 82 => ⟨S128x64, .f32⟩
  | 83 => ⟨S50000x64, .f32⟩
  | 84 => ⟨S1x64, .f32⟩
  | 85 => ⟨S64, .f32⟩
  | 86 => ⟨S1x64, .f32⟩
  | 87 => ⟨S50000x64, .f32⟩
  | 88 => ⟨S50000x64, .f32⟩
  | 89 => ⟨S_, .i32⟩
  | 90 => ⟨S50000, .i32⟩
  | 91 => ⟨S50000, .i1⟩
  | 92 => ⟨S50000x1, .i1⟩
  | 93 => ⟨S_, .f32⟩
  | 94 => ⟨S_, .f32⟩
  | 95 => ⟨S50000x64, .i1⟩
  | 96 => ⟨S50000x64, .f32⟩
  | 97 => ⟨S50000x64, .f32⟩
  | 98 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_cst : Ref sig .tc := ⟨.hbm, 43, rfl⟩
abbrev main_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call2_cst : Ref sig .tc := ⟨.hbm, 72, rfl⟩
abbrev main_call2_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_5 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call4_cst : Ref sig .tc := ⟨.hbm, 101, rfl⟩
abbrev main_call4_v0 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_7 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_8 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call6_cst : Ref sig .tc := ⟨.hbm, 130, rfl⟩
abbrev main_call6_v0 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_9 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_10 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_v102 : Ref sig .tc := ⟨.hbm, 149, rfl⟩
abbrev main_v103 : Ref sig .tc := ⟨.hbm, 150, rfl⟩
abbrev main_cst_11 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_12 : Ref sig .tc := ⟨.hbm, 155, rfl⟩
abbrev main_v107 : Ref sig .tc := ⟨.hbm, 156, rfl⟩
abbrev main_cst_13 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_14 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_15 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_call8_cst : Ref sig .tc := ⟨.hbm, 177, rfl⟩
abbrev main_call8_v0 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_c_16 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_17 : Ref sig .tc := ⟨.hbm, 192, rfl⟩
abbrev main_call9_v0 : Ref sig .tc := ⟨.hbm, 193, rfl⟩
abbrev main_call9_v1 : Ref sig .tc := ⟨.hbm, 194, rfl⟩
abbrev main_call9_v2 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_call10_cst : Ref sig .tc := ⟨.hbm, 206, rfl⟩
abbrev main_call10_v0 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_c_18 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_19 : Ref sig .tc := ⟨.hbm, 221, rfl⟩
abbrev main_call11_v0 : Ref sig .tc := ⟨.hbm, 222, rfl⟩
abbrev main_call11_v1 : Ref sig .tc := ⟨.hbm, 223, rfl⟩
abbrev main_call11_v2 : Ref sig .tc := ⟨.hbm, 224, rfl⟩
abbrev main_v159 : Ref sig .tc := ⟨.hbm, 225, rfl⟩
abbrev main_v160 : Ref sig .tc := ⟨.hbm, 226, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x16_S800000x64_S800000x144_d1 : Shape.Concatenates [S800000x64, S800000x16, S800000x64] S800000x144 1
  bcast_S_S800000x64 : S_.BroadcastsInDim S800000x64 (![] : Fin 0 → Fin S800000x64.rank)
  slices_S4x144x128_S1x144x128_0_0_0 : S4x144x128.Slices ![0, 0, 0] S1x144x128
  shapeCasts_S1x144x128_S144x128 : S1x144x128.ShapeCasts S144x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S800000x1_S800000x64_0_1 : S800000x1.BroadcastsInDim S800000x64 (![0, 1] : Fin 2 → Fin S800000x64.rank)
  slices_S4x144x128_S1x144x128_1_0_0 : S4x144x128.Slices ![1, 0, 0] S1x144x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4x144x128_S1x144x128_2_0_0 : S4x144x128.Slices ![2, 0, 0] S1x144x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4x144x128_S1x144x128_3_0_0 : S4x144x128.Slices ![3, 0, 0] S1x144x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S2x64x128_S1x64x128_0_0_0 : S2x64x128.Slices ![0, 0, 0] S1x64x128
  shapeCasts_S1x64x128_S64x128 : S1x64x128.ShapeCasts S64x128
  slices_S2x128_S1x128_0_0 : S2x128.Slices ![0, 0] S1x128
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x128x64_S1x128x64_0_0_0 : S2x128x64.Slices ![0, 0, 0] S1x128x64
  slices_S2x64_S1x64_0_0 : S2x64.Slices ![0, 0] S1x64
  bcast_S1x64_S50000x64_0_1 : S1x64.BroadcastsInDim S50000x64 (![0, 1] : Fin 2 → Fin S50000x64.rank)
  slices_S2x64x128_S1x64x128_1_0_0 : S2x64x128.Slices ![1, 0, 0] S1x64x128
  slices_S2x128_S1x128_1_0 : S2x128.Slices ![1, 0] S1x128
  slices_S2x128x64_S1x128x64_1_0_0 : S2x128x64.Slices ![1, 0, 0] S1x128x64
  slices_S2x64_S1x64_1_0 : S2x64.Slices ![1, 0] S1x64
  gather_S50000x64_S800000x1_S800000x64_1_0_n_n_0_1_164_wf : GatherDims.WF S50000x64 S800000x1 S800000x64 [1] [0] [] [0] [] 1 ![1, 64]
  dot_S800000x144_S144x128_S800000x128_1_0_0_1_n_n_wf : DotDims.WF S800000x144 S144x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.BitsBodies.lean ====
/-
  What each of the two kernels stores, as ONE function of the blocks its five input windows hold.

  The message kernel reads an edge block `x` of 2000 rows and 145 columns — 144 feature columns (source node,
  edge, destination node) and the edge type as a number in column 144 — and four weight tables indexed by edge
  type. For each type `t = 0, 1, 2, 3` it forms the two-layer perceptron
  `m_t = relu (x · W1[t] + b1[t]) · W2[t] + b2[t]` on the feature columns and adds `[type = t] · m_t` to a running
  sum that starts at zero; the sum after the fourth type is what it stores, whole, into its 2000 × 64 output block.
  The update kernel does the same over two node types on a node block of 64 aggregate columns and the node type
  in column 64.

  The arithmetic is the generated payload functions' (one per stretch of the body between memory operations);
  here they are only composed, each applied to the loads it reads, so that the stored value is a closed term of
  the input blocks.
-/
import proofs.«119128_j38319698215247_1_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

/-! ## The message kernel's rectangles -/

/-- The 144 feature columns of an edge block. -/
abbrev rFeat : Rect S2000x145 := Rect.unit (s := S2000x145) ![0, 0] S2000x144.size inb_S2000x145_S2000x144_0_0
/-- Column 144 of an edge block: the edge type as a number. -/
abbrev rKind : Rect S2000x145 := Rect.unit (s := S2000x145) ![0, 144] S2000x1.size inb_S2000x145_S2000x1_0_144
/-- Slab `t` of each weight table. -/
abbrev rA0 : Rect S4x144x128 := Rect.unit (s := S4x144x128) ![0, 0, 0] S1x144x128.size inb_S4x144x128_S1x144x128_0_0_0
abbrev rA1 : Rect S4x144x128 := Rect.unit (s := S4x144x128) ![1, 0, 0] S1x144x128.size inb_S4x144x128_S1x144x128_1_0_0
abbrev rA2 : Rect S4x144x128 := Rect.unit (s := S4x144x128) ![2, 0, 0] S1x144x128.size inb_S4x144x128_S1x144x128_2_0_0
abbrev rA3 : Rect S4x144x128 := Rect.unit (s := S4x144x128) ![3, 0, 0] S1x144x128.size inb_S4x144x128_S1x144x128_3_0_0
abbrev rP0 : Rect S4x128 := Rect.unit (s := S4x128) ![0, 0] S1x128.size inb_S4x128_S1x128_0_0
abbrev rP1 : Rect S4x128 := Rect.unit (s := S4x128) ![1, 0] S1x128.size inb_S4x128_S1x128_1_0
abbrev rP2 : Rect S4x128 := Rect.unit (s := S4x128) ![2, 0] S1x128.size inb_S4x128_S1x128_2_0
abbrev rP3 : Rect S4x128 := Rect.unit (s := S4x128) ![3, 0] S1x128.size inb_S4x128_S1x128_3_0
abbrev rB0 : Rect S4x128x64 := Rect.unit (s := S4x128x64) ![0, 0, 0] S1x128x64.size inb_S4x128x64_S1x128x64_0_0_0
abbrev rB1 : Rect S4x128x64 := Rect.unit (s := S4x128x64) ![1, 0, 0] S1x128x64.size inb_S4x128x64_S1x128x64_1_0_0
abbrev rB2 : Rect S4x128x64 := Rect.unit (s := S4x128x64) ![2, 0, 0] S1x128x64.size inb_S4x128x64_S1x128x64_2_0_0
abbrev rB3 : Rect S4x128x64 := Rect.unit (s := S4x128x64) ![3, 0, 0] S1x128x64.size inb_S4x128x64_S1x128x64_3_0_0
abbrev rQ0 : Rect S4x64 := Rect.unit (s := S4x64) ![0, 0] S1x64.size inb_S4x64_S1x64_0_0
abbrev rQ1 : Rect S4x64 := Rect.unit (s := S4x64) ![1, 0] S1x64.size inb_S4x64_S1x64_1_0
abbrev rQ2 : Rect S4x64 := Rect.unit (s := S4x64) ![2, 0] S1x64.size inb_S4x64_S1x64_2_0
abbrev rQ3 : Rect S4x64 := Rect.unit (s := S4x64) ![3, 0] S1x64.size inb_S4x64_S1x64_3_0
/-- The whole 2000 × 64 output block. -/
abbrev rOut : Rect S2000x64 := Rect.unit (s := S2000x64) ![0, 0] S2000x64.size inb_S2000x64_S2000x64_0_0

/-! ## The message kernel's running sum -/

section Message

variable (x : Vec F S2000x145 .f32) (a : Vec F S4x144x128 .f32) (p : Vec F S4x128 .f32)
  (b : Vec F S4x128x64 .f32) (q : Vec F S4x64 .f32)

/-- The edge-type column as the body carries it. -/
def msgKind : FVec F S2000x1 .f32 := k0_pay1 (View.ld x rKind)
/-- The feature columns as the first matrix product takes them. -/
def msgFeat : FVec F S2000x144 .bf16 := k0_pay2 (View.ld x rFeat)
/-- The sum after edge type 0. -/
def msgSum0 : FVec F S2000x64 .f32 :=
  k0_pay3 (View.ld x rFeat) (View.ld x rKind) (View.ld a rA0) (View.ld p rP0) (View.ld b rB0) (View.ld q rQ0)
/-- The sum after edge type 1. -/
def msgSum1 : FVec F S2000x64 .f32 :=
  k0_pay5 (msgKind x) (msgFeat x) (msgSum0 x a p b q) (k0_pay4 (View.ld a rA1)) (View.ld p rP1) (View.ld b rB1) (View.ld q rQ1)
/-- The sum after edge type 3, through type 2: the stored value. -/
def msgSum3 : FVec F S2000x64 .f32 :=
  k0_pay10 (msgKind x) (msgFeat x) (msgSum1 x a p b q) (k0_pay6 (View.ld b rB2)) (k0_pay7 (View.ld q rQ2))
    (k0_pay8 (msgFeat x) (View.ld a rA2)) (k0_pay9 (View.ld p rP2))
    (View.ld a rA3) (View.ld p rP3) (View.ld b rB3) (View.ld q rQ3)

/-- What the message kernel leaves in its output block: its one store, of the whole block. -/
def msgStored : Vec F S2000x64 .f32 := View.canon [⟨rOut, msgSum3 x a p b q⟩]

end Message

/-! ## The update kernel's rectangles and running sum -/

/-- The 64 aggregate columns of a node block. -/
abbrev rAgg : Rect S2000x65 := Rect.unit (s := S2000x65) ![0, 0] S2000x64.size inb_S2000x65_S2000x64_0_0
/-- Column 64 of a node block: the node type as a number. -/
abbrev rNode : Rect S2000x65 := Rect.unit (s := S2000x65) ![0, 64] S2000x1.size inb_S2000x65_S2000x1_0_64
abbrev rC0 : Rect S2x64x128 := Rect.unit (s := S2x64x128) ![0, 0, 0] S1x64x128.size inb_S2x64x128_S1x64x128_0_0_0
abbrev rC1 : Rect S2x64x128 := Rect.unit (s := S2x64x128) ![1, 0, 0] S1x64x128.size inb_S2x64x128_S1x64x128_1_0_0
abbrev rR0 : Rect S2x128 := Rect.unit (s := S2x128) ![0, 0] S1x128.size inb_S2x128_S1x128_0_0
abbrev rR1 : Rect S2x128 := Rect.unit (s := S2x128) ![1, 0] S1x128.size inb_S2x128_S1x128_1_0
abbrev rD0 : Rect S2x128x64 := Rect.unit (s := S2x128x64) ![0, 0, 0] S1x128x64.size inb_S2x128x64_S1x128x64_0_0_0
abbrev rD1 : Rect S2x128x64 := Rect.unit (s := S2x128x64) ![1, 0, 0] S1x128x64.size inb_S2x128x64_S1x128x64_1_0_0
abbrev rS0 : Rect S2x64 := Rect.unit (s := S2x64) ![0, 0] S1x64.size inb_S2x64_S1x64_0_0
abbrev rS1 : Rect S2x64 := Rect.unit (s := S2x64) ![1, 0] S1x64.size inb_S2x64_S1x64_1_0

section Update

variable (y : Vec F S2000x65 .f32) (a : Vec F S2x64x128 .f32) (p : Vec F S2x128 .f32)
  (b : Vec F S2x128x64 .f32) (q : Vec F S2x64 .f32)

/-- The sum after node type 0. -/
def updSum0 : FVec F S2000x64 .f32 :=
  k1_pay4 (View.ld y rAgg) (View.ld y rNode) (View.ld a rC0) (View.ld p rR0) (View.ld b rD0) (View.ld q rS0)
/-- The sum after node type 1: the stored value. -/
def updSum1 : FVec F S2000x64 .f32 :=
  k1_pay1 (k1_pay2 (View.ld y rNode)) (k1_pay3 (View.ld y rAgg)) (updSum0 y a p b q) (k1_pay5 (View.ld a rC1))
    (View.ld p rR1) (View.ld b rD1) (View.ld q rS1)

/-- What the update kernel leaves in its output block. -/
def updStored : Vec F S2000x64 .f32 := View.canon [⟨rOut, updSum1 y a p b q⟩]

end Update

end Cert.Kernel.Hand

end
-- ==== Proof.BitsRegion0.lean ====
/-
  The message kernel's pipeline on one core, at any contents `V` the core's buffers hold when the call is entered.

  At every grid point the pipeline hands the body one buffer per window. An input window's buffer holds the
  window's block of its array in `V`: window 0's is the edge block of the point, 2000 rows of the edge array, brought in afresh at every
  point; windows 1 to 4 are the four weight tables, whole, brought in at the first point and never again, so at a later
  point the buffer still holds the table because the body leaves every input buffer as it found it. The output
  window's buffer holds anything when the body starts. The body reads the inputs, reads the output buffer once and
  drops what it read, and overwrites the output buffer whole; what it leaves there is `msgStored` of the five input blocks,
  a single piece covering the block. This is the body's triple (`sound_kernel0`); the pipeline's proof data
  (`dat0`) state it per point, and `body_obligation0` is the form the pipeline's frame theorems take.
-/
import proofs.«119128_j38319698215247_1_alg».proof.Proof.BitsBodies
import proofs.«119128_j38319698215247_1_alg».proof.Proof.Gen.Kernel.Launch
import proofs.«119128_j38319698215247_1_alg».proof.Proof.Gen.Kernel.Skeleton
import proofs.«119128_j38319698215247_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows is decided by a structural recursion a step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off the window's array in `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds the window's block at every point: where the window was brought in at the
    point, by the transfer; where it was not, its block index has not moved since the point before, and the body left the
    buffer as it found it. For any proof data over the arrays `V` whose body keeps the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current buffer holds the window's block at every point: where the window was brought in at the
    point, by the transfer; where it was not, its block index has not moved since the point before, and the body left the
    buffer as it found it. For any proof data over the arrays `V` whose body keeps the block in place. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current buffer holds the window's block at every point: where the window was brought in at the
    point, by the transfer; where it was not, its block index has not moved since the point before, and the body left the
    buffer as it found it. For any proof data over the arrays `V` whose body keeps the block in place. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current buffer holds the window's block at every point: where the window was brought in at the
    point, by the transfer; where it was not, its block index has not moved since the point before, and the body left the
    buffer as it found it. For any proof data over the arrays `V` whose body keeps the block in place. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current buffer holds the window's block at every point: where the window was brought in at the
    point, by the transfer; where it was not, its block index has not moved since the point before, and the body left the
    buffer as it found it. For any proof data over the arrays `V` whose body keeps the block in place. -/
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's triple -/

/-- The one store's rectangle is the whole output block, so it covers it. -/
theorem cover0 (p0 : Vec F S2000x64 .f32) (y : S2000x64.Idx) :
    ∃ pc ∈ ([⟨rOut, p0⟩] : List (View.Piece (Elt F) S2000x64 .f32)), y ∈ pc.1.set :=
  View.cover_of_tiled [⟨rOut, p0⟩] S2000x64.size (by rfl) y

set_option maxHeartbeats 1000000 in
/-- The body on whole buffers, the five inputs' at contents read as `x`, `a`, `p`, `b`, `q` and the output's at anything,
    runs to its end without fault, leaving the inputs' as they were and the output's at `msgStored` of the inputs. -/
theorem sound_kernel0 (c : Dev nD) (E : Set ℕ) (i : grid0.Coords) (arg1 : Memref sig .tc .vmem S2000x145 .f32) (harg1 : arg1.IsWhole) (arg2 : Memref sig .tc .vmem S4x144x128 .f32) (harg2 : arg2.IsWhole) (arg3 : Memref sig .tc .vmem S4x128 .f32) (harg3 : arg3.IsWhole) (arg4 : Memref sig .tc .vmem S4x128x64 .f32) (harg4 : arg4.IsWhole) (arg5 : Memref sig .tc .vmem S4x64 .f32) (harg5 : arg5.IsWhole) (arg6 : Memref sig .tc .vmem S2000x64 .f32) (harg6 : arg6.IsWhole)
    (x : Vec F S2000x145 .f32) (a : Vec F S4x144x128 .f32) (p : Vec F S4x128 .f32) (b : Vec F S4x128x64 .f32) (q : Vec F S4x64 .f32) (K : PUnit → sProp 𝕄) :
    iprop(owns (c : Thread nD τ) arg1 fullShare x ∗ owns (c : Thread nD τ) arg2 fullShare a ∗ owns (c : Thread nD τ) arg3 fullShare p ∗ owns (c : Thread nD τ) arg4 fullShare b ∗ owns (c : Thread nD τ) arg5 fullShare q ∗ (∃ d, owns (c : Thread nD τ) arg6 fullShare d)
        ∗ (iprop(owns (c : Thread nD τ) arg1 fullShare x ∗ owns (c : Thread nD τ) arg2 fullShare a ∗ owns (c : Thread nD τ) arg3 fullShare p ∗ owns (c : Thread nD τ) arg4 fullShare b ∗ owns (c : Thread nD τ) arg5 fullShare q ∗ owns (c : Thread nD τ) arg6 fullShare (msgStored x a p b q)) -∗ K ⟨⟩))
      ⊢ wp frame (wpE (defs₀ (F := F)) Variants.none c none) E (cc0__msg_kernel i arg1 harg1 arg2 harg2 arg3 harg3 arg4 harg4 arg5 harg5 arg6 harg6) K := by
  simp only [cc0__msg_kernel_eq_skeleton]; unfold cc0__msg_kernel_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-! ## The pipeline's proof data -/

/-- The proof data of the pipeline on core `c`: the arrays as in `V`; after the body at point `t` each input's
    buffer at its block and the output's at `msgStored` of the five blocks; the invariant carries the rest of the
    core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => msgStored (blk0 V c 0 t) (blk0 V c 1 t) (blk0 V c 2 t) (blk0 V c 3 t) (blk0 V c 4 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = msgStored (blk0 V c 0 t) (blk0 V c 1 t) (blk0 V c 2 t) (blk0 V c 3 t) (blk0 V c 4 t) := by dsimp only [dat0]

/-- Each input's current buffer holds its block at every point. -/
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  The update kernel's pipeline on one core, at any contents `V` the core's buffers hold when the call is entered.

  At every grid point the pipeline hands the body one buffer per window. An input window's buffer holds the
  window's block of its array in `V`: window 0's is the node block of the point, 2000 rows of the node array, brought in afresh at every
  point; windows 1 to 4 are the four weight tables, whole, brought in at the first point and never again, so at a later
  point the buffer still holds the table because the body leaves every input buffer as it found it. The output
  window's buffer holds anything when the body starts. The body reads the inputs, reads the output buffer once and
  drops what it read, and overwrites the output buffer whole; what it leaves there is `updStored` of the five input blocks,
  a single piece covering the block. This is the body's triple (`sound_kernel1`); the pipeline's proof data
  (`dat1`) state it per point, and `body_obligation1` is the form the pipeline's frame theorems take.
-/
import proofs.«119128_j38319698215247_1_alg».proof.Proof.BitsBodies
import proofs.«119128_j38319698215247_1_alg».proof.Proof.Gen.Kernel.Launch
import proofs.«119128_j38319698215247_1_alg».proof.Proof.Gen.Kernel.Skeleton
import proofs.«119128_j38319698215247_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows is decided by a structural recursion a step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off the window's array in `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the window's block at every point: where the window was brought in at the
    point, by the transfer; where it was not, its block index has not moved since the point before, and the body left the
    buffer as it found it. For any proof data over the arrays `V` whose body keeps the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current buffer holds the window's block at every point: where the window was brought in at the
    point, by the transfer; where it was not, its block index has not moved since the point before, and the body left the
    buffer as it found it. For any proof data over the arrays `V` whose body keeps the block in place. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current buffer holds the window's block at every point: where the window was brought in at the
    point, by the transfer; where it was not, its block index has not moved since the point before, and the body left the
    buffer as it found it. For any proof data over the arrays `V` whose body keeps the block in place. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current buffer holds the window's block at every point: where the window was brought in at the
    point, by the transfer; where it was not, its block index has not moved since the point before, and the body left the
    buffer as it found it. For any proof data over the arrays `V` whose body keeps the block in place. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current buffer holds the window's block at every point: where the window was brought in at the
    point, by the transfer; where it was not, its block index has not moved since the point before, and the body left the
    buffer as it found it. For any proof data over the arrays `V` whose body keeps the block in place. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The body's triple -/

/-- The one store's rectangle is the whole output block, so it covers it. -/
theorem cover1 (p0 : Vec F S2000x64 .f32) (y : S2000x64.Idx) :
    ∃ pc ∈ ([⟨rOut, p0⟩] : List (View.Piece (Elt F) S2000x64 .f32)), y ∈ pc.1.set :=
  View.cover_of_tiled [⟨rOut, p0⟩] S2000x64.size (by rfl) y

set_option maxHeartbeats 1000000 in
/-- The body on whole buffers, the five inputs' at contents read as `y`, `a`, `p`, `b`, `q` and the output's at anything,
    runs to its end without fault, leaving the inputs' as they were and the output's at `updStored` of the inputs. -/
theorem sound_kernel1 (c : Dev nD) (E : Set ℕ) (i : grid1.Coords) (arg1 : Memref sig .tc .vmem S2000x65 .f32) (harg1 : arg1.IsWhole) (arg2 : Memref sig .tc .vmem S2x64x128 .f32) (harg2 : arg2.IsWhole) (arg3 : Memref sig .tc .vmem S2x128 .f32) (harg3 : arg3.IsWhole) (arg4 : Memref sig .tc .vmem S2x128x64 .f32) (harg4 : arg4.IsWhole) (arg5 : Memref sig .tc .vmem S2x64 .f32) (harg5 : arg5.IsWhole) (arg6 : Memref sig .tc .vmem S2000x64 .f32) (harg6 : arg6.IsWhole)
    (y : Vec F S2000x65 .f32) (a : Vec F S2x64x128 .f32) (p : Vec F S2x128 .f32) (b : Vec F S2x128x64 .f32) (q : Vec F S2x64 .f32) (K : PUnit → sProp 𝕄) :
    iprop(owns (c : Thread nD τ) arg1 fullShare y ∗ owns (c : Thread nD τ) arg2 fullShare a ∗ owns (c : Thread nD τ) arg3 fullShare p ∗ owns (c : Thread nD τ) arg4 fullShare b ∗ owns (c : Thread nD τ) arg5 fullShare q ∗ (∃ d, owns (c : Thread nD τ) arg6 fullShare d)
        ∗ (iprop(owns (c : Thread nD τ) arg1 fullShare y ∗ owns (c : Thread nD τ) arg2 fullShare a ∗ owns (c : Thread nD τ) arg3 fullShare p ∗ owns (c : Thread nD τ) arg4 fullShare b ∗ owns (c : Thread nD τ) arg5 fullShare q ∗ owns (c : Thread nD τ) arg6 fullShare (updStored y a p b q)) -∗ K ⟨⟩))
      ⊢ wp frame (wpE (defs₀ (F := F)) Variants.none c none) E (cc1__upd_kernel i arg1 harg1 arg2 harg2 arg3 harg3 arg4 harg4 arg5 harg5 arg6 harg6) K := by
  simp only [cc1__upd_kernel_eq_skeleton]; unfold cc1__upd_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The pipeline's proof data -/

/-- The proof data of the pipeline on core `c`: the arrays as in `V`; after the body at point `t` each input's
    buffer at its block and the output's at `updStored` of the five blocks; the invariant carries the rest of the
    core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => updStored (blk1 V c 0 t) (blk1 V c 1 t) (blk1 V c 2 t) (blk1 V c 3 t) (blk1 V c 4 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = updStored (blk1 V c 0 t) (blk1 V c 1 t) (blk1 V c 2 t) (blk1 V c 3 t) (blk1 V c 4 t) := by dsimp only [dat1]

/-- Each input's current buffer holds its block at every point. -/
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program's run: host operations, the message kernel's call, host operations, the update kernel's call.

  The contents of every buffer of a core are followed from the launch memory `m` through the four stretches as a fold:
  `W0` at launch; `W1` after the first host stretch (each operation writes its result buffer and nothing else);
  `W2` after the message call, whose six arrays end at what its pipeline leaves — the five inputs as entered, the
  output array its blocks' write-backs folded over the grid — and every other buffer as entered; `W3` after the
  second host stretch; `W4` after the update call, likewise. Every weakly fair execution of the program from `m`
  with all counters at zero terminates without fault, and its final memory is `W4` at every unscoped buffer of every
  core (`run_all`). No stretch writes an argument array — a host operation writes only its own result, a call writes
  only its output array, and an argument that is an input window of a call is handed back as entered — so the fold at
  an argument walks back to `m` (`W4_main_argK`), which is the frame claim (`frame`).
-/
import proofs.«119128_j38319698215247_1_alg».proof.Proof.BitsRegion0
import proofs.«119128_j38319698215247_1_alg».proof.Proof.BitsRegion1
import proofs.«119128_j38319698215247_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: what the message call is entered with. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the message call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the update call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the update call: the last boundary. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide)
    _ = W1 m ρ c (Proc.devRef .tc main_arg0) := W2_of_ne m ρ c main_arg0 (by decide)
    _ = W0 m ρ c (Proc.devRef .tc main_arg0) := StableHlo.after_of_writes_sub hostOps0 (W0 m ρ c) hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 (W2 m ρ c) hostOps1_writes (by decide)
    _ = W1 m ρ c (Proc.devRef .tc main_arg1) := W2_of_ne m ρ c main_arg1 (by decide)
    _ = W0 m ρ c (Proc.devRef .tc main_arg1) := StableHlo.after_of_writes_sub hostOps0 (W0 m ρ c) hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 (W2 m ρ c) hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 (W0 m ρ c) hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 (W2 m ρ c) hostOps1_writes (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 (W0 m ρ c) hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 (W2 m ρ c) hostOps1_writes (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_writes_sub hostOps0 (W0 m ρ c) hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 (W2 m ρ c) hostOps1_writes (by decide)
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_writes_sub hostOps0 (W0 m ρ c) hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 1).trans (((dat1 (V3 m ρ) c).arrAt_in 1 rfl _).trans (A_eq1 (V3 m ρ) c 1))
    _ = W2 m ρ c (Proc.devRef .tc main_arg6) := StableHlo.after_of_writes_sub hostOps1 (W2 m ρ c) hostOps1_writes (by decide)
    _ = W1 m ρ c (Proc.devRef .tc main_arg6) := W2_of_ne m ρ c main_arg6 (by decide)
    _ = W0 m ρ c (Proc.devRef .tc main_arg6) := StableHlo.after_of_writes_sub hostOps0 (W0 m ρ c) hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 2).trans (((dat1 (V3 m ρ) c).arrAt_in 2 rfl _).trans (A_eq1 (V3 m ρ) c 2))
    _ = W2 m ρ c (Proc.devRef .tc main_arg7) := StableHlo.after_of_writes_sub hostOps1 (W2 m ρ c) hostOps1_writes (by decide)
    _ = W1 m ρ c (Proc.devRef .tc main_arg7) := W2_of_ne m ρ c main_arg7 (by decide)
    _ = W0 m ρ c (Proc.devRef .tc main_arg7) := StableHlo.after_of_writes_sub hostOps0 (W0 m ρ c) hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 3).trans (((dat1 (V3 m ρ) c).arrAt_in 3 rfl _).trans (A_eq1 (V3 m ρ) c 3))
    _ = W2 m ρ c (Proc.devRef .tc main_arg8) := StableHlo.after_of_writes_sub hostOps1 (W2 m ρ c) hostOps1_writes (by decide)
    _ = W1 m ρ c (Proc.devRef .tc main_arg8) := W2_of_ne m ρ c main_arg8 (by decide)
    _ = W0 m ρ c (Proc.devRef .tc main_arg8) := StableHlo.after_of_writes_sub hostOps0 (W0 m ρ c) hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 4).trans (((dat1 (V3 m ρ) c).arrAt_in 4 rfl _).trans (A_eq1 (V3 m ρ) c 4))
    _ = W2 m ρ c (Proc.devRef .tc main_arg9) := StableHlo.after_of_writes_sub hostOps1 (W2 m ρ c) hostOps1_writes (by decide)
    _ = W1 m ρ c (Proc.devRef .tc main_arg9) := W2_of_ne m ρ c main_arg9 (by decide)
    _ = W0 m ρ c (Proc.devRef .tc main_arg9) := StableHlo.after_of_writes_sub hostOps0 (W0 m ρ c) hostOps0_writes (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 (W2 m ρ c) hostOps1_writes (by decide)
    _ = W1 m ρ c (Proc.devRef .tc main_arg10) := W2_of_ne m ρ c main_arg10 (by decide)
    _ = W0 m ρ c (Proc.devRef .tc main_arg10) := StableHlo.after_of_writes_sub hostOps0 (W0 m ρ c) hostOps0_writes (by decide)
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 (W2 m ρ c) hostOps1_writes (by decide)
    _ = W1 m ρ c (Proc.devRef .tc main_arg11) := W2_of_ne m ρ c main_arg11 (by decide)
    _ = W0 m ρ c (Proc.devRef .tc main_arg11) := StableHlo.after_of_writes_sub hostOps0 (W0 m ρ c) hostOps0_writes (by decide)
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 (W2 m ρ c) hostOps1_writes (by decide)
    _ = W1 m ρ c (Proc.devRef .tc main_arg12) := W2_of_ne m ρ c main_arg12 (by decide)
    _ = W0 m ρ c (Proc.devRef .tc main_arg12) := StableHlo.after_of_writes_sub hostOps0 (W0 m ρ c) hostOps0_writes (by decide)
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 (W2 m ρ c) hostOps1_writes (by decide)
    _ = W1 m ρ c (Proc.devRef .tc main_arg13) := W2_of_ne m ρ c main_arg13 (by decide)
    _ = W0 m ρ c (Proc.devRef .tc main_arg13) := StableHlo.after_of_writes_sub hostOps0 (W0 m ρ c) hostOps0_writes (by decide)
    _ = m ((c : Thread nD τ).loc main_arg13) := rfl

/-! ## The proof data family and the thread state -/

/-- No pipeline has a prefetched table. -/
abbrev adm : (p : Fin 2) → (pcfgs (F := F) p).Adm := fun p => (cfgs p).toPCfg_adm
/-- Each pipeline's proof data, at the contents its call is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the core's generator register at some state, and what it
    owes, which is nothing. -/
abbrev R (c : Dev nD) : sProp 𝕄 := iprop((∃ r, prngReg c r) ∗ ∃ W, owes (c : Thread nD τ) (0 : CellTallies nD τ sig Unit) W)
/-- A host stretch from the contents `W`, `R` riding along; it ends at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The calls as segments -/

-- a library lemma stated over the pinned configuration unifies with the printed one only when unification may unfold
-- plain definitions in a metavariable's type
set_option backward.isDefEq.respectTransparency.types false in
/-- Call 0 over the thread state: entered with every unscoped buffer at `W1`, left with them at `W2`. At
    entry the call's six arrays are split out of the unscoped buffers and the rest set aside; at exit they are put
    back at what the pipeline leaves; the generator register goes into the pipeline's invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 over the thread state: entered with every unscoped buffer at `W3`, left with them at `W4`. At
    entry the call's six arrays are split out of the unscoped buffers and the rest set aside; at exit they are put
    back at what the pipeline leaves; the generator register goes into the pipeline's invariant and comes back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- Every weakly fair execution from `m` with all counters at zero terminates, nothing faulting, and its final memory
    holds `W4` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim: every argument array ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c)⟩) (run_all m ρ)

end Cert.Kernel.Hand

end
-- ==== Proof.IdealBodies.lean ====
/-
  What each of the two kernels stores, as ONE function of the blocks its five input windows hold.

  The message kernel reads an edge block `x` of 2000 rows and 145 columns — 144 feature columns (source node,
  edge, destination node) and the edge type as a number in column 144 — and four weight tables indexed by edge
  type. For each type `t = 0, 1, 2, 3` it forms the two-layer perceptron
  `m_t = relu (x · W1[t] + b1[t]) · W2[t] + b2[t]` on the feature columns and adds `[type = t] · m_t` to a running
  sum that starts at zero; the sum after the fourth type is what it stores, whole, into its 2000 × 64 output block.
  The update kernel does the same over two node types on a node block of 64 aggregate columns and the node type
  in column 64.

  The arithmetic is the generated payload functions' (one per stretch of the body between memory operations);
  here they are only composed, each applied to the loads it reads, so that the stored value is a closed term of
  the input blocks.
-/
import proofs.«119128_j38319698215247_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

/-! ## The message kernel's rectangles -/

/-- The 144 feature columns of an edge block. -/
abbrev rFeat : Rect S2000x145 := Rect.unit (s := S2000x145) ![0, 0] S2000x144.size inb_S2000x145_S2000x144_0_0
/-- Column 144 of an edge block: the edge type as a number. -/
abbrev rKind : Rect S2000x145 := Rect.unit (s := S2000x145) ![0, 144] S2000x1.size inb_S2000x145_S2000x1_0_144
/-- Slab `t` of each weight table. -/
abbrev rA0 : Rect S4x144x128 := Rect.unit (s := S4x144x128) ![0, 0, 0] S1x144x128.size inb_S4x144x128_S1x144x128_0_0_0
abbrev rA1 : Rect S4x144x128 := Rect.unit (s := S4x144x128) ![1, 0, 0] S1x144x128.size inb_S4x144x128_S1x144x128_1_0_0
abbrev rA2 : Rect S4x144x128 := Rect.unit (s := S4x144x128) ![2, 0, 0] S1x144x128.size inb_S4x144x128_S1x144x128_2_0_0
abbrev rA3 : Rect S4x144x128 := Rect.unit (s := S4x144x128) ![3, 0, 0] S1x144x128.size inb_S4x144x128_S1x144x128_3_0_0
abbrev rP0 : Rect S4x128 := Rect.unit (s := S4x128) ![0, 0] S1x128.size inb_S4x128_S1x128_0_0
abbrev rP1 : Rect S4x128 := Rect.unit (s := S4x128) ![1, 0] S1x128.size inb_S4x128_S1x128_1_0
abbrev rP2 : Rect S4x128 := Rect.unit (s := S4x128) ![2, 0] S1x128.size inb_S4x128_S1x128_2_0
abbrev rP3 : Rect S4x128 := Rect.unit (s := S4x128) ![3, 0] S1x128.size inb_S4x128_S1x128_3_0
abbrev rB0 : Rect S4x128x64 := Rect.unit (s := S4x128x64) ![0, 0, 0] S1x128x64.size inb_S4x128x64_S1x128x64_0_0_0
abbrev rB1 : Rect S4x128x64 := Rect.unit (s := S4x128x64) ![1, 0, 0] S1x128x64.size inb_S4x128x64_S1x128x64_1_0_0
abbrev rB2 : Rect S4x128x64 := Rect.unit (s := S4x128x64) ![2, 0, 0] S1x128x64.size inb_S4x128x64_S1x128x64_2_0_0
abbrev rB3 : Rect S4x128x64 := Rect.unit (s := S4x128x64) ![3, 0, 0] S1x128x64.size inb_S4x128x64_S1x128x64_3_0_0
abbrev rQ0 : Rect S4x64 := Rect.unit (s := S4x64) ![0, 0] S1x64.size inb_S4x64_S1x64_0_0
abbrev rQ1 : Rect S4x64 := Rect.unit (s := S4x64) ![1, 0] S1x64.size inb_S4x64_S1x64_1_0
abbrev rQ2 : Rect S4x64 := Rect.unit (s := S4x64) ![2, 0] S1x64.size inb_S4x64_S1x64_2_0
abbrev rQ3 : Rect S4x64 := Rect.unit (s := S4x64) ![3, 0] S1x64.size inb_S4x64_S1x64_3_0
/-- The whole 2000 × 64 output block. -/
abbrev rOut : Rect S2000x64 := Rect.unit (s := S2000x64) ![0, 0] S2000x64.size inb_S2000x64_S2000x64_0_0

/-! ## The message kernel's running sum -/

section Message

variable (x : Vec F S2000x145 .f32) (a : Vec F S4x144x128 .f32) (p : Vec F S4x128 .f32)
  (b : Vec F S4x128x64 .f32) (q : Vec F S4x64 .f32)

/-- The edge-type column as the body carries it. -/
def msgKind : FVec F S2000x1 .f32 := k0_pay1 (View.ld x rKind)
/-- The feature columns as the first matrix product takes them. -/
def msgFeat : FVec F S2000x144 .bf16 := k0_pay2 (View.ld x rFeat)
/-- The sum after edge type 0. -/
def msgSum0 : FVec F S2000x64 .f32 :=
  k0_pay3 (View.ld x rFeat) (View.ld x rKind) (View.ld a rA0) (View.ld p rP0) (View.ld b rB0) (View.ld q rQ0)
/-- The sum after edge type 1. -/
def msgSum1 : FVec F S2000x64 .f32 :=
  k0_pay5 (msgKind x) (msgFeat x) (msgSum0 x a p b q) (k0_pay4 (View.ld a rA1)) (View.ld p rP1) (View.ld b rB1) (View.ld q rQ1)
/-- The sum after edge type 3, through type 2: the stored value. -/
def msgSum3 : FVec F S2000x64 .f32 :=
  k0_pay10 (msgKind x) (msgFeat x) (msgSum1 x a p b q) (k0_pay6 (View.ld b rB2)) (k0_pay7 (View.ld q rQ2))
    (k0_pay8 (msgFeat x) (View.ld a rA2)) (k0_pay9 (View.ld p rP2))
    (View.ld a rA3) (View.ld p rP3) (View.ld b rB3) (View.ld q rQ3)

/-- What the message kernel leaves in its output block: its one store, of the whole block. -/
def msgStored : Vec F S2000x64 .f32 := View.canon [⟨rOut, msgSum3 x a p b q⟩]

end Message

/-! ## The update kernel's rectangles and running sum -/

/-- The 64 aggregate columns of a node block. -/
abbrev rAgg : Rect S2000x65 := Rect.unit (s := S2000x65) ![0, 0] S2000x64.size inb_S2000x65_S2000x64_0_0
/-- Column 64 of a node block: the node type as a number. -/
abbrev rNode : Rect S2000x65 := Rect.unit (s := S2000x65) ![0, 64] S2000x1.size inb_S2000x65_S2000x1_0_64
abbrev rC0 : Rect S2x64x128 := Rect.unit (s := S2x64x128) ![0, 0, 0] S1x64x128.size inb_S2x64x128_S1x64x128_0_0_0
abbrev rC1 : Rect S2x64x128 := Rect.unit (s := S2x64x128) ![1, 0, 0] S1x64x128.size inb_S2x64x128_S1x64x128_1_0_0
abbrev rR0 : Rect S2x128 := Rect.unit (s := S2x128) ![0, 0] S1x128.size inb_S2x128_S1x128_0_0
abbrev rR1 : Rect S2x128 := Rect.unit (s := S2x128) ![1, 0] S1x128.size inb_S2x128_S1x128_1_0
abbrev rD0 : Rect S2x128x64 := Rect.unit (s := S2x128x64) ![0, 0, 0] S1x128x64.size inb_S2x128x64_S1x128x64_0_0_0
abbrev rD1 : Rect S2x128x64 := Rect.unit (s := S2x128x64) ![1, 0, 0] S1x128x64.size inb_S2x128x64_S1x128x64_1_0_0
abbrev rS0 : Rect S2x64 := Rect.unit (s := S2x64) ![0, 0] S1x64.size inb_S2x64_S1x64_0_0
abbrev rS1 : Rect S2x64 := Rect.unit (s := S2x64) ![1, 0] S1x64.size inb_S2x64_S1x64_1_0

section Update

variable (y : Vec F S2000x65 .f32) (a : Vec F S2x64x128 .f32) (p : Vec F S2x128 .f32)
  (b : Vec F S2x128x64 .f32) (q : Vec F S2x64 .f32)

/-- The sum after node type 0. -/
def updSum0 : FVec F S2000x64 .f32 :=
  k1_pay4 (View.ld y rAgg) (View.ld y rNode) (View.ld a rC0) (View.ld p rR0) (View.ld b rD0) (View.ld q rS0)
/-- The sum after node type 1: the stored value. -/
def updSum1 : FVec F S2000x64 .f32 :=
  k1_pay1 (k1_pay2 (View.ld y rNode)) (k1_pay3 (View.ld y rAgg)) (updSum0 y a p b q) (k1_pay5 (View.ld a rC1))
    (View.ld p rR1) (View.ld b rD1) (View.ld q rS1)

/-- What the update kernel leaves in its output block. -/
def updStored : Vec F S2000x64 .f32 := View.canon [⟨rOut, updSum1 y a p b q⟩]

end Update

end Cert.KernelIdeal.Hand

end
-- ==== Proof.IdealRegion0.lean ====
/-
  The message kernel's pipeline on one core, at any contents `V` the core's buffers hold when the call is entered.

  At every grid point the pipeline hands the body one buffer per window. An input window's buffer holds the
  window's block of its array in `V`: window 0's is the edge block of the point, 2000 rows of the edge array, brought in afresh at every
  point; windows 1 to 4 are the four weight tables, whole, brought in at the first point and never again, so at a later
  point the buffer still holds the table because the body leaves every input buffer as it found it. The output
  window's buffer holds anything when the body starts. The body reads the inputs, reads the output buffer once and
  drops what it read, and overwrites the output buffer whole; what it leaves there is `msgStored` of the five input blocks,
  a single piece covering the block. This is the body's triple (`sound_kernel0`); the pipeline's proof data
  (`dat0`) state it per point, and `body_obligation0` is the form the pipeline's frame theorems take.
-/
import proofs.«119128_j38319698215247_1_alg».proof.Proof.IdealBodies
import proofs.«119128_j38319698215247_1_alg».proof.Proof.Gen.KernelIdeal.Launch
import proofs.«119128_j38319698215247_1_alg».proof.Proof.Gen.KernelIdeal.Skeleton
import proofs.«119128_j38319698215247_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows is decided by a structural recursion a step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off the window's array in `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds the window's block at every point: where the window was brought in at the
    point, by the transfer; where it was not, its block index has not moved since the point before, and the body left the
    buffer as it found it. For any proof data over the arrays `V` whose body keeps the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current buffer holds the window's block at every point: where the window was brought in at the
    point, by the transfer; where it was not, its block index has not moved since the point before, and the body left the
    buffer as it found it. For any proof data over the arrays `V` whose body keeps the block in place. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current buffer holds the window's block at every point: where the window was brought in at the
    point, by the transfer; where it was not, its block index has not moved since the point before, and the body left the
    buffer as it found it. For any proof data over the arrays `V` whose body keeps the block in place. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current buffer holds the window's block at every point: where the window was brought in at the
    point, by the transfer; where it was not, its block index has not moved since the point before, and the body left the
    buffer as it found it. For any proof data over the arrays `V` whose body keeps the block in place. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current buffer holds the window's block at every point: where the window was brought in at the
    point, by the transfer; where it was not, its block index has not moved since the point before, and the body left the
    buffer as it found it. For any proof data over the arrays `V` whose body keeps the block in place. -/
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's triple -/

/-- The one store's rectangle is the whole output block, so it covers it. -/
theorem cover0 (p0 : Vec F S2000x64 .f32) (y : S2000x64.Idx) :
    ∃ pc ∈ ([⟨rOut, p0⟩] : List (View.Piece (Elt F) S2000x64 .f32)), y ∈ pc.1.set :=
  View.cover_of_tiled [⟨rOut, p0⟩] S2000x64.size (by rfl) y

set_option maxHeartbeats 1000000 in
/-- The body on whole buffers, the five inputs' at contents read as `x`, `a`, `p`, `b`, `q` and the output's at anything,
    runs to its end without fault, leaving the inputs' as they were and the output's at `msgStored` of the inputs. -/
theorem sound_kernel0 (c : Dev nD) (E : Set ℕ) (i : grid0.Coords) (arg1 : Memref sig .tc .vmem S2000x145 .f32) (harg1 : arg1.IsWhole) (arg2 : Memref sig .tc .vmem S4x144x128 .f32) (harg2 : arg2.IsWhole) (arg3 : Memref sig .tc .vmem S4x128 .f32) (harg3 : arg3.IsWhole) (arg4 : Memref sig .tc .vmem S4x128x64 .f32) (harg4 : arg4.IsWhole) (arg5 : Memref sig .tc .vmem S4x64 .f32) (harg5 : arg5.IsWhole) (arg6 : Memref sig .tc .vmem S2000x64 .f32) (harg6 : arg6.IsWhole)
    (x : Vec F S2000x145 .f32) (a : Vec F S4x144x128 .f32) (p : Vec F S4x128 .f32) (b : Vec F S4x128x64 .f32) (q : Vec F S4x64 .f32) (K : PUnit → sProp 𝕄) :
    iprop(owns (c : Thread nD τ) arg1 fullShare x ∗ owns (c : Thread nD τ) arg2 fullShare a ∗ owns (c : Thread nD τ) arg3 fullShare p ∗ owns (c : Thread nD τ) arg4 fullShare b ∗ owns (c : Thread nD τ) arg5 fullShare q ∗ (∃ d, owns (c : Thread nD τ) arg6 fullShare d)
        ∗ (iprop(owns (c : Thread nD τ) arg1 fullShare x ∗ owns (c : Thread nD τ) arg2 fullShare a ∗ owns (c : Thread nD τ) arg3 fullShare p ∗ owns (c : Thread nD τ) arg4 fullShare b ∗ owns (c : Thread nD τ) arg5 fullShare q ∗ owns (c : Thread nD τ) arg6 fullShare (msgStored x a p b q)) -∗ K ⟨⟩))
      ⊢ wp frame (wpE (defs₀ (F := F)) Variants.none c none) E (cc0__msg_kernel i arg1 harg1 arg2 harg2 arg3 harg3 arg4 harg4 arg5 harg5 arg6 harg6) K := by
  simp only [cc0__msg_kernel_eq_skeleton]; unfold cc0__msg_kernel_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0 _)

/-! ## The pipeline's proof data -/

/-- The proof data of the pipeline on core `c`: the arrays as in `V`; after the body at point `t` each input's
    buffer at its block and the output's at `msgStored` of the five blocks; the invariant carries the rest of the
    core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => msgStored (blk0 V c 0 t) (blk0 V c 1 t) (blk0 V c 2 t) (blk0 V c 3 t) (blk0 V c 4 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = msgStored (blk0 V c 0 t) (blk0 V c 1 t) (blk0 V c 2 t) (blk0 V c 3 t) (blk0 V c 4 t) := by dsimp only [dat0]

/-- Each input's current buffer holds its block at every point. -/
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  The update kernel's pipeline on one core, at any contents `V` the core's buffers hold when the call is entered.

  At every grid point the pipeline hands the body one buffer per window. An input window's buffer holds the
  window's block of its array in `V`: window 0's is the node block of the point, 2000 rows of the node array, brought in afresh at every
  point; windows 1 to 4 are the four weight tables, whole, brought in at the first point and never again, so at a later
  point the buffer still holds the table because the body leaves every input buffer as it found it. The output
  window's buffer holds anything when the body starts. The body reads the inputs, reads the output buffer once and
  drops what it read, and overwrites the output buffer whole; what it leaves there is `updStored` of the five input blocks,
  a single piece covering the block. This is the body's triple (`sound_kernel1`); the pipeline's proof data
  (`dat1`) state it per point, and `body_obligation1` is the form the pipeline's frame theorems take.
-/
import proofs.«119128_j38319698215247_1_alg».proof.Proof.IdealBodies
import proofs.«119128_j38319698215247_1_alg».proof.Proof.Gen.KernelIdeal.Launch
import proofs.«119128_j38319698215247_1_alg».proof.Proof.Gen.KernelIdeal.Skeleton
import proofs.«119128_j38319698215247_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows is decided by a structural recursion a step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off the window's array in `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the window's block at every point: where the window was brought in at the
    point, by the transfer; where it was not, its block index has not moved since the point before, and the body left the
    buffer as it found it. For any proof data over the arrays `V` whose body keeps the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current buffer holds the window's block at every point: where the window was brought in at the
    point, by the transfer; where it was not, its block index has not moved since the point before, and the body left the
    buffer as it found it. For any proof data over the arrays `V` whose body keeps the block in place. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current buffer holds the window's block at every point: where the window was brought in at the
    point, by the transfer; where it was not, its block index has not moved since the point before, and the body left the
    buffer as it found it. For any proof data over the arrays `V` whose body keeps the block in place. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current buffer holds the window's block at every point: where the window was brought in at the
    point, by the transfer; where it was not, its block index has not moved since the point before, and the body left the
    buffer as it found it. For any proof data over the arrays `V` whose body keeps the block in place. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current buffer holds the window's block at every point: where the window was brought in at the
    point, by the transfer; where it was not, its block index has not moved since the point before, and the body left the
    buffer as it found it. For any proof data over the arrays `V` whose body keeps the block in place. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The body's triple -/

/-- The one store's rectangle is the whole output block, so it covers it. -/
theorem cover1 (p0 : Vec F S2000x64 .f32) (y : S2000x64.Idx) :
    ∃ pc ∈ ([⟨rOut, p0⟩] : List (View.Piece (Elt F) S2000x64 .f32)), y ∈ pc.1.set :=
  View.cover_of_tiled [⟨rOut, p0⟩] S2000x64.size (by rfl) y

set_option maxHeartbeats 1000000 in
/-- The body on whole buffers, the five inputs' at contents read as `y`, `a`, `p`, `b`, `q` and the output's at anything,
    runs to its end without fault, leaving the inputs' as they were and the output's at `updStored` of the inputs. -/
theorem sound_kernel1 (c : Dev nD) (E : Set ℕ) (i : grid1.Coords) (arg1 : Memref sig .tc .vmem S2000x65 .f32) (harg1 : arg1.IsWhole) (arg2 : Memref sig .tc .vmem S2x64x128 .f32) (harg2 : arg2.IsWhole) (arg3 : Memref sig .tc .vmem S2x128 .f32) (harg3 : arg3.IsWhole) (arg4 : Memref sig .tc .vmem S2x128x64 .f32) (harg4 : arg4.IsWhole) (arg5 : Memref sig .tc .vmem S2x64 .f32) (harg5 : arg5.IsWhole) (arg6 : Memref sig .tc .vmem S2000x64 .f32) (harg6 : arg6.IsWhole)
    (y : Vec F S2000x65 .f32) (a : Vec F S2x64x128 .f32) (p : Vec F S2x128 .f32) (b : Vec F S2x128x64 .f32) (q : Vec F S2x64 .f32) (K : PUnit → sProp 𝕄) :
    iprop(owns (c : Thread nD τ) arg1 fullShare y ∗ owns (c : Thread nD τ) arg2 fullShare a ∗ owns (c : Thread nD τ) arg3 fullShare p ∗ owns (c : Thread nD τ) arg4 fullShare b ∗ owns (c : Thread nD τ) arg5 fullShare q ∗ (∃ d, owns (c : Thread nD τ) arg6 fullShare d)
        ∗ (iprop(owns (c : Thread nD τ) arg1 fullShare y ∗ owns (c : Thread nD τ) arg2 fullShare a ∗ owns (c : Thread nD τ) arg3 fullShare p ∗ owns (c : Thread nD τ) arg4 fullShare b ∗ owns (c : Thread nD τ) arg5 fullShare q ∗ owns (c : Thread nD τ) arg6 fullShare (updStored y a p b q)) -∗ K ⟨⟩))
      ⊢ wp frame (wpE (defs₀ (F := F)) Variants.none c none) E (cc1__upd_kernel i arg1 harg1 arg2 harg2 arg3 harg3 arg4 harg4 arg5 harg5 arg6 harg6) K := by
  simp only [cc1__upd_kernel_eq_skeleton]; unfold cc1__upd_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The pipeline's proof data -/

/-- The proof data of the pipeline on core `c`: the arrays as in `V`; after the body at point `t` each input's
    buffer at its block and the output's at `updStored` of the five blocks; the invariant carries the rest of the
    core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => updStored (blk1 V c 0 t) (blk1 V c 1 t) (blk1 V c 2 t) (blk1 V c 3 t) (blk1 V c 4 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = updStored (blk1 V c 0 t) (blk1 V c 1 t) (blk1 V c 2 t) (blk1 V c 3 t) (blk1 V c 4 t) := by dsimp only [dat1]

/-- Each input's current buffer holds its block at every point. -/
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program's run: host operations, the message kernel's call, host operations, the update kernel's call.

  The contents of every buffer of a core are followed from the launch memory `m` through the four stretches as a fold:
  `W0` at launch; `W1` after the first host stretch (each operation writes its result buffer and nothing else);
  `W2` after the message call, whose six arrays end at what its pipeline leaves — the five inputs as entered, the
  output array its blocks' write-backs folded over the grid — and every other buffer as entered; `W3` after the
  second host stretch; `W4` after the update call, likewise. Every weakly fair execution of the program from `m`
  with all counters at zero terminates without fault, and its final memory is `W4` at every unscoped buffer of every
  core (`run_all`). No stretch writes an argument array — a host operation writes only its own result, a call writes
  only its output array, and an argument that is an input window of a call is handed back as entered — so the fold at
  an argument walks back to `m` (`W4_main_argK`), which is the frame claim (`frame`).
-/
import proofs.«119128_j38319698215247_1_alg».proof.Proof.IdealRegion0
import proofs.«119128_j38319698215247_1_alg».proof.Proof.IdealRegion1
import proofs.«119128_j38319698215247_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: what the message call is entered with. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the message call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the update call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the update call: the last boundary. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide)
    _ = W1 m ρ c (Proc.devRef .tc main_arg0) := W2_of_ne m ρ c main_arg0 (by decide)
    _ = W0 m ρ c (Proc.devRef .tc main_arg0) := StableHlo.after_of_writes_sub hostOps0 (W0 m ρ c) hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 (W2 m ρ c) hostOps1_writes (by decide)
    _ = W1 m ρ c (Proc.devRef .tc main_arg1) := W2_of_ne m ρ c main_arg1 (by decide)
    _ = W0 m ρ c (Proc.devRef .tc main_arg1) := StableHlo.after_of_writes_sub hostOps0 (W0 m ρ c) hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 (W2 m ρ c) hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 (W0 m ρ c) hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 (W2 m ρ c) hostOps1_writes (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 (W0 m ρ c) hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 (W2 m ρ c) hostOps1_writes (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_writes_sub hostOps0 (W0 m ρ c) hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 (W2 m ρ c) hostOps1_writes (by decide)
    _ = W1 m ρ c (Proc.devRef .tc main_arg5) := (W2_arr m ρ c 4).trans (((dat0 (V1 m ρ) c).arrAt_in 4 rfl _).trans (A_eq0 (V1 m ρ) c 4))
    _ = W0 m ρ c (Proc.devRef .tc main_arg5) := StableHlo.after_of_writes_sub hostOps0 (W0 m ρ c) hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 1).trans (((dat1 (V3 m ρ) c).arrAt_in 1 rfl _).trans (A_eq1 (V3 m ρ) c 1))
    _ = W2 m ρ c (Proc.devRef .tc main_arg6) := StableHlo.after_of_writes_sub hostOps1 (W2 m ρ c) hostOps1_writes (by decide)
    _ = W1 m ρ c (Proc.devRef .tc main_arg6) := W2_of_ne m ρ c main_arg6 (by decide)
    _ = W0 m ρ c (Proc.devRef .tc main_arg6) := StableHlo.after_of_writes_sub hostOps0 (W0 m ρ c) hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 2).trans (((dat1 (V3 m ρ) c).arrAt_in 2 rfl _).trans (A_eq1 (V3 m ρ) c 2))
    _ = W2 m ρ c (Proc.devRef .tc main_arg7) := StableHlo.after_of_writes_sub hostOps1 (W2 m ρ c) hostOps1_writes (by decide)
    _ = W1 m ρ c (Proc.devRef .tc main_arg7) := W2_of_ne m ρ c main_arg7 (by decide)
    _ = W0 m ρ c (Proc.devRef .tc main_arg7) := StableHlo.after_of_writes_sub hostOps0 (W0 m ρ c) hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 3).trans (((dat1 (V3 m ρ) c).arrAt_in 3 rfl _).trans (A_eq1 (V3 m ρ) c 3))
    _ = W2 m ρ c (Proc.devRef .tc main_arg8) := StableHlo.after_of_writes_sub hostOps1 (W2 m ρ c) hostOps1_writes (by decide)
    _ = W1 m ρ c (Proc.devRef .tc main_arg8) := W2_of_ne m ρ c main_arg8 (by decide)
    _ = W0 m ρ c (Proc.devRef .tc main_arg8) := StableHlo.after_of_writes_sub hostOps0 (W0 m ρ c) hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 4).trans (((dat1 (V3 m ρ) c).arrAt_in 4 rfl _).trans (A_eq1 (V3 m ρ) c 4))
    _ = W2 m ρ c (Proc.devRef .tc main_arg9) := StableHlo.after_of_writes_sub hostOps1 (W2 m ρ c) hostOps1_writes (by decide)
    _ = W1 m ρ c (Proc.devRef .tc main_arg9) := W2_of_ne m ρ c main_arg9 (by decide)
    _ = W0 m ρ c (Proc.devRef .tc main_arg9) := StableHlo.after_of_writes_sub hostOps0 (W0 m ρ c) hostOps0_writes (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 (W2 m ρ c) hostOps1_writes (by decide)
    _ = W1 m ρ c (Proc.devRef .tc main_arg10) := W2_of_ne m ρ c main_arg10 (by decide)
    _ = W0 m ρ c (Proc.devRef .tc main_arg10) := StableHlo.after_of_writes_sub hostOps0 (W0 m ρ c) hostOps0_writes (by decide)
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 (W2 m ρ c) hostOps1_writes (by decide)
    _ = W1 m ρ c (Proc.devRef .tc main_arg11) := W2_of_ne m ρ c main_arg11 (by decide)
    _ = W0 m ρ c (Proc.devRef .tc main_arg11) := StableHlo.after_of_writes_sub hostOps0 (W0 m ρ c) hostOps0_writes (by decide)
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 (W2 m ρ c) hostOps1_writes (by decide)
    _ = W1 m ρ c (Proc.devRef .tc main_arg12) := W2_of_ne m ρ c main_arg12 (by decide)
    _ = W0 m ρ c (Proc.devRef .tc main_arg12) := StableHlo.after_of_writes_sub hostOps0 (W0 m ρ c) hostOps0_writes (by decide)
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_writes_sub hostOps1 (W2 m ρ c) hostOps1_writes (by decide)
    _ = W1 m ρ c (Proc.devRef .tc main_arg13) := W2_of_ne m ρ c main_arg13 (by decide)
    _ = W0 m ρ c (Proc.devRef .tc main_arg13) := StableHlo.after_of_writes_sub hostOps0 (W0 m ρ c) hostOps0_writes (by decide)
    _ = m ((c : Thread nD τ).loc main_arg13) := rfl

/-! ## The proof data family and the thread state -/

/-- No pipeline has a prefetched table. -/
abbrev adm : (p : Fin 2) → (pcfgs (F := F) p).Adm := fun p => (cfgs p).toPCfg_adm
/-- Each pipeline's proof data, at the contents its call is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the core's generator register at some state, and what it
    owes, which is nothing. -/
abbrev R (c : Dev nD) : sProp 𝕄 := iprop((∃ r, prngReg c r) ∗ ∃ W, owes (c : Thread nD τ) (0 : CellTallies nD τ sig Unit) W)
/-- A host stretch from the contents `W`, `R` riding along; it ends at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The calls as segments -/

-- a library lemma stated over the pinned configuration unifies with the printed one only when unification may unfold
-- plain definitions in a metavariable's type
set_option backward.isDefEq.respectTransparency.types false in
/-- Call 0 over the thread state: entered with every unscoped buffer at `W1`, left with them at `W2`. At
    entry the call's six arrays are split out of the unscoped buffers and the rest set aside; at exit they are put
    back at what the pipeline leaves; the generator register goes into the pipeline's invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 over the thread state: entered with every unscoped buffer at `W3`, left with them at `W4`. At
    entry the call's six arrays are split out of the unscoped buffers and the rest set aside; at exit they are put
    back at what the pipeline leaves; the generator register goes into the pipeline's invariant and comes back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- Every weakly fair execution from `m` with all counters at zero terminates, nothing faulting, and its final memory
    holds `W4` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame claim: every argument array ends holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c)⟩) (run_all m ρ)

end Cert.KernelIdeal.Hand

end
-- ==== Proof.Spec.lean ====
/-
  The layer both programs compute, row by row, on the extended reals.

  One row `x` of features goes through a two-layer perceptron per type,
  `mlp x A p B q j = (Σ_h max (Σ_k x k · A k h + p h) 0 · B h j) + q j`,
  and the row's result is the sum over the types of "this type's perceptron if the row has this type, else zero".
  One program selects with a conditional on the integer type; the other multiplies by the indicator it gets by
  comparing the type, converted to a real, with the real `t`. On the extended reals `1 · v = v` and `0 · v = 0`
  for EVERY `v`, the infinities included, and an integer's conversion to a real is injective, so the two agree with
  no finiteness assumption (`gate_eq`).
-/
import Idealize.ShloMosaic.PureOps.Ideal.Laws
import Idealize.ShloMosaic.Lib.ValueIdx

noncomputable section

namespace Cert.Spec

open Idealize.ShloMosaic

/-- The hidden layer at unit `h`: `relu (x · A + p)`. -/
def hidden {K H : ℕ} (x : Fin K → EReal) (A : Fin K → Fin H → EReal) (p : Fin H → EReal) (h : Fin H) : EReal :=
  max ((∑ k : Fin K, x k * A k h) + p h) 0

/-- The perceptron's output `j`. -/
def mlp {K H O : ℕ} (x : Fin K → EReal) (A : Fin K → Fin H → EReal) (p : Fin H → EReal)
    (B : Fin H → Fin O → EReal) (q : Fin O → EReal) (j : Fin O) : EReal :=
  (∑ h : Fin H, hidden x A p h * B h j) + q j

/-- "`v` if the row's type, read signed, is `t`, else zero." -/
def pick (ty : BitVec 32) (t : ℤ) (v : EReal) : EReal := if ty.toInt = t then v else 0

/-- A message row: four edge types. -/
def msgAt (x : Fin 144 → EReal) (ty : BitVec 32)
    (A : Fin 4 → Fin 144 → Fin 128 → EReal) (p : Fin 4 → Fin 128 → EReal)
    (B : Fin 4 → Fin 128 → Fin 64 → EReal) (q : Fin 4 → Fin 64 → EReal) (j : Fin 64) : EReal :=
  pick ty 0 (mlp x (A 0) (p 0) (B 0) (q 0) j) + pick ty 1 (mlp x (A 1) (p 1) (B 1) (q 1) j)
    + pick ty 2 (mlp x (A 2) (p 2) (B 2) (q 2) j) + pick ty 3 (mlp x (A 3) (p 3) (B 3) (q 3) j)

/-- An update row: two node types. -/
def updAt (x : Fin 64 → EReal) (ty : BitVec 32)
    (A : Fin 2 → Fin 64 → Fin 128 → EReal) (p : Fin 2 → Fin 128 → EReal)
    (B : Fin 2 → Fin 128 → Fin 64 → EReal) (q : Fin 2 → Fin 64 → EReal) (j : Fin 64) : EReal :=
  pick ty 0 (mlp x (A 0) (p 0) (B 0) (q 0) j) + pick ty 1 (mlp x (A 1) (p 1) (B 1) (q 1) j)

/-! ## The four type words as reals -/

theorem word_one : Ideal.ofBits .f32 0x3F800000#32 = ((1 : ℝ) : EReal) := by
  simp [Ideal.ofBits, Ideal.ieee]
  rw [← EReal.coe_mul]; norm_cast; norm_num
theorem word_two : Ideal.ofBits .f32 0x40000000#32 = ((2 : ℝ) : EReal) := by
  simp [Ideal.ofBits, Ideal.ieee]
  rw [← EReal.coe_mul]; norm_cast; norm_num
theorem word_three : Ideal.ofBits .f32 0x40400000#32 = ((3 : ℝ) : EReal) := by
  simp [Ideal.ofBits, Ideal.ieee]
  rw [← EReal.coe_mul]; norm_cast; norm_num

/-! ## The indicator by comparison is the conditional -/

/-- The product with the 0/1 indicator a comparison yields is the conditional, for every extended real `v`: an
    integer's exact conversion equals the real `n` iff the integer is `n`, and `1 · v = v`, `0 · v = 0` whatever `v`. -/
theorem gate_eq (w : BitVec 32) (c : EReal) (n : ℤ) (hc : c = (((n : ℝ)) : EReal)) (v : EReal) :
    (((((Ideal.cmp .oeq (((w.toInt : ℝ)) : EReal) c).setWidth 32).toInt : ℝ)) : EReal) * v = pick w n v := by
  unfold pick Ideal.cmp
  subst hc
  have hiff : ((((w.toInt : ℝ)) : EReal) = (((n : ℝ)) : EReal)) ↔ w.toInt = n := by
    rw [EReal.coe_eq_coe_iff, Int.cast_inj]
  by_cases h : w.toInt = n
  · rw [if_pos h, decide_eq_true (hiff.2 h)]
    simp
  · rw [if_neg h, decide_eq_false (fun e => h (hiff.1 e))]
    simp

end Cert.Spec

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibGatedMlp.lean ====
/-
  A gated two-layer perceptron read at an index written by coordinates, on the extended reals.

  Four readings, each of a composite of vector operations at `(r, j)`:
  * a weight slab `[1, a, b]`, cast to `[a, b]` and narrowed, reads at `(i, j)` the slab at `(0, i, j)` (a change of
    float format is the identity on the exact values);
  * a bias row `[1, H]`, cast to a vector and back and broadcast down `M` rows, reads at `(r, h)` the row at `(0, h)`;
  * `relu (x · A + p) · B + q`, both products into zero accumulators, reads at `(r, j)`
    `(Σ_h max (Σ_k x(r,k) · A(k,h) + p(r,h)) 0 · B(h,j)) + q(r,j)`;
  * the product with the indicator `[kind = c]`, the indicator made by comparing a column with a splat constant,
    widening the bit and converting it, reads at `(r, j)` "the value if row `r`'s kind is `c`, else zero" — for every
    extended real value, since `1 · v = v` and `0 · v = 0` hold at the infinities too.
  The matrix products enter through their reading at an index (`h1`, `h2`), so no dimension record is fixed here.
  General: nothing here mentions a program.
-/
import Idealize.ShloMosaic.PureOps.Ideal.Laws
import Idealize.ShloMosaic.Lib.ValueIdx
import Idealize.ShloMosaic.Lib.ValueLayout
import Idealize.ShloMosaic.Lib.Pipeline.Value
import proofs.«119128_j38319698215247_1_alg».proof.Proof.Spec
import proofs.«119128_j38319698215247_1_alg».proof.Proof.LibKeepdims

noncomputable section

namespace Cert.LibGatedMlp

open Idealize.ShloMosaic Idealize.ShloMosaic.ValueIdx

/-- A weight slab, cast and narrowed, at `(i, j)`. -/
theorem slab_at {a b : ℕ} (v : FVec Ideal ⟨3, ![1, a, b]⟩ .f32)
    (h : (⟨3, ![1, a, b]⟩ : Shape).ShapeCasts ⟨2, ![a, b]⟩) (hlt : FTy.bits .bf16 < FTy.bits .f32)
    (i : Fin a) (j : Fin b) :
    (truncf .bf16 (shapeCast ⟨2, ![a, b]⟩ v h) hlt : FVec Ideal ⟨2, ![a, b]⟩ .bf16) (ix2 i j) = v (ix3 (0 : Fin 1) i j) :=
  shapeCast_1ab_ab_apply v h i j

/-- A bias row, through a vector and back, broadcast down the rows, at `(r, h)`. -/
theorem biasrow_at {M H : ℕ} (v : FVec Ideal ⟨2, ![1, H]⟩ .f32)
    (h1 : (⟨2, ![1, H]⟩ : Shape).ShapeCasts ⟨1, ![H]⟩) (h2 : (⟨1, ![H]⟩ : Shape).ShapeCasts ⟨2, ![1, H]⟩)
    (hb : (⟨2, ![1, H]⟩ : Shape).Broadcasts ⟨2, ![M, H]⟩) (r : Fin M) (h : Fin H) :
    broadcastTo ⟨2, ![M, H]⟩ (shapeCast ⟨2, ![1, H]⟩ (shapeCast ⟨1, ![H]⟩ v h1) h2) hb (ix2 r h) = v (ix2 (0 : Fin 1) h) := by
  rw [broadcastTo_1b_ab_apply, shapeCast_a_1a_apply, shapeCast_1a_a_apply]

/-- The perceptron at `(r, j)`. -/
theorem mlp_at {M K H O : ℕ}
    (D1 : DotDims ⟨2, ![M, K]⟩ ⟨2, ![K, H]⟩ ⟨2, ![M, H]⟩) (D2 : DotDims ⟨2, ![M, H]⟩ ⟨2, ![H, O]⟩ ⟨2, ![M, O]⟩)
    (h1 : ∀ (l : FVec Ideal ⟨2, ![M, K]⟩ .bf16) (r : FVec Ideal ⟨2, ![K, H]⟩ .bf16) (p : Fin M) (j : Fin H),
      FloatOps.matmul D1 none l r (constant ⟨2, ![M, H]⟩ .f32 0x00000000#32) (ix2 p j) = ∑ k : Fin K, l (ix2 p k) * r (ix2 k j))
    (h2 : ∀ (l : FVec Ideal ⟨2, ![M, H]⟩ .bf16) (r : FVec Ideal ⟨2, ![H, O]⟩ .bf16) (p : Fin M) (j : Fin O),
      FloatOps.matmul D2 none l r (constant ⟨2, ![M, O]⟩ .f32 0x00000000#32) (ix2 p j) = ∑ k : Fin H, l (ix2 p k) * r (ix2 k j))
    (xf : FVec Ideal ⟨2, ![M, K]⟩ .bf16) (A : FVec Ideal ⟨2, ![K, H]⟩ .bf16) (pb : FVec Ideal ⟨2, ![M, H]⟩ .f32)
    (B : FVec Ideal ⟨2, ![H, O]⟩ .bf16) (qb : FVec Ideal ⟨2, ![M, O]⟩ .f32)
    (hlt : FTy.bits .bf16 < FTy.bits .f32) (r : Fin M) (j : Fin O) :
    addf (matmul D2 none
        (truncf .bf16 (maximumf (addf (matmul D1 none xf A (constant ⟨2, ![M, H]⟩ .f32 0x00000000#32)) pb)
          (broadcast ⟨2, ![M, H]⟩ (Scalar.ofBits .f32 0x00000000#32))) hlt)
        B (constant ⟨2, ![M, O]⟩ .f32 0x00000000#32)) qb (ix2 r j)
      = Cert.Spec.mlp (fun k => xf (ix2 r k)) (fun k h => A (ix2 k h)) (fun h => pb (ix2 r h))
          (fun h o => B (ix2 h o)) (fun o => qb (ix2 r o)) j := by
  unfold Cert.Spec.mlp Cert.Spec.hidden
  rw [addf_apply]
  refine congrArg (· + qb (ix2 r j)) ?_
  refine (h2 _ B r j).trans (Finset.sum_congr rfl fun h _ => ?_)
  refine congrArg (· * B (ix2 h j)) ?_
  show max (FloatOps.matmul D1 none xf A (constant ⟨2, ![M, H]⟩ .f32 0x00000000#32) (ix2 r h) + pb (ix2 r h))
      (Ideal.ofBits .f32 0x00000000#32) = _
  rw [h1 xf A r h, Ideal.ofBits_zero_f32]

/-- The indicator of "row `r`'s kind is `n`", by comparison, times a value. -/
theorem gate_at {M O : ℕ} (kind : FVec Ideal ⟨2, ![M, 1]⟩ .f32) (W : BitVec 32) (n : ℤ)
    (hW : Ideal.ofBits .f32 W = (((n : ℝ)) : EReal))
    (hb : (⟨2, ![M, 1]⟩ : Shape).Broadcasts ⟨2, ![M, O]⟩) (hlt : 1 < 32)
    (mval : FVec Ideal ⟨2, ![M, O]⟩ .f32) (r : Fin M) (j : Fin O) (w : BitVec 32)
    (hw : kind (ix2 r (0 : Fin 1)) = (((w.toInt : ℝ)) : EReal)) :
    mulf (broadcastTo ⟨2, ![M, O]⟩ (sitofp .f32 (extui 32 (cmpf .oeq kind (broadcast ⟨2, ![M, 1]⟩ (Scalar.ofBits .f32 W))) hlt) : FVec Ideal ⟨2, ![M, 1]⟩ .f32) hb)
        mval (ix2 r j)
      = Cert.Spec.pick w n (mval (ix2 r j)) := by
  rw [mulf_apply, Cert.Keepdims.broadcastTo_a1_ab_apply]
  show ((((((Ideal.cmp .oeq (kind (ix2 r (0 : Fin 1))) (Ideal.ofBits .f32 W)).setWidth 32).toInt : ℝ)) : EReal)) * _ = _
  rw [hw]
  exact Cert.Spec.gate_eq w _ n hW _

end Cert.LibGatedMlp

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.IdealUpdRow.lean ====
/-
  The update kernel's stored value, row by row, on the extended reals.

  Row `r` of a node block holds 64 aggregate columns and, in column 64, the node type `w` converted to a real.
  The stored row is `[w = 0] · mlp₀ + [w = 1] · mlp₁` started from zero, each perceptron on the 64 aggregate columns
  with its own slab of the four weight tables: the specification's `updAt`.
-/
import proofs.«119128_j38319698215247_1_alg».proof.Proof.IdealBodies
import proofs.«119128_j38319698215247_1_alg».proof.Proof.LibGatedMlp
import proofs.«119128_j38319698215247_1_alg».proof.Proof.LibPlainMatmul

noncomputable section

namespace Cert.KernelIdeal.Hand

open Cert.KernelIdeal Cert.KernelIdeal.Gen Idealize.ShloMosaic Idealize.ShloMosaic.ValueIdx

/-! ## The two matrix products at an index -/

theorem mm_64_128 (l : FVec Ideal S2000x64 .bf16) (r : FVec Ideal S64x128 .bf16) (p : Fin 2000) (j : Fin 128) :
    FloatOps.matmul dot_S2000x64_S64x128_S2000x128_1_0_0_1_n_n none l r (constant S2000x128 .f32 0x00000000#32) (ix2 p j)
      = ∑ k : Fin 64, l (ix2 p k) * r (ix2 k j) :=
  Cert.LibPlainMatmul.matmul_zero_at dot_S2000x64_S64x128_S2000x128_1_0_0_1_n_n none rfl rfl
    (fun i q => by
      unfold DotDims.lhsIdx
      rw [dif_neg (show ¬(0 : Fin S2000x64.rank) ∈ dot_S2000x64_S64x128_S2000x128_1_0_0_1_n_n.lhsBatch by decide),
        dif_pos (show (0 : Fin S2000x64.rank) ∈ dot_S2000x64_S64x128_S2000x128_1_0_0_1_n_n.lhsNonContracting by decide)]
      rfl)
    (fun i q => dot_S2000x64_S64x128_S2000x128_1_0_0_1_n_n.lhsIdx_val_of_single rfl i q)
    (fun i q => dot_S2000x64_S64x128_S2000x128_1_0_0_1_n_n.rhsIdx_val_of_single rfl i q)
    (fun i q => by
      unfold DotDims.rhsIdx
      rw [dif_neg (show ¬(1 : Fin S64x128.rank) ∈ dot_S2000x64_S64x128_S2000x128_1_0_0_1_n_n.rhsBatch by decide),
        dif_pos (show (1 : Fin S64x128.rank) ∈ dot_S2000x64_S64x128_S2000x128_1_0_0_1_n_n.rhsNonContracting by decide)]
      rfl)
    l r p j

theorem mm_128_64 (l : FVec Ideal S2000x128 .bf16) (r : FVec Ideal S128x64 .bf16) (p : Fin 2000) (j : Fin 64) :
    FloatOps.matmul dot_S2000x128_S128x64_S2000x64_1_0_0_1_n_n none l r (constant S2000x64 .f32 0x00000000#32) (ix2 p j)
      = ∑ k : Fin 128, l (ix2 p k) * r (ix2 k j) :=
  Cert.LibPlainMatmul.matmul_zero_at dot_S2000x128_S128x64_S2000x64_1_0_0_1_n_n none rfl rfl
    (fun i q => by
      unfold DotDims.lhsIdx
      rw [dif_neg (show ¬(0 : Fin S2000x128.rank) ∈ dot_S2000x128_S128x64_S2000x64_1_0_0_1_n_n.lhsBatch by decide),
        dif_pos (show (0 : Fin S2000x128.rank) ∈ dot_S2000x128_S128x64_S2000x64_1_0_0_1_n_n.lhsNonContracting by decide)]
      rfl)
    (fun i q => dot_S2000x128_S128x64_S2000x64_1_0_0_1_n_n.lhsIdx_val_of_single rfl i q)
    (fun i q => dot_S2000x128_S128x64_S2000x64_1_0_0_1_n_n.rhsIdx_val_of_single rfl i q)
    (fun i q => by
      unfold DotDims.rhsIdx
      rw [dif_neg (show ¬(1 : Fin S128x64.rank) ∈ dot_S2000x128_S128x64_S2000x64_1_0_0_1_n_n.rhsBatch by decide),
        dif_pos (show (1 : Fin S128x64.rank) ∈ dot_S2000x128_S128x64_S2000x64_1_0_0_1_n_n.rhsNonContracting by decide)]
      rfl)
    l r p j

/-! ## The loads at an index -/

theorem ld_C0 (a : Vec Ideal S2x64x128 .f32) (k : Fin 64) (h : Fin 128) :
    View.ld a rC0 (ix3 (0 : Fin 1) k h) = a (ix3 (0 : Fin 2) k h) := by
  show a (rC0.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_C1 (a : Vec Ideal S2x64x128 .f32) (k : Fin 64) (h : Fin 128) :
    View.ld a rC1 (ix3 (0 : Fin 1) k h) = a (ix3 (1 : Fin 2) k h) := by
  show a (rC1.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_D0 (a : Vec Ideal S2x128x64 .f32) (k : Fin 128) (h : Fin 64) :
    View.ld a rD0 (ix3 (0 : Fin 1) k h) = a (ix3 (0 : Fin 2) k h) := by
  show a (rD0.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_D1 (a : Vec Ideal S2x128x64 .f32) (k : Fin 128) (h : Fin 64) :
    View.ld a rD1 (ix3 (0 : Fin 1) k h) = a (ix3 (1 : Fin 2) k h) := by
  show a (rD1.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_R0 (a : Vec Ideal S2x128 .f32) (h : Fin 128) :
    View.ld a rR0 (ix2 (0 : Fin 1) h) = a (ix2 (0 : Fin 2) h) := by
  show a (rR0.idx (ix2 (0 : Fin 1) h)) = _
  refine congrArg a (funext fun ax => Fin.ext ?_)
  match ax with
  | ⟨0, _⟩ => rfl
  | ⟨1, _⟩ => show 0 + 1 * h.val = h.val; omega

theorem ld_R1 (a : Vec Ideal S2x128 .f32) (h : Fin 128) :
    View.ld a rR1 (ix2 (0 : Fin 1) h) = a (ix2 (1 : Fin 2) h) := by
  show a (rR1.idx (ix2 (0 : Fin 1) h)) = _
  refine congrArg a (funext fun ax => Fin.ext ?_)
  match ax with
  | ⟨0, _⟩ => rfl
  | ⟨1, _⟩ => show 0 + 1 * h.val = h.val; omega

theorem ld_S0 (a : Vec Ideal S2x64 .f32) (h : Fin 64) :
    View.ld a rS0 (ix2 (0 : Fin 1) h) = a (ix2 (0 : Fin 2) h) := by
  show a (rS0.idx (ix2 (0 : Fin 1) h)) = _
  refine congrArg a (funext fun ax => Fin.ext ?_)
  match ax with
  | ⟨0, _⟩ => rfl
  | ⟨1, _⟩ => show 0 + 1 * h.val = h.val; omega

theorem ld_S1 (a : Vec Ideal S2x64 .f32) (h : Fin 64) :
    View.ld a rS1 (ix2 (0 : Fin 1) h) = a (ix2 (1 : Fin 2) h) := by
  show a (rS1.idx (ix2 (0 : Fin 1) h)) = _
  refine congrArg a (funext fun ax => Fin.ext ?_)
  match ax with
  | ⟨0, _⟩ => rfl
  | ⟨1, _⟩ => show 0 + 1 * h.val = h.val; omega

theorem ld_Node (y : Vec Ideal S2000x65 .f32) (r : Fin 2000) :
    View.ld y rNode (ix2 r (0 : Fin 1)) = y (ix2 r (64 : Fin 65)) := by
  show y (rNode.idx (ix2 r (0 : Fin 1))) = _
  refine congrArg y (funext fun ax => Fin.ext ?_)
  match ax with
  | ⟨0, _⟩ => show 0 + 1 * r.val = r.val; omega
  | ⟨1, _⟩ => rfl

theorem ld_Agg (y : Vec Ideal S2000x65 .f32) (r : Fin 2000) (k : Fin 64) :
    View.ld y rAgg (ix2 r k) = y (ix2 r ⟨k.val, by have := k.isLt; omega⟩) := by
  show y (rAgg.idx (ix2 r k)) = _
  refine congrArg y (funext fun ax => Fin.ext ?_)
  match ax with
  | ⟨0, _⟩ => show 0 + 1 * r.val = r.val; omega
  | ⟨1, _⟩ => show 0 + 1 * k.val = k.val; omega

/-! ## The rows -/

section Rows

variable (y : Vec Ideal S2000x65 .f32) (a : Vec Ideal S2x64x128 .f32) (p : Vec Ideal S2x128 .f32)
  (b : Vec Ideal S2x128x64 .f32) (q : Vec Ideal S2x64 .f32)

/-- The perceptron of node type `t` on row `r`, by the table slabs. -/
abbrev updMlp (t : Fin 2) (r : Fin 2000) (j : Fin 64) : EReal :=
  Cert.Spec.mlp (fun k : Fin 64 => y (ix2 r ⟨k.val, by have := k.isLt; omega⟩)) (fun k h => a (ix3 t k h)) (fun h => p (ix2 t h))
    (fun h o => b (ix3 t h o)) (fun o => q (ix2 t o)) j

/-- After node type 0. -/
theorem updSum0_at (r : Fin 2000) (j : Fin 64) (w : BitVec 32)
    (hw : y (ix2 r (64 : Fin 65)) = (((w.toInt : ℝ)) : EReal)) :
    updSum0 y a p b q (ix2 r j) = Cert.Spec.pick w 0 (updMlp y a p b q 0 r j) := by
  unfold updSum0 k1_pay4 k1_pay2 k1_pay3
  dsimp only
  rw [addf_apply]
  show Ideal.ofBits .f32 0x00000000#32 + _ = _
  rw [Ideal.ofBits_zero_f32, zero_add]
  refine (Cert.LibGatedMlp.gate_at _ 0x00000000#32 0 (by rw [Ideal.ofBits_zero_f32]; norm_num) _ _ _ r j w
    (by rw [shapeCast_self]; exact (ld_Node y r).trans hw)).trans ?_
  refine congrArg (Cert.Spec.pick w 0) ?_
  refine (Cert.LibGatedMlp.mlp_at _ _ mm_64_128 mm_128_64 _ _ _ _ _ _ r j).trans ?_
  unfold updMlp
  congr 1
  · funext k; rw [truncf_apply, shapeCast_self]; exact ld_Agg y r k
  · funext k h; exact (Cert.LibGatedMlp.slab_at _ _ _ k h).trans (ld_C0 a k h)
  · funext h; exact (Cert.LibGatedMlp.biasrow_at _ _ _ _ r h).trans (ld_R0 p h)
  · funext h o; exact (Cert.LibGatedMlp.slab_at _ _ _ h o).trans (ld_D0 b h o)
  · funext o; exact (Cert.LibGatedMlp.biasrow_at _ _ _ _ r o).trans (ld_S0 q o)

/-- After node type 1: the stored row is the specification's. -/
theorem updSum1_at (r : Fin 2000) (j : Fin 64) (w : BitVec 32)
    (hw : y (ix2 r (64 : Fin 65)) = (((w.toInt : ℝ)) : EReal)) :
    updSum1 y a p b q (ix2 r j)
      = Cert.Spec.updAt (fun k : Fin 64 => y (ix2 r ⟨k.val, by have := k.isLt; omega⟩)) w
          (fun t k h => a (ix3 t k h)) (fun t h => p (ix2 t h)) (fun t h o => b (ix3 t h o)) (fun t o => q (ix2 t o)) j := by
  unfold updSum1 k1_pay1 k1_pay2 k1_pay3 k1_pay5
  dsimp only
  rw [addf_apply, updSum0_at y a p b q r j w hw]
  unfold Cert.Spec.updAt
  refine congrArg (Cert.Spec.pick w 0 (updMlp y a p b q 0 r j) + ·) ?_
  refine (Cert.LibGatedMlp.gate_at _ 0x3F800000#32 1 (by rw [Cert.Spec.word_one]; norm_num) _ _ _ r j w
    (by rw [shapeCast_self]; exact (ld_Node y r).trans hw)).trans ?_
  refine congrArg (Cert.Spec.pick w 1) ?_
  refine (Cert.LibGatedMlp.mlp_at _ _ mm_64_128 mm_128_64 _ _ _ _ _ _ r j).trans ?_
  congr 1
  · funext k; rw [truncf_apply, shapeCast_self]; exact ld_Agg y r k
  · funext k h; exact (Cert.LibGatedMlp.slab_at _ _ _ k h).trans (ld_C1 a k h)
  · funext h; exact (Cert.LibGatedMlp.biasrow_at _ _ _ _ r h).trans (ld_R1 p h)
  · funext h o; exact (Cert.LibGatedMlp.slab_at _ _ _ h o).trans (ld_D1 b h o)
  · funext o; exact (Cert.LibGatedMlp.biasrow_at _ _ _ _ r o).trans (ld_S1 q o)

end Rows

end Cert.KernelIdeal.Hand

end
-- ==== Proof.IdealMsgRow.lean ====
/-
  The message kernel's stored value, row by row, on the extended reals.

  Row `r` of an edge block holds 144 feature columns and, in column 144, the edge type `w` converted to a real.
  The stored row is `[w = 0] · mlp₀ + [w = 1] · mlp₁ + [w = 2] · mlp₂ + [w = 3] · mlp₃` started from zero, each
  perceptron on the 144 feature columns with its own slab of the four weight tables: the specification's `msgAt`.
-/
import proofs.«119128_j38319698215247_1_alg».proof.Proof.IdealBodies
import proofs.«119128_j38319698215247_1_alg».proof.Proof.LibGatedMlp
import proofs.«119128_j38319698215247_1_alg».proof.Proof.LibPlainMatmul
import proofs.«119128_j38319698215247_1_alg».proof.Proof.IdealUpdRow

noncomputable section

namespace Cert.KernelIdeal.Hand

open Cert.KernelIdeal Cert.KernelIdeal.Gen Idealize.ShloMosaic Idealize.ShloMosaic.ValueIdx

/-! ## The first matrix product at an index (the second is the update kernel's) -/

theorem mm_144_128 (l : FVec Ideal S2000x144 .bf16) (r : FVec Ideal S144x128 .bf16) (p : Fin 2000) (j : Fin 128) :
    FloatOps.matmul dot_S2000x144_S144x128_S2000x128_1_0_0_1_n_n none l r (constant S2000x128 .f32 0x00000000#32) (ix2 p j)
      = ∑ k : Fin 144, l (ix2 p k) * r (ix2 k j) :=
  Cert.LibPlainMatmul.matmul_zero_at dot_S2000x144_S144x128_S2000x128_1_0_0_1_n_n none rfl rfl
    (fun i q => by
      unfold DotDims.lhsIdx
      rw [dif_neg (show ¬(0 : Fin S2000x144.rank) ∈ dot_S2000x144_S144x128_S2000x128_1_0_0_1_n_n.lhsBatch by decide),
        dif_pos (show (0 : Fin S2000x144.rank) ∈ dot_S2000x144_S144x128_S2000x128_1_0_0_1_n_n.lhsNonContracting by decide)]
      rfl)
    (fun i q => dot_S2000x144_S144x128_S2000x128_1_0_0_1_n_n.lhsIdx_val_of_single rfl i q)
    (fun i q => dot_S2000x144_S144x128_S2000x128_1_0_0_1_n_n.rhsIdx_val_of_single rfl i q)
    (fun i q => by
      unfold DotDims.rhsIdx
      rw [dif_neg (show ¬(1 : Fin S144x128.rank) ∈ dot_S2000x144_S144x128_S2000x128_1_0_0_1_n_n.rhsBatch by decide),
        dif_pos (show (1 : Fin S144x128.rank) ∈ dot_S2000x144_S144x128_S2000x128_1_0_0_1_n_n.rhsNonContracting by decide)]
      rfl)
    l r p j

/-! ## The loads at an index -/

theorem ld_A0 (a : Vec Ideal S4x144x128 .f32) (k : Fin 144) (h : Fin 128) :
    View.ld a rA0 (ix3 (0 : Fin 1) k h) = a (ix3 (0 : Fin 4) k h) := by
  show a (rA0.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_A1 (a : Vec Ideal S4x144x128 .f32) (k : Fin 144) (h : Fin 128) :
    View.ld a rA1 (ix3 (0 : Fin 1) k h) = a (ix3 (1 : Fin 4) k h) := by
  show a (rA1.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_A2 (a : Vec Ideal S4x144x128 .f32) (k : Fin 144) (h : Fin 128) :
    View.ld a rA2 (ix3 (0 : Fin 1) k h) = a (ix3 (2 : Fin 4) k h) := by
  show a (rA2.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_A3 (a : Vec Ideal S4x144x128 .f32) (k : Fin 144) (h : Fin 128) :
    View.ld a rA3 (ix3 (0 : Fin 1) k h) = a (ix3 (3 : Fin 4) k h) := by
  show a (rA3.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_B0 (a : Vec Ideal S4x128x64 .f32) (k : Fin 128) (h : Fin 64) :
    View.ld a rB0 (ix3 (0 : Fin 1) k h) = a (ix3 (0 : Fin 4) k h) := by
  show a (rB0.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_B1 (a : Vec Ideal S4x128x64 .f32) (k : Fin 128) (h : Fin 64) :
    View.ld a rB1 (ix3 (0 : Fin 1) k h) = a (ix3 (1 : Fin 4) k h) := by
  show a (rB1.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_B2 (a : Vec Ideal S4x128x64 .f32) (k : Fin 128) (h : Fin 64) :
    View.ld a rB2 (ix3 (0 : Fin 1) k h) = a (ix3 (2 : Fin 4) k h) := by
  show a (rB2.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_B3 (a : Vec Ideal S4x128x64 .f32) (k : Fin 128) (h : Fin 64) :
    View.ld a rB3 (ix3 (0 : Fin 1) k h) = a (ix3 (3 : Fin 4) k h) := by
  show a (rB3.idx (ix3 (0 : Fin 1) k h)) = _
  refine congrArg a (funext fun ax => Fin.ext ?_)
  match ax with
  | ⟨0, _⟩ => rfl
  | ⟨1, _⟩ => show 0 + 1 * k.val = k.val; omega
  | ⟨2, _⟩ => show 0 + 1 * h.val = h.val; omega

theorem ld_P0 (a : Vec Ideal S4x128 .f32) (h : Fin 128) :
    View.ld a rP0 (ix2 (0 : Fin 1) h) = a (ix2 (0 : Fin 4) h) := by
  show a (rP0.idx (ix2 (0 : Fin 1) h)) = _
  refine congrArg a (funext fun ax => Fin.ext ?_)
  match ax with
  | ⟨0, _⟩ => rfl
  | ⟨1, _⟩ => show 0 + 1 * h.val = h.val; omega

theorem ld_P1 (a : Vec Ideal S4x128 .f32) (h : Fin 128) :
    View.ld a rP1 (ix2 (0 : Fin 1) h) = a (ix2 (1 : Fin 4) h) := by
  show a (rP1.idx (ix2 (0 : Fin 1) h)) = _
  refine congrArg a (funext fun ax => Fin.ext ?_)
  match ax with
  | ⟨0, _⟩ => rfl
  | ⟨1, _⟩ => show 0 + 1 * h.val = h.val; omega

theorem ld_P2 (a : Vec Ideal S4x128 .f32) (h : Fin 128) :
    View.ld a rP2 (ix2 (0 : Fin 1) h) = a (ix2 (2 : Fin 4) h) := by
  show a (rP2.idx (ix2 (0 : Fin 1) h)) = _
  refine congrArg a (funext fun ax => Fin.ext ?_)
  match ax with
  | ⟨0, _⟩ => rfl
  | ⟨1, _⟩ => show 0 + 1 * h.val = h.val; omega

theorem ld_P3 (a : Vec Ideal S4x128 .f32) (h : Fin 128) :
    View.ld a rP3 (ix2 (0 : Fin 1) h) = a (ix2 (3 : Fin 4) h) := by
  show a (rP3.idx (ix2 (0 : Fin 1) h)) = _
  refine congrArg a (funext fun ax => Fin.ext ?_)
  match ax with
  | ⟨0, _⟩ => rfl
  | ⟨1, _⟩ => show 0 + 1 * h.val = h.val; omega

theorem ld_Q0 (a : Vec Ideal S4x64 .f32) (h : Fin 64) :
    View.ld a rQ0 (ix2 (0 : Fin 1) h) = a (ix2 (0 : Fin 4) h) := by
  show a (rQ0.idx (ix2 (0 : Fin 1) h)) = _
  refine congrArg a (funext fun ax => Fin.ext ?_)
  match ax with
  | ⟨0, _⟩ => rfl
  | ⟨1, _⟩ => show 0 + 1 * h.val = h.val; omega

theorem ld_Q1 (a : Vec Ideal S4x64 .f32) (h : Fin 64) :
    View.ld a rQ1 (ix2 (0 : Fin 1) h) = a (ix2 (1 : Fin 4) h) := by
  show a (rQ1.idx (ix2 (0 : Fin 1) h)) = _
  refine congrArg a (funext fun ax => Fin.ext ?_)
  match ax with
  | ⟨0, _⟩ => rfl
  | ⟨1, _⟩ => show 0 + 1 * h.val = h.val; omega

theorem ld_Q2 (a : Vec Ideal S4x64 .f32) (h : Fin 64) :
    View.ld a rQ2 (ix2 (0 : Fin 1) h) = a (ix2 (2 : Fin 4) h) := by
  show a (rQ2.idx (ix2 (0 : Fin 1) h)) = _
  refine congrArg a (funext fun ax => Fin.ext ?_)
  match ax with
  | ⟨0, _⟩ => rfl
  | ⟨1, _⟩ => show 0 + 1 * h.val = h.val; omega

theorem ld_Q3 (a : Vec Ideal S4x64 .f32) (h : Fin 64) :
    View.ld a rQ3 (ix2 (0 : Fin 1) h) = a (ix2 (3 : Fin 4) h) := by
  show a (rQ3.idx (ix2 (0 : Fin 1) h)) = _
  refine congrArg a (funext fun ax => Fin.ext ?_)
  match ax with
  | ⟨0, _⟩ => rfl
  | ⟨1, _⟩ => show 0 + 1 * h.val = h.val; omega

theorem ld_Kind (x : Vec Ideal S2000x145 .f32) (r : Fin 2000) :
    View.ld x rKind (ix2 r (0 : Fin 1)) = x (ix2 r (144 : Fin 145)) := by
  show x (rKind.idx (ix2 r (0 : Fin 1))) = _
  refine congrArg x (funext fun ax => Fin.ext ?_)
  match ax with
  | ⟨0, _⟩ => show 0 + 1 * r.val = r.val; omega
  | ⟨1, _⟩ => rfl

theorem ld_Feat (x : Vec Ideal S2000x145 .f32) (r : Fin 2000) (k : Fin 144) :
    View.ld x rFeat (ix2 r k) = x (ix2 r ⟨k.val, by have := k.isLt; omega⟩) := by
  show x (rFeat.idx (ix2 r k)) = _
  refine congrArg x (funext fun ax => Fin.ext ?_)
  match ax with
  | ⟨0, _⟩ => show 0 + 1 * r.val = r.val; omega
  | ⟨1, _⟩ => show 0 + 1 * k.val = k.val; omega

/-! ## The rows -/

section Rows

variable (x : Vec Ideal S2000x145 .f32) (a : Vec Ideal S4x144x128 .f32) (p : Vec Ideal S4x128 .f32)
  (b : Vec Ideal S4x128x64 .f32) (q : Vec Ideal S4x64 .f32)

/-- The perceptron of edge type `t` on row `r`, by the table slabs. -/
abbrev msgMlp (t : Fin 4) (r : Fin 2000) (j : Fin 64) : EReal :=
  Cert.Spec.mlp (fun k : Fin 144 => x (ix2 r ⟨k.val, by have := k.isLt; omega⟩)) (fun k h => a (ix3 t k h)) (fun h => p (ix2 t h))
    (fun h o => b (ix3 t h o)) (fun o => q (ix2 t o)) j

/-- After edge type 0. -/
theorem msgSum0_at (r : Fin 2000) (j : Fin 64) (w : BitVec 32)
    (hw : x (ix2 r (144 : Fin 145)) = (((w.toInt : ℝ)) : EReal)) :
    msgSum0 x a p b q (ix2 r j) = Cert.Spec.pick w 0 (msgMlp x a p b q 0 r j) := by
  unfold msgSum0 k0_pay3 k0_pay1 k0_pay2
  dsimp only
  rw [addf_apply]
  show Ideal.ofBits .f32 0x00000000#32 + _ = _
  rw [Ideal.ofBits_zero_f32, zero_add]
  refine (Cert.LibGatedMlp.gate_at _ 0x00000000#32 0 (by rw [Ideal.ofBits_zero_f32]; norm_num) _ _ _ r j w
    (by rw [shapeCast_self]; exact (ld_Kind x r).trans hw)).trans ?_
  refine congrArg (Cert.Spec.pick w 0) ?_
  refine (Cert.LibGatedMlp.mlp_at _ _ mm_144_128 mm_128_64 _ _ _ _ _ _ r j).trans ?_
  congr 1
  · funext k; rw [truncf_apply, shapeCast_self]; exact ld_Feat x r k
  · funext k h; exact (Cert.LibGatedMlp.slab_at _ _ _ k h).trans (ld_A0 a k h)
  · funext h; exact (Cert.LibGatedMlp.biasrow_at _ _ _ _ r h).trans (ld_P0 p h)
  · funext h o; exact (Cert.LibGatedMlp.slab_at _ _ _ h o).trans (ld_B0 b h o)
  · funext o; exact (Cert.LibGatedMlp.biasrow_at _ _ _ _ r o).trans (ld_Q0 q o)

/-- After edge type 1. -/
theorem msgSum1_at (r : Fin 2000) (j : Fin 64) (w : BitVec 32)
    (hw : x (ix2 r (144 : Fin 145)) = (((w.toInt : ℝ)) : EReal)) :
    msgSum1 x a p b q (ix2 r j)
      = Cert.Spec.pick w 0 (msgMlp x a p b q 0 r j) + Cert.Spec.pick w 1 (msgMlp x a p b q 1 r j) := by
  unfold msgSum1 msgKind msgFeat k0_pay5 k0_pay4 k0_pay1 k0_pay2
  dsimp only
  rw [addf_apply, msgSum0_at x a p b q r j w hw]
  refine congrArg (Cert.Spec.pick w 0 (msgMlp x a p b q 0 r j) + ·) ?_
  refine (Cert.LibGatedMlp.gate_at _ 0x3F800000#32 1 (by rw [Cert.Spec.word_one]; norm_num) _ _ _ r j w
    (by rw [shapeCast_self]; exact (ld_Kind x r).trans hw)).trans ?_
  refine congrArg (Cert.Spec.pick w 1) ?_
  refine (Cert.LibGatedMlp.mlp_at _ _ mm_144_128 mm_128_64 _ _ _ _ _ _ r j).trans ?_
  congr 1
  · funext k; rw [truncf_apply, shapeCast_self]; exact ld_Feat x r k
  · funext k h; exact (Cert.LibGatedMlp.slab_at _ _ _ k h).trans (ld_A1 a k h)
  · funext h; exact (Cert.LibGatedMlp.biasrow_at _ _ _ _ r h).trans (ld_P1 p h)
  · funext h o; exact (Cert.LibGatedMlp.slab_at _ _ _ h o).trans (ld_B1 b h o)
  · funext o; exact (Cert.LibGatedMlp.biasrow_at _ _ _ _ r o).trans (ld_Q1 q o)

/-- After edge types 2 and 3: the stored row is the specification's. -/
theorem msgSum3_at (r : Fin 2000) (j : Fin 64) (w : BitVec 32)
    (hw : x (ix2 r (144 : Fin 145)) = (((w.toInt : ℝ)) : EReal)) :
    msgSum3 x a p b q (ix2 r j)
      = Cert.Spec.msgAt (fun k : Fin 144 => x (ix2 r ⟨k.val, by have := k.isLt; omega⟩)) w
          (fun t k h => a (ix3 t k h)) (fun t h => p (ix2 t h)) (fun t h o => b (ix3 t h o)) (fun t o => q (ix2 t o)) j := by
  unfold msgSum3 msgKind msgFeat k0_pay10 k0_pay6 k0_pay7 k0_pay8 k0_pay9 k0_pay1 k0_pay2
  dsimp only
  rw [addf_apply, addf_apply, msgSum1_at x a p b q r j w hw]
  unfold Cert.Spec.msgAt
  refine congrArg₂ (· + ·) (congrArg (Cert.Spec.pick w 0 (msgMlp x a p b q 0 r j) + Cert.Spec.pick w 1 (msgMlp x a p b q 1 r j) + ·) ?_) ?_
  · refine (Cert.LibGatedMlp.gate_at _ 0x40000000#32 2 (by rw [Cert.Spec.word_two]; norm_num) _ _ _ r j w
      (by rw [shapeCast_self]; exact (ld_Kind x r).trans hw)).trans ?_
    refine congrArg (Cert.Spec.pick w 2) ?_
    refine (Cert.LibGatedMlp.mlp_at _ _ mm_144_128 mm_128_64 _ _ _ _ _ _ r j).trans ?_
    congr 1
    · funext k; rw [truncf_apply, shapeCast_self]; exact ld_Feat x r k
    · funext k h; exact (Cert.LibGatedMlp.slab_at _ _ _ k h).trans (ld_A2 a k h)
    · funext h; exact (Cert.LibGatedMlp.biasrow_at _ _ _ _ r h).trans (ld_P2 p h)
    · funext h o; exact (Cert.LibGatedMlp.slab_at _ _ _ h o).trans (ld_B2 b h o)
    · funext o; exact (Cert.LibGatedMlp.biasrow_at _ _ _ _ r o).trans (ld_Q2 q o)
  · refine (Cert.LibGatedMlp.gate_at _ 0x40400000#32 3 (by rw [Cert.Spec.word_three]; norm_num) _ _ _ r j w
      (by rw [shapeCast_self]; exact (ld_Kind x r).trans hw)).trans ?_
    refine congrArg (Cert.Spec.pick w 3) ?_
    refine (Cert.LibGatedMlp.mlp_at _ _ mm_144_128 mm_128_64 _ _ _ _ _ _ r j).trans ?_
    congr 1
    · funext k; rw [truncf_apply, shapeCast_self]; exact ld_Feat x r k
    · funext k h; exact (Cert.LibGatedMlp.slab_at _ _ _ k h).trans (ld_A3 a k h)
    · funext h; exact (Cert.LibGatedMlp.biasrow_at _ _ _ _ r h).trans (ld_P3 p h)
    · funext h o; exact (Cert.LibGatedMlp.slab_at _ _ _ h o).trans (ld_B3 b h o)
    · funext o; exact (Cert.LibGatedMlp.biasrow_at _ _ _ _ r o).trans (ld_Q3 q o)

end Rows

end Cert.KernelIdeal.Hand

end
-- ==== Proof.IdealFinal1.lean ====
/-
  The update kernel's output array as one function of its input arrays.

  Grid point `t` of 25 reads rows `2000 t … 2000 t + 1999` of the node rows and the four weight tables whole, and
  writes back the same rows of the output. Each written row is the specification's `updAt` of that node's row, so
  every written-back block is a block of ONE whole-array function, and the 25 blocks tile the 50000 rows.
-/
import proofs.«119128_j38319698215247_1_alg».proof.Proof.IdealRegion1
import proofs.«119128_j38319698215247_1_alg».proof.Proof.IdealUpdRow

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Node `n`'s output row, from the node rows `Y`, the node types `w` and the four tables. -/
def updArr (Y : S50000x65.Idx → EReal) (w : Fin 50000 → BitVec 32) (A : S2x64x128.Idx → EReal)
    (Pb : S2x128.Idx → EReal) (B : S2x128x64.Idx → EReal) (Q : S2x64.Idx → EReal) : S50000x64.Idx → EReal :=
  fun i => Cert.Spec.updAt (fun k : Fin 64 => Y (ix2 (i 0) ⟨k.val, by have := k.isLt; omega⟩)) (w (i 0))
    (fun t k h => A (ix3 t k h)) (fun t h => Pb (ix2 t h)) (fun t h o => B (ix3 t h o)) (fun t o => Q (ix2 t o)) (i 1)

theorem zeros2 : (![0, 0] : Fin 2 → Nat) = fun _ => 0 := funext fun a => by fin_cases a <;> rfl

/-- The printed index maps over the grid: the row windows move with the point, the tables stay. -/
theorem idx1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

theorem lt1 (t : Fin cfg1.N) (r : Fin 2000) : t.val * 2000 + r.val < 50000 := by
  have h : t.val < 25 := Nat.lt_of_lt_of_eq t.isLt N_1
  have := r.isLt; omega

/-- A row of point `t`'s node block is a row of the node array. -/
theorem blk1_rows (c : Dev nD) (t : Fin cfg1.N) (r : Fin 2000) (k : Fin 65) :
    blk1 V c 0 t (ix2 r k) = (V c main_v32 : S50000x65.Idx → EReal) (ix2 ⟨t.val * 2000 + r.val, lt1 t r⟩ k) := by
  show (V c main_v32 : S50000x65.Idx → EReal) (((cfg1.win 0).blk t).view.emb (ix2 r k)) = _
  refine congrArg _ (funext fun a => Fin.ext ?_)
  match a with
  | ⟨0, _⟩ => show win1_0.index t (0 : Fin 2) * 2000 + 1 * r.val = t.val * 2000 + r.val; rw [(idx1 t).1]; omega
  | ⟨1, _⟩ => show win1_0.index t (1 : Fin 2) * 65 + 1 * k.val = k.val; rw [(idx1 t).2.1]; omega

/-- The tables are read whole at every point. -/
theorem blk1_A (c : Dev nD) (t : Fin cfg1.N) (s : Fin 2) (k : Fin 64) (h : Fin 128) :
    blk1 V c 1 t (ix3 s k h) = (V c main_arg6 : S2x64x128.Idx → EReal) (ix3 s k h) := by
  show (V c main_arg6 : S2x64x128.Idx → EReal) (((cfg1.win 1).blk t).view.emb (ix3 s k h)) = _
  obtain ⟨-, -, -, -, e0, e1, e2, -⟩ := idx1 t
  refine congrArg _ (funext fun a => Fin.ext ?_)
  match a with
  | ⟨0, _⟩ => show win1_1.index t (0 : Fin 3) * 2 + 1 * s.val = s.val; rw [e0]; omega
  | ⟨1, _⟩ => show win1_1.index t (1 : Fin 3) * 64 + 1 * k.val = k.val; rw [e1]; omega
  | ⟨2, _⟩ => show win1_1.index t (2 : Fin 3) * 128 + 1 * h.val = h.val; rw [e2]; omega

theorem blk1_P (c : Dev nD) (t : Fin cfg1.N) (s : Fin 2) (h : Fin 128) :
    blk1 V c 2 t (ix2 s h) = (V c main_arg7 : S2x128.Idx → EReal) (ix2 s h) := by
  show (V c main_arg7 : S2x128.Idx → EReal) (((cfg1.win 2).blk t).view.emb (ix2 s h)) = _
  obtain ⟨-, -, -, -, -, -, -, e0, e1, -⟩ := idx1 t
  refine congrArg _ (funext fun a => Fin.ext ?_)
  match a with
  | ⟨0, _⟩ => show win1_2.index t (0 : Fin 2) * 2 + 1 * s.val = s.val; rw [e0]; omega
  | ⟨1, _⟩ => show win1_2.index t (1 : Fin 2) * 128 + 1 * h.val = h.val; rw [e1]; omega

theorem blk1_B (c : Dev nD) (t : Fin cfg1.N) (s : Fin 2) (h : Fin 128) (o : Fin 64) :
    blk1 V c 3 t (ix3 s h o) = (V c main_arg8 : S2x128x64.Idx → EReal) (ix3 s h o) := by
  show (V c main_arg8 : S2x128x64.Idx → EReal) (((cfg1.win 3).blk t).view.emb (ix3 s h o)) = _
  obtain ⟨-, -, -, -, -, -, -, -, -, e0, e1, e2, -⟩ := idx1 t
  refine congrArg _ (funext fun a => Fin.ext ?_)
  match a with
  | ⟨0, _⟩ => show win1_3.index t (0 : Fin 3) * 2 + 1 * s.val = s.val; rw [e0]; omega
  | ⟨1, _⟩ => show win1_3.index t (1 : Fin 3) * 128 + 1 * h.val = h.val; rw [e1]; omega
  | ⟨2, _⟩ => show win1_3.index t (2 : Fin 3) * 64 + 1 * o.val = o.val; rw [e2]; omega

theorem blk1_Q (c : Dev nD) (t : Fin cfg1.N) (s : Fin 2) (o : Fin 64) :
    blk1 V c 4 t (ix2 s o) = (V c main_arg9 : S2x64.Idx → EReal) (ix2 s o) := by
  show (V c main_arg9 : S2x64.Idx → EReal) (((cfg1.win 4).blk t).view.emb (ix2 s o)) = _
  obtain ⟨-, -, -, -, -, -, -, -, -, -, -, -, e0, e1⟩ := idx1 t
  refine congrArg _ (funext fun a => Fin.ext ?_)
  match a with
  | ⟨0, _⟩ => show win1_4.index t (0 : Fin 2) * 2 + 1 * s.val = s.val; rw [e0]; omega
  | ⟨1, _⟩ => show win1_4.index t (1 : Fin 2) * 64 + 1 * o.val = o.val; rw [e1]; omega

/-- Where an element of point `t`'s output block sits in the output array. -/
theorem out1_emb (t : Fin cfg1.N) (r : Fin 2000) (o : Fin 64) :
    ((cfg1.win 5).blk t).view.emb (ix2 r o) = (ix2 ⟨t.val * 2000 + r.val, lt1 t r⟩ o : S50000x64.Idx) := by
  funext a; apply Fin.ext
  match a with
  | ⟨0, _⟩ => show win1_5.index t (0 : Fin 2) * 2000 + 1 * r.val = t.val * 2000 + r.val; rw [(idx1 t).2.2.1]; omega
  | ⟨1, _⟩ => show win1_5.index t (1 : Fin 2) * 64 + 1 * o.val = o.val; rw [(idx1 t).2.2.2.1]; omega

/-- An index of the output array is in point `t`'s block iff its row is among the block's 2000. -/
theorem mem_blk1 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v33).slice (win1_5.rect t)).set ↔ _
  rw [View.set_slice_whole, Rect.mem_set_unit]
  exact Iff.rfl

/-- The 25 blocks tile the 50000 rows: row `n` is in block `n / 2000`. -/
theorem cover1_arr (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  have hq : (i 0).val / 2000 < cfg1.N := by rw [hN]; omega
  refine ⟨⟨(i 0).val / 2000, hq⟩, flush1_5 _, ?_⟩
  rw [mem_blk1]
  obtain ⟨-, -, e0, e1, -⟩ := idx1 ⟨(i 0).val / 2000, hq⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 64 ≤ (i 1).val ∧ (i 1).val < win1_5.index _ (1 : Fin 2) * 64 + 64
    rw [e1]; omega

section Final

variable (c : Dev nD) (w : Fin 50000 → BitVec 32)
  (hw : ∀ n : Fin 50000, (V c main_v32 : S50000x65.Idx → EReal) (ix2 n (64 : Fin 65)) = ((((w n).toInt : ℝ)) : EReal))
include hw

/-- WHAT POINT `t` WRITES BACK is block `t` of the whole-array row function. -/
theorem flushed1_eq (t : Fin cfg1.N) :
    (dat1 V c).flushed 5 t = ((cfg1.win 5).blk t).view.read (Elt Ideal)
      (updArr (V c main_v32) w (V c main_arg6) (V c main_arg7) (V c main_arg8) (V c main_arg9)) := by
  show (cfg1.win 5).cut (grid1.coords t) ((dat1 V c).after 5 t) = _
  rw [after1_5]
  unfold updStored
  rw [View.canon_unit_zero zeros2]
  funext j
  obtain ⟨r, o, rfl⟩ : ∃ (r : Fin 2000) (o : Fin 64), j = ix2 r o := ⟨j 0, j 1, eq_ix2 j⟩
  show updSum1 (blk1 V c 0 t) (blk1 V c 1 t) (blk1 V c 2 t) (blk1 V c 3 t) (blk1 V c 4 t) (ix2 r o)
    = updArr (V c main_v32) w (V c main_arg6) (V c main_arg7) (V c main_arg8) (V c main_arg9)
        (((cfg1.win 5).blk t).view.emb (ix2 r o))
  rw [out1_emb t r o,
    updSum1_at (blk1 V c 0 t) (blk1 V c 1 t) (blk1 V c 2 t) (blk1 V c 3 t) (blk1 V c 4 t) r o
      (w ⟨t.val * 2000 + r.val, lt1 t r⟩) ((blk1_rows V c t r 64).trans (hw _))]
  unfold updArr
  congr 1
  · funext k; exact blk1_rows V c t r _
  · funext s k h; exact blk1_A V c t s k h
  · funext s h; exact blk1_P V c t s h
  · funext s h o'; exact blk1_B V c t s h o'
  · funext s o'; exact blk1_Q V c t s o'

/-- THE OUTPUT ARRAY after the region. -/
theorem final1 :
    (dat1 V c).arrAt 5 cfg1.N
      = updArr (V c main_v32) w (V c main_arg6) (V c main_arg7) (V c main_arg8) (V c main_arg9) :=
  (dat1 V c).arrAt_eq_of_cover 5 _ (fun t _ => flushed1_eq V c w hw t) cover1_arr

end Final

end Cert.KernelIdeal.Hand

end
-- ==== Proof.IdealFinal0.lean ====
/-
  The message kernel's output array as one function of its input arrays.

  Grid point `t` of 400 reads rows `2000 t … 2000 t + 1999` of the edge rows and the four weight tables whole, and
  writes back the same rows of the output. Each written row is the specification's `msgAt` of that edge's row, so
  every written-back block is a block of ONE whole-array function, and the 400 blocks tile the 800000 rows.
-/
import proofs.«119128_j38319698215247_1_alg».proof.Proof.IdealRegion0
import proofs.«119128_j38319698215247_1_alg».proof.Proof.IdealMsgRow
import proofs.«119128_j38319698215247_1_alg».proof.Proof.IdealFinal1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Edge `e`'s message row, from the edge rows `X`, the edge types `w` and the four tables. -/
def msgArr (X : S800000x145.Idx → EReal) (w : Fin 800000 → BitVec 32) (A : S4x144x128.Idx → EReal)
    (Pb : S4x128.Idx → EReal) (B : S4x128x64.Idx → EReal) (Q : S4x64.Idx → EReal) : S800000x64.Idx → EReal :=
  fun i => Cert.Spec.msgAt (fun k : Fin 144 => X (ix2 (i 0) ⟨k.val, by have := k.isLt; omega⟩)) (w (i 0))
    (fun t k h => A (ix3 t k h)) (fun t h => Pb (ix2 t h)) (fun t h o => B (ix3 t h o)) (fun t o => Q (ix2 t o)) (i 1)

/-- The printed index maps over the grid: the row windows move with the point, the tables stay. -/
theorem idx0 : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

theorem lt0 (t : Fin cfg0.N) (r : Fin 2000) : t.val * 2000 + r.val < 800000 := by
  have h : t.val < 400 := Nat.lt_of_lt_of_eq t.isLt N_0
  have := r.isLt; omega

/-- A row of point `t`'s edge block is a row of the edge array. -/
theorem blk0_rows (c : Dev nD) (t : Fin cfg0.N) (r : Fin 2000) (k : Fin 145) :
    blk0 V c 0 t (ix2 r k) = (V c main_v16 : S800000x145.Idx → EReal) (ix2 ⟨t.val * 2000 + r.val, lt0 t r⟩ k) := by
  show (V c main_v16 : S800000x145.Idx → EReal) (((cfg0.win 0).blk t).view.emb (ix2 r k)) = _
  refine congrArg _ (funext fun a => Fin.ext ?_)
  match a with
  | ⟨0, _⟩ => show win0_0.index t (0 : Fin 2) * 2000 + 1 * r.val = t.val * 2000 + r.val; rw [(idx0 t).1]; omega
  | ⟨1, _⟩ => show win0_0.index t (1 : Fin 2) * 145 + 1 * k.val = k.val; rw [(idx0 t).2.1]; omega

/-- The tables are read whole at every point. -/
theorem blk0_A (c : Dev nD) (t : Fin cfg0.N) (s : Fin 4) (k : Fin 144) (h : Fin 128) :
    blk0 V c 1 t (ix3 s k h) = (V c main_arg2 : S4x144x128.Idx → EReal) (ix3 s k h) := by
  show (V c main_arg2 : S4x144x128.Idx → EReal) (((cfg0.win 1).blk t).view.emb (ix3 s k h)) = _
  have hI := idx0 t
  refine congrArg _ (funext fun a => Fin.ext ?_)
  match a with
  | ⟨0, _⟩ => show win0_1.index t (0 : Fin 3) * 4 + 1 * s.val = s.val; rw [hI.2.2.2.2.1]; omega
  | ⟨1, _⟩ => show win0_1.index t (1 : Fin 3) * 144 + 1 * k.val = k.val; rw [hI.2.2.2.2.2.1]; omega
  | ⟨2, _⟩ => show win0_1.index t (2 : Fin 3) * 128 + 1 * h.val = h.val; rw [hI.2.2.2.2.2.2.1]; omega

theorem blk0_P (c : Dev nD) (t : Fin cfg0.N) (s : Fin 4) (h : Fin 128) :
    blk0 V c 2 t (ix2 s h) = (V c main_arg3 : S4x128.Idx → EReal) (ix2 s h) := by
  show (V c main_arg3 : S4x128.Idx → EReal) (((cfg0.win 2).blk t).view.emb (ix2 s h)) = _
  have hI := idx0 t
  refine congrArg _ (funext fun a => Fin.ext ?_)
  match a with
  | ⟨0, _⟩ => show win0_2.index t (0 : Fin 2) * 4 + 1 * s.val = s.val; rw [hI.2.2.2.2.2.2.2.1]; omega
  | ⟨1, _⟩ => show win0_2.index t (1 : Fin 2) * 128 + 1 * h.val = h.val; rw [hI.2.2.2.2.2.2.2.2.1]; omega

theorem blk0_B (c : Dev nD) (t : Fin cfg0.N) (s : Fin 4) (h : Fin 128) (o : Fin 64) :
    blk0 V c 3 t (ix3 s h o) = (V c main_arg4 : S4x128x64.Idx → EReal) (ix3 s h o) := by
  show (V c main_arg4 : S4x128x64.Idx → EReal) (((cfg0.win 3).blk t).view.emb (ix3 s h o)) = _
  have hI := idx0 t
  refine congrArg _ (funext fun a => Fin.ext ?_)
  match a with
  | ⟨0, _⟩ => show win0_3.index t (0 : Fin 3) * 4 + 1 * s.val = s.val; rw [hI.2.2.2.2.2.2.2.2.2.1]; omega
  | ⟨1, _⟩ => show win0_3.index t (1 : Fin 3) * 128 + 1 * h.val = h.val; rw [hI.2.2.2.2.2.2.2.2.2.2.1]; omega
  | ⟨2, _⟩ => show win0_3.index t (2 : Fin 3) * 64 + 1 * o.val = o.val; rw [hI.2.2.2.2.2.2.2.2.2.2.2.1]; omega

theorem blk0_Q (c : Dev nD) (t : Fin cfg0.N) (s : Fin 4) (o : Fin 64) :
    blk0 V c 4 t (ix2 s o) = (V c main_arg5 : S4x64.Idx → EReal) (ix2 s o) := by
  show (V c main_arg5 : S4x64.Idx → EReal) (((cfg0.win 4).blk t).view.emb (ix2 s o)) = _
  have hI := idx0 t
  refine congrArg _ (funext fun a => Fin.ext ?_)
  match a with
  | ⟨0, _⟩ => show win0_4.index t (0 : Fin 2) * 4 + 1 * s.val = s.val; rw [hI.2.2.2.2.2.2.2.2.2.2.2.2.1]; omega
  | ⟨1, _⟩ => show win0_4.index t (1 : Fin 2) * 64 + 1 * o.val = o.val; rw [hI.2.2.2.2.2.2.2.2.2.2.2.2.2]; omega

/-- Where an element of point `t`'s output block sits in the output array. -/
theorem out0_emb (t : Fin cfg0.N) (r : Fin 2000) (o : Fin 64) :
    ((cfg0.win 5).blk t).view.emb (ix2 r o) = (ix2 ⟨t.val * 2000 + r.val, lt0 t r⟩ o : S800000x64.Idx) := by
  funext a; apply Fin.ext
  match a with
  | ⟨0, _⟩ => show win0_5.index t (0 : Fin 2) * 2000 + 1 * r.val = t.val * 2000 + r.val; rw [(idx0 t).2.2.1]; omega
  | ⟨1, _⟩ => show win0_5.index t (1 : Fin 2) * 64 + 1 * o.val = o.val; rw [(idx0 t).2.2.2.1]; omega

/-- An index of the output array is in point `t`'s block iff its row is among the block's 2000. -/
theorem mem_blk0 (t : Fin cfg0.N) (i : S800000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v17).slice (win0_5.rect t)).set ↔ _
  rw [View.set_slice_whole, Rect.mem_set_unit]
  exact Iff.rfl

/-- The 400 blocks tile the 800000 rows: row `e` is in block `e / 2000`. -/
theorem cover0_arr (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  have hN : cfg0.N = 400 := N_0
  have hq : (i 0).val / 2000 < cfg0.N := by rw [hN]; omega
  refine ⟨⟨(i 0).val / 2000, hq⟩, flush0_5 _, ?_⟩
  rw [mem_blk0]
  obtain ⟨-, -, e0, e1, -⟩ := idx0 ⟨(i 0).val / 2000, hq⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 64 ≤ (i 1).val ∧ (i 1).val < win0_5.index _ (1 : Fin 2) * 64 + 64
    rw [e1]; omega

section Final

variable (c : Dev nD) (w : Fin 800000 → BitVec 32)
  (hw : ∀ e : Fin 800000, (V c main_v16 : S800000x145.Idx → EReal) (ix2 e (144 : Fin 145)) = ((((w e).toInt : ℝ)) : EReal))
include hw

/-- WHAT POINT `t` WRITES BACK is block `t` of the whole-array row function. -/
theorem flushed0_eq (t : Fin cfg0.N) :
    (dat0 V c).flushed 5 t = ((cfg0.win 5).blk t).view.read (Elt Ideal)
      (msgArr (V c main_v16) w (V c main_arg2) (V c main_arg3) (V c main_arg4) (V c main_arg5)) := by
  show (cfg0.win 5).cut (grid0.coords t) ((dat0 V c).after 5 t) = _
  rw [after0_5]
  unfold msgStored
  rw [View.canon_unit_zero zeros2]
  funext j
  obtain ⟨r, o, rfl⟩ : ∃ (r : Fin 2000) (o : Fin 64), j = ix2 r o := ⟨j 0, j 1, eq_ix2 j⟩
  show msgSum3 (blk0 V c 0 t) (blk0 V c 1 t) (blk0 V c 2 t) (blk0 V c 3 t) (blk0 V c 4 t) (ix2 r o)
    = msgArr (V c main_v16) w (V c main_arg2) (V c main_arg3) (V c main_arg4) (V c main_arg5)
        (((cfg0.win 5).blk t).view.emb (ix2 r o))
  rw [out0_emb t r o,
    msgSum3_at (blk0 V c 0 t) (blk0 V c 1 t) (blk0 V c 2 t) (blk0 V c 3 t) (blk0 V c 4 t) r o
      (w ⟨t.val * 2000 + r.val, lt0 t r⟩) ((blk0_rows V c t r 144).trans (hw _))]
  unfold msgArr
  congr 1
  · funext k; exact blk0_rows V c t r _
  · funext s k h; exact blk0_A V c t s k h
  · funext s h; exact blk0_P V c t s h
  · funext s h o'; exact blk0_B V c t s h o'
  · funext s o'; exact blk0_Q V c t s o'

/-- THE OUTPUT ARRAY after the region. -/
theorem final0 :
    (dat0 V c).arrAt 5 cfg0.N
      = msgArr (V c main_v16) w (V c main_arg2) (V c main_arg3) (V c main_arg4) (V c main_arg5) :=
  (dat0 V c).arrAt_eq_of_cover 5 _ (fun t _ => flushed0_eq V c w hw t) cover0_arr

end Final

end Cert.KernelIdeal.Hand

end
-- ==== Proof.LibRowPack.lean ====
/-
  Rows packed side by side, read at a column.

  An edge row is the source node's 64 features, the edge's 16, the destination node's 64, and — in one program
  only — one more column carrying the edge type. Reading the four-piece row at a column below 144 gives the piece
  that column falls in, at the column less the widths before it; that is also what the three-piece row gives, so
  the two rows agree on their common 144 columns, and the four-piece row's last column is the extra piece.
  The same for a node row of 64 aggregate columns and one type column. General in the number of rows.
-/
import Idealize.ShloMosaic.Lib.Pipeline.Value
import Idealize.ShloMosaic.Lib.ValueIdx

namespace Cert.LibRowPack

open Idealize.ShloMosaic Idealize.ShloMosaic.ValueIdx

variable {α : Type} {N : ℕ}

section Four
variable (g1 : (⟨2, ![N, 64]⟩ : Shape).Idx → α) (x1 : (⟨2, ![N, 16]⟩ : Shape).Idx → α)
  (g2 : (⟨2, ![N, 64]⟩ : Shape).Idx → α) (cc : (⟨2, ![N, 1]⟩ : Shape).Idx → α)
  (h4 : Shape.Concatenates [(⟨2, ![N, 64]⟩ : Shape), ⟨2, ![N, 16]⟩, ⟨2, ![N, 64]⟩, ⟨2, ![N, 1]⟩] ⟨2, ![N, 145]⟩ 1)
  (h3 : Shape.Concatenates [(⟨2, ![N, 64]⟩ : Shape), ⟨2, ![N, 16]⟩, ⟨2, ![N, 64]⟩] ⟨2, ![N, 144]⟩ 1)

/-- The piece a column below 144 falls in, for the four-piece row. -/
theorem four_at (e : Fin N) (k : Fin 145) :
    concatenate ⟨2, ![N, 145]⟩ 1 [⟨⟨2, ![N, 64]⟩, g1⟩, ⟨⟨2, ![N, 16]⟩, x1⟩, ⟨⟨2, ![N, 64]⟩, g2⟩, ⟨⟨2, ![N, 1]⟩, cc⟩] h4 (ix2 e k)
      = if h : k.val < 64 then g1 (ix2 e ⟨k.val, h⟩)
        else if h' : k.val < 80 then x1 (ix2 e ⟨k.val - 64, by omega⟩)
        else if h'' : k.val < 144 then g2 (ix2 e ⟨k.val - 80, by omega⟩)
        else cc (ix2 e (0 : Fin 1)) := by
  have hk := k.isLt
  split
  · rename_i h
    refine concatenate_apply_piece (t := ⟨2, ![N, 145]⟩) (1 : Fin 2) ([⟨⟨2, ![N, 64]⟩, g1⟩, ⟨⟨2, ![N, 16]⟩, x1⟩, ⟨⟨2, ![N, 64]⟩, g2⟩, ⟨⟨2, ![N, 1]⟩, cc⟩] : List ((s : Shape) × (s.Idx → α))) h4 (ix2 e k) 0 (by show 0 < 4; omega) _ g1 rfl rfl 0 rfl (ix2 e ⟨k.val, h⟩) ?_ ?_
    · intro b hb; match b with
      | ⟨0, _⟩ => rfl
      | ⟨1, _⟩ => exact absurd rfl hb
    · show 0 + k.val = k.val; omega
  · split
    · rename_i h h'
      refine concatenate_apply_piece (t := ⟨2, ![N, 145]⟩) (1 : Fin 2) ([⟨⟨2, ![N, 64]⟩, g1⟩, ⟨⟨2, ![N, 16]⟩, x1⟩, ⟨⟨2, ![N, 64]⟩, g2⟩, ⟨⟨2, ![N, 1]⟩, cc⟩] : List ((s : Shape) × (s.Idx → α))) h4 (ix2 e k) 1 (by show 1 < 4; omega) _ x1 rfl rfl 64 rfl (ix2 e ⟨k.val - 64, by omega⟩) ?_ ?_
      · intro b hb; match b with
        | ⟨0, _⟩ => rfl
        | ⟨1, _⟩ => exact absurd rfl hb
      · show 64 + (k.val - 64) = k.val; omega
    · split
      · rename_i h h' h''
        refine concatenate_apply_piece (t := ⟨2, ![N, 145]⟩) (1 : Fin 2) ([⟨⟨2, ![N, 64]⟩, g1⟩, ⟨⟨2, ![N, 16]⟩, x1⟩, ⟨⟨2, ![N, 64]⟩, g2⟩, ⟨⟨2, ![N, 1]⟩, cc⟩] : List ((s : Shape) × (s.Idx → α))) h4 (ix2 e k) 2 (by show 2 < 4; omega) _ g2 rfl rfl 80 rfl (ix2 e ⟨k.val - 80, by omega⟩) ?_ ?_
        · intro b hb; match b with
          | ⟨0, _⟩ => rfl
          | ⟨1, _⟩ => exact absurd rfl hb
        · show 80 + (k.val - 80) = k.val; omega
      · rename_i h h' h''
        refine concatenate_apply_piece (t := ⟨2, ![N, 145]⟩) (1 : Fin 2) ([⟨⟨2, ![N, 64]⟩, g1⟩, ⟨⟨2, ![N, 16]⟩, x1⟩, ⟨⟨2, ![N, 64]⟩, g2⟩, ⟨⟨2, ![N, 1]⟩, cc⟩] : List ((s : Shape) × (s.Idx → α))) h4 (ix2 e k) 3 (by show 3 < 4; omega) _ cc rfl rfl 144 rfl (ix2 e (0 : Fin 1)) ?_ ?_
        · intro b hb; match b with
          | ⟨0, _⟩ => rfl
          | ⟨1, _⟩ => exact absurd rfl hb
        · show 144 + 0 = k.val; omega

/-- The same for the three-piece row. -/
theorem three_at (e : Fin N) (k : Fin 144) :
    concatenate ⟨2, ![N, 144]⟩ 1 [⟨⟨2, ![N, 64]⟩, g1⟩, ⟨⟨2, ![N, 16]⟩, x1⟩, ⟨⟨2, ![N, 64]⟩, g2⟩] h3 (ix2 e k)
      = if h : k.val < 64 then g1 (ix2 e ⟨k.val, h⟩)
        else if h' : k.val < 80 then x1 (ix2 e ⟨k.val - 64, by omega⟩)
        else g2 (ix2 e ⟨k.val - 80, by have := k.isLt; omega⟩) := by
  have hk := k.isLt
  split
  · rename_i h
    refine concatenate_apply_piece (t := ⟨2, ![N, 144]⟩) (1 : Fin 2) ([⟨⟨2, ![N, 64]⟩, g1⟩, ⟨⟨2, ![N, 16]⟩, x1⟩, ⟨⟨2, ![N, 64]⟩, g2⟩] : List ((s : Shape) × (s.Idx → α))) h3 (ix2 e k) 0 (by show 0 < 3; omega) _ g1 rfl rfl 0 rfl (ix2 e ⟨k.val, h⟩) ?_ ?_
    · intro b hb; match b with
      | ⟨0, _⟩ => rfl
      | ⟨1, _⟩ => exact absurd rfl hb
    · show 0 + k.val = k.val; omega
  · split
    · rename_i h h'
      refine concatenate_apply_piece (t := ⟨2, ![N, 144]⟩) (1 : Fin 2) ([⟨⟨2, ![N, 64]⟩, g1⟩, ⟨⟨2, ![N, 16]⟩, x1⟩, ⟨⟨2, ![N, 64]⟩, g2⟩] : List ((s : Shape) × (s.Idx → α))) h3 (ix2 e k) 1 (by show 1 < 3; omega) _ x1 rfl rfl 64 rfl (ix2 e ⟨k.val - 64, by omega⟩) ?_ ?_
      · intro b hb; match b with
        | ⟨0, _⟩ => rfl
        | ⟨1, _⟩ => exact absurd rfl hb
      · show 64 + (k.val - 64) = k.val; omega
    · rename_i h h'
      refine concatenate_apply_piece (t := ⟨2, ![N, 144]⟩) (1 : Fin 2) ([⟨⟨2, ![N, 64]⟩, g1⟩, ⟨⟨2, ![N, 16]⟩, x1⟩, ⟨⟨2, ![N, 64]⟩, g2⟩] : List ((s : Shape) × (s.Idx → α))) h3 (ix2 e k) 2 (by show 2 < 3; omega) _ g2 rfl rfl 80 rfl (ix2 e ⟨k.val - 80, by omega⟩) ?_ ?_
      · intro b hb; match b with
        | ⟨0, _⟩ => rfl
        | ⟨1, _⟩ => exact absurd rfl hb
      · show 80 + (k.val - 80) = k.val; omega

/-- On the 144 common columns the two rows agree; -/
theorem four_eq_three (e : Fin N) (k : Fin 144) :
    concatenate ⟨2, ![N, 145]⟩ 1 [⟨⟨2, ![N, 64]⟩, g1⟩, ⟨⟨2, ![N, 16]⟩, x1⟩, ⟨⟨2, ![N, 64]⟩, g2⟩, ⟨⟨2, ![N, 1]⟩, cc⟩] h4
        (ix2 e ⟨k.val, by have := k.isLt; omega⟩)
      = concatenate ⟨2, ![N, 144]⟩ 1 [⟨⟨2, ![N, 64]⟩, g1⟩, ⟨⟨2, ![N, 16]⟩, x1⟩, ⟨⟨2, ![N, 64]⟩, g2⟩] h3 (ix2 e k) := by
  have hk := k.isLt
  rw [four_at, three_at]
  by_cases h : k.val < 64
  · simp only [dif_pos h]
  · by_cases h' : k.val < 80
    · simp only [dif_neg h, dif_pos h']
    · simp only [dif_neg h, dif_neg h', dif_pos hk]

/-- and the four-piece row's column 144 is the extra piece. -/
theorem four_last (e : Fin N) :
    concatenate ⟨2, ![N, 145]⟩ 1 [⟨⟨2, ![N, 64]⟩, g1⟩, ⟨⟨2, ![N, 16]⟩, x1⟩, ⟨⟨2, ![N, 64]⟩, g2⟩, ⟨⟨2, ![N, 1]⟩, cc⟩] h4
        (ix2 e (144 : Fin 145)) = cc (ix2 e (0 : Fin 1)) := by
  rw [four_at]
  simp only [show ¬ ((144 : Fin 145).val < 64) by decide, show ¬ ((144 : Fin 145).val < 80) by decide,
    show ¬ ((144 : Fin 145).val < 144) by decide, dif_neg, not_false_eq_true]

end Four

section Two
variable (g : (⟨2, ![N, 64]⟩ : Shape).Idx → α) (cc : (⟨2, ![N, 1]⟩ : Shape).Idx → α)
  (h2 : Shape.Concatenates [(⟨2, ![N, 64]⟩ : Shape), ⟨2, ![N, 1]⟩] ⟨2, ![N, 65]⟩ 1)

/-- A node row's first 64 columns are the aggregate; -/
theorem two_left (n : Fin N) (k : Fin 64) :
    concatenate ⟨2, ![N, 65]⟩ 1 [⟨⟨2, ![N, 64]⟩, g⟩, ⟨⟨2, ![N, 1]⟩, cc⟩] h2 (ix2 n ⟨k.val, by have := k.isLt; omega⟩) = g (ix2 n k) := by
  refine concatenate_apply_piece (t := ⟨2, ![N, 65]⟩) (1 : Fin 2) ([⟨⟨2, ![N, 64]⟩, g⟩, ⟨⟨2, ![N, 1]⟩, cc⟩] : List ((s : Shape) × (s.Idx → α))) h2 _ 0 (by show 0 < 2; omega) _ g rfl rfl 0 rfl (ix2 n k) ?_ ?_
  · intro b hb; match b with
    | ⟨0, _⟩ => rfl
    | ⟨1, _⟩ => exact absurd rfl hb
  · show 0 + k.val = k.val; omega

/-- its column 64 the type column. -/
theorem two_last (n : Fin N) :
    concatenate ⟨2, ![N, 65]⟩ 1 [⟨⟨2, ![N, 64]⟩, g⟩, ⟨⟨2, ![N, 1]⟩, cc⟩] h2 (ix2 n (64 : Fin 65)) = cc (ix2 n (0 : Fin 1)) := by
  refine concatenate_apply_piece (t := ⟨2, ![N, 65]⟩) (1 : Fin 2) ([⟨⟨2, ![N, 64]⟩, g⟩, ⟨⟨2, ![N, 1]⟩, cc⟩] : List ((s : Shape) × (s.Idx → α))) h2 _ 1 (by show 1 < 2; omega) _ cc rfl rfl 64 rfl (ix2 n (0 : Fin 1)) ?_ ?_
  · intro b hb; match b with
    | ⟨0, _⟩ => rfl
    | ⟨1, _⟩ => exact absurd rfl hb
  · rfl

end Two

end Cert.LibRowPack
-- ==== Proof.IdealHost.lean ====
/-
  What the host operations leave in each kernel's input array, for any contents they start from.

  Before the message kernel the host gathers the source and destination node features of every edge, converts the
  edge types to reals, and packs each edge's row: source features, edge features, destination features, type. The
  two gathers are the very operations the reference program applies to the same arguments, so they are named here
  by the reference's stages and never opened. Between the two kernels the host averages the messages over each
  destination node (two accumulating scatters, a maximum with one, a quotient) — again the reference's own chain,
  named `aggOf` as one function of the message array and the destinations — and packs each node's row: aggregate,
  node type.
-/
import proofs.«119128_j38319698215247_1_alg».proof.Proof.Gen.KernelIdeal.Launch
import proofs.«119128_j38319698215247_1_alg».proof.Proof.Gen.ReferenceIdeal.Read
import proofs.«119128_j38319698215247_1_alg».proof.Proof.LibRowPack
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-- The mean of the messages over each destination node, as ONE function of the message array and the destinations. -/
def aggOf (msg : FVec Ideal S800000x64 .f32) (dst : IVec S800000 32) : FVec Ideal S50000x64 .f32 :=
  Host.divf (F := Ideal)
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 dst) msg)
    (broadcastInDim S50000x64 ![0, 1] bcast_S50000x1_S50000x64_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

/-- It is the reference's chain, applied to the reference's messages. -/
theorem aggOf_ref (x0 x1 x2 x3 x4 x5 x10 x11 x12) :
    aggOf (Cert.ReferenceIdeal.Read.val_main_v103 (F := Ideal) x0 x1 x2 x3 x4 x5 x10 x11 x12) x11
      = Cert.ReferenceIdeal.Read.val_main_v115 (F := Ideal) x0 x1 x2 x3 x4 x5 x10 x11 x12 := rfl

variable (W : Valuation τ sig (Elt Ideal))

set_option maxHeartbeats 2000000 in
/-- The edge rows the message kernel reads. -/
theorem edgeRows :
    (StableHlo.after hostOps0 W (Proc.devRef .tc main_v16) : S800000x145.Idx → EReal)
      = concatenate S800000x145 1
          [⟨S800000x64, Cert.ReferenceIdeal.Read.val_main_v6 (F := Ideal) (W (Proc.devRef .tc main_arg0)) (W (Proc.devRef .tc main_arg10))⟩,
           ⟨S800000x16, (W (Proc.devRef .tc main_arg1) : S800000x16.Idx → EReal)⟩,
           ⟨S800000x64, Cert.ReferenceIdeal.Read.val_main_v13 (F := Ideal) (W (Proc.devRef .tc main_arg0)) (W (Proc.devRef .tc main_arg11))⟩,
           ⟨S800000x1, broadcastInDim S800000x1 ![0] bcast_S800000_S800000x1_0
              (sitofp .f32 (W (Proc.devRef .tc main_arg12) : IVec S800000 32) : FVec Ideal S800000 .f32)⟩]
          concatenates_S800000x64_S800000x16_S800000x64_S800000x1_S800000x145_d1 := by
  after_results_simp <;> rfl

set_option maxHeartbeats 1000000 in
/-- The node rows the update kernel reads. -/
theorem nodeRows :
    (StableHlo.after hostOps1 W (Proc.devRef .tc main_v32) : S50000x65.Idx → EReal)
      = concatenate S50000x65 1
          [⟨S50000x64, aggOf (W (Proc.devRef .tc main_v17)) (W (Proc.devRef .tc main_arg11))⟩,
           ⟨S50000x1, broadcastInDim S50000x1 ![0] bcast_S50000_S50000x1_0
              (sitofp .f32 (W (Proc.devRef .tc main_arg13) : IVec S50000 32) : FVec Ideal S50000 .f32)⟩]
          concatenates_S50000x64_S50000x1_S50000x65_d1 := by
  after_results_simp
  refine congrArg₂ (fun (a : S50000x64.Idx → EReal) (b : S50000x1.Idx → EReal) =>
    concatenate S50000x65 1 [⟨S50000x64, a⟩, ⟨S50000x1, b⟩] concatenates_S50000x64_S50000x1_S50000x65_d1) ?_ ?_
  · after_results_simp <;> rfl
  · after_results_simp <;> rfl

/-- A vector spread into a column reads, at `(n, 0)`, the vector at `n`. -/
theorem column_at {N : ℕ} {α : Type} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ ![0] h v (ix2 n (0 : Fin 1)) = v (ix1 n) :=
  broadcastInDim_apply _ h v (ix2 n (0 : Fin 1)) (ix1 n) (fun a => match a with
    | ⟨0, _⟩ => by
      show n.val = if N = 1 then 0 else n.val
      split
      · have := n.isLt; omega
      · rfl)

end Cert.KernelIdeal.Hand

end
-- ==== Proof.RefRows.lean ====
/-
  The reference program's two arrays, read row by row.

  The message array at edge `e` and output `j` is `Spec.msgAt` of the edge's joined feature row and its type word;
  the updated node array at node `n` is `Spec.updAt` of the node's aggregated row and its type word. Each of the
  program's per-type blocks is read one layer at a time: a weight plane (a unit slice, reshaped) is the table at that
  plane; a bias row (sliced, reshaped, broadcast twice) is the table's row; a product at a row is the sum over the
  contracted coordinate; the rectifier is the maximum with zero; the conditional on an integer comparison, with zero in
  the other branch, is `Spec.pick`; and the running sum starts from the zero array, which adds nothing. The joined
  feature rows and the aggregated rows stay as the generated stages that produce them.
-/
import proofs.«119128_j38319698215247_1_alg».proof.Proof.Spec
import proofs.«119128_j38319698215247_1_alg».proof.Proof.Gen.ReferenceIdeal.Read

noncomputable section

namespace Cert.RefRows

open Idealize.ShloMosaic Idealize.ShloMosaic.ValueIdx Cert.ReferenceIdeal Cert.ReferenceIdeal.Read

variable (x0 : (⟨S50000x64, .f32⟩ : BufTy).Contents (Elt Ideal))
  (x1 : (⟨S800000x16, .f32⟩ : BufTy).Contents (Elt Ideal))
  (x2 : (⟨S4x144x128, .f32⟩ : BufTy).Contents (Elt Ideal))
  (x3 : (⟨S4x128, .f32⟩ : BufTy).Contents (Elt Ideal))
  (x4 : (⟨S4x128x64, .f32⟩ : BufTy).Contents (Elt Ideal))
  (x5 : (⟨S4x64, .f32⟩ : BufTy).Contents (Elt Ideal))
  (x6 : (⟨S2x64x128, .f32⟩ : BufTy).Contents (Elt Ideal))
  (x7 : (⟨S2x128, .f32⟩ : BufTy).Contents (Elt Ideal))
  (x8 : (⟨S2x128x64, .f32⟩ : BufTy).Contents (Elt Ideal))
  (x9 : (⟨S2x64, .f32⟩ : BufTy).Contents (Elt Ideal))
  (x10 : (⟨S800000, .i32⟩ : BufTy).Contents (Elt Ideal))
  (x11 : (⟨S800000, .i32⟩ : BufTy).Contents (Elt Ideal))
  (x12 : (⟨S800000, .i32⟩ : BufTy).Contents (Elt Ideal))
  (x13 : (⟨S50000, .i32⟩ : BufTy).Contents (Elt Ideal))

/-! ## A conditional on an integer comparison -/

/-- A conditional on "the word `w` equals the constant `c`" whose other branch is the zero word is
    "`v` if `w`, read signed, is `c`'s integer, else zero": a word is determined by its signed reading. -/
theorem select_eq_pick (w c : BitVec 32) (t : ℤ) (hc : c.toInt = t) (v : EReal) :
    Scalar.select (IntOp.cmpi .eq w c) v (FloatOps.ofBits (F := Ideal) .f32 0x00000000#32) = Cert.Spec.pick w t v := by
  unfold Cert.Spec.pick
  show Scalar.select _ v (Ideal.ofBits .f32 0x00000000#32) = _
  rw [Ideal.ofBits_zero_f32]
  by_cases h : w = c
  · subst h
    have hb : IntOp.cmpi .eq w w = 1#1 := by simp [IntOp.cmpi]
    rw [hb, select_one, if_pos hc]
  · have hb : IntOp.cmpi .eq w c = 0#1 := by
      show BitVec.ofBool (w == c) = 0#1
      rw [beq_eq_false_iff_ne.mpr h]
      rfl
    rw [hb, select_zero, if_neg]
    intro h'
    exact h (BitVec.toInt_inj.mp (h'.trans hc.symm))

/-! ## The message perceptrons, one edge type at a time -/

/-! ### Edge type 0 -/

/-- The first weight table of type 0: the slice at offset 0, reshaped, is the table's plane 0. -/
theorem msg0_W1 (k : Fin 144) (h : Fin 128) :
    val_main_v17 (F := Ideal) x2 (ix2 k h) = x2 (ix3 (0 : Fin 4) k h) := by
  rw [val_main_v17_apply, val_main_v16_apply]
  congr 1
  funext a
  refine Fin.ext ?_
  have hk := k.isLt
  have hh := h.isLt
  match a with
  | ⟨0, _⟩ => rfl
  | ⟨1, _⟩ => show (k.val * 128 + h.val) / 128 % 144 = k.val; omega
  | ⟨2, _⟩ => show (k.val * 128 + h.val) % 128 = h.val; omega

/-- The first bias row of type 0, broadcast over the rows. -/
theorem msg0_B1 (r : Fin 800000) (h : Fin 128) :
    val_main_v22 (F := Ideal) x3 (ix2 r h) = x3 (ix2 (0 : Fin 4) h) := by
  rw [val_main_v22_apply, val_main_v21_apply, val_main_v20_apply, val_main_v19_apply]
  congr 1
  funext a
  refine Fin.ext ?_
  have hh := h.isLt
  match a with
  | ⟨0, _⟩ => rfl
  | ⟨1, _⟩ => show h.val % 128 = h.val; omega

/-- The first product of type 0 at a row and a hidden unit. -/
theorem msg0_dot1 (r : Fin 800000) (h : Fin 128) :
    val_main_v18 (F := Ideal) x0 x1 x2 x10 x11 (ix2 r h) = ∑ k : Fin 144, val_main_v14 (F := Ideal) x0 x1 x10 x11 (ix2 r k) * x2 (ix3 (0 : Fin 4) k h) := by
  rw [val_main_v18_apply]
  refine Finset.sum_congr rfl fun k _ => ?_
  have el : lidx_main_v18 (ix2 r h) k = ix2 r k := funext fun a => Fin.ext (by match a with | ⟨0, _⟩ => rfl | ⟨1, _⟩ => rfl)
  have er : ridx_main_v18 (ix2 r h) k = ix2 k h := funext fun a => Fin.ext (by match a with | ⟨0, _⟩ => rfl | ⟨1, _⟩ => rfl)
  rw [el, er, msg0_W1]

/-- The hidden layer of type 0. -/
theorem msg0_hidden (r : Fin 800000) (h : Fin 128) :
    val_main_v24 (F := Ideal) x0 x1 x2 x3 x10 x11 (ix2 r h) = Cert.Spec.hidden (fun k : Fin 144 => val_main_v14 (F := Ideal) x0 x1 x10 x11 (ix2 r k)) (fun k h => x2 (ix3 (0 : Fin 4) k h)) (fun h => x3 (ix2 (0 : Fin 4) h)) h := by
  rw [val_main_v24_apply, val_main_v23_apply, msg0_dot1, msg0_B1, val_main_call0_v0_apply, val_main_call0_cst_apply]
  unfold Cert.Spec.hidden
  show max (_ + _) (Ideal.ofBits .f32 0x00000000#32) = _
  rw [Ideal.ofBits_zero_f32]

/-- The second weight table of type 0. -/
theorem msg0_W2 (h : Fin 128) (o : Fin 64) :
    val_main_v26 (F := Ideal) x4 (ix2 h o) = x4 (ix3 (0 : Fin 4) h o) := by
  rw [val_main_v26_apply, val_main_v25_apply]
  congr 1
  funext a
  refine Fin.ext ?_
  have hh := h.isLt
  have ho := o.isLt
  match a with
  | ⟨0, _⟩ => rfl
  | ⟨1, _⟩ => show (h.val * 64 + o.val) / 64 % 128 = h.val; omega
  | ⟨2, _⟩ => show (h.val * 64 + o.val) % 64 = o.val; omega

/-- The second bias row of type 0, broadcast over the rows. -/
theorem msg0_B2 (r : Fin 800000) (o : Fin 64) :
    val_main_v31 (F := Ideal) x5 (ix2 r o) = x5 (ix2 (0 : Fin 4) o) := by
  rw [val_main_v31_apply, val_main_v30_apply, val_main_v29_apply, val_main_v28_apply]
  congr 1
  funext a
  refine Fin.ext ?_
  have ho := o.isLt
  match a with
  | ⟨0, _⟩ => rfl
  | ⟨1, _⟩ => show o.val % 64 = o.val; omega

/-- The second product of type 0 at a row and an output. -/
theorem msg0_dot2 (r : Fin 800000) (j : Fin 64) :
    val_main_v27 (F := Ideal) x0 x1 x2 x3 x4 x10 x11 (ix2 r j)
      = ∑ h : Fin 128, Cert.Spec.hidden (fun k : Fin 144 => val_main_v14 (F := Ideal) x0 x1 x10 x11 (ix2 r k)) (fun k h => x2 (ix3 (0 : Fin 4) k h)) (fun h => x3 (ix2 (0 : Fin 4) h)) h * x4 (ix3 (0 : Fin 4) h j) := by
  rw [val_main_v27_apply]
  refine Finset.sum_congr rfl fun h _ => ?_
  have el : lidx_main_v27 (ix2 r j) h = ix2 r h := funext fun a => Fin.ext (by match a with | ⟨0, _⟩ => rfl | ⟨1, _⟩ => rfl)
  have er : ridx_main_v27 (ix2 r j) h = ix2 h j := funext fun a => Fin.ext (by match a with | ⟨0, _⟩ => rfl | ⟨1, _⟩ => rfl)
  rw [el, er, msg0_W2, msg0_hidden]

/-- The perceptron of type 0 at a row. -/
theorem msg0_mlp (r : Fin 800000) (j : Fin 64) :
    val_main_v32 (F := Ideal) x0 x1 x2 x3 x4 x5 x10 x11 (ix2 r j) = Cert.Spec.mlp (fun k : Fin 144 => val_main_v14 (F := Ideal) x0 x1 x10 x11 (ix2 r k)) (fun k h => x2 (ix3 (0 : Fin 4) k h)) (fun h => x3 (ix2 (0 : Fin 4) h)) (fun h o => x4 (ix3 (0 : Fin 4) h o)) (fun o => x5 (ix2 (0 : Fin 4) o)) j := by
  rw [val_main_v32_apply, msg0_dot2, msg0_B2]
  rfl

/-- The masked perceptron of type 0: the conditional on "the row's type is 0". -/
theorem msg0_pick (r : Fin 800000) (j : Fin 64) :
    val_main_v36 (F := Ideal) x0 x1 x2 x3 x4 x5 x10 x11 x12 (ix2 r j) = Cert.Spec.pick (x12 (ix1 r)) 0 (val_main_v32 (F := Ideal) x0 x1 x2 x3 x4 x5 x10 x11 (ix2 r j)) := by
  rw [val_main_v36_apply, val_main_call1_v1_apply, val_main_v35_apply, val_main_v34_apply, val_main_v33_apply, val_main_c_3_apply,
    val_main_call1_v2_apply, val_main_call1_v0_apply, val_main_cst_4_apply]
  have hi : idx_main_v35 (idx_main_call1_v1 (ix2 r j)) = ix1 r :=
    funext fun a => Fin.ext (by match a with | ⟨0, _⟩ => rfl)
  rw [hi]
  exact select_eq_pick _ _ 0 (by decide) _

/-! ### Edge type 1 -/

/-- The first weight table of type 1: the slice at offset 1, reshaped, is the table's plane 1. -/
theorem msg1_W1 (k : Fin 144) (h : Fin 128) :
    val_main_v39 (F := Ideal) x2 (ix2 k h) = x2 (ix3 (1 : Fin 4) k h) := by
  rw [val_main_v39_apply, val_main_v38_apply]
  congr 1
  funext a
  refine Fin.ext ?_
  have hk := k.isLt
  have hh := h.isLt
  match a with
  | ⟨0, _⟩ => rfl
  | ⟨1, _⟩ => show (k.val * 128 + h.val) / 128 % 144 = k.val; omega
  | ⟨2, _⟩ => show (k.val * 128 + h.val) % 128 = h.val; omega

/-- The first bias row of type 1, broadcast over the rows. -/
theorem msg1_B1 (r : Fin 800000) (h : Fin 128) :
    val_main_v44 (F := Ideal) x3 (ix2 r h) = x3 (ix2 (1 : Fin 4) h) := by
  rw [val_main_v44_apply, val_main_v43_apply, val_main_v42_apply, val_main_v41_apply]
  congr 1
  funext a
  refine Fin.ext ?_
  have hh := h.isLt
  match a with
  | ⟨0, _⟩ => rfl
  | ⟨1, _⟩ => show h.val % 128 = h.val; omega

/-- The first product of type 1 at a row and a hidden unit. -/
theorem msg1_dot1 (r : Fin 800000) (h : Fin 128) :
    val_main_v40 (F := Ideal) x0 x1 x2 x10 x11 (ix2 r h) = ∑ k : Fin 144, val_main_v14 (F := Ideal) x0 x1 x10 x11 (ix2 r k) * x2 (ix3 (1 : Fin 4) k h) := by
  rw [val_main_v40_apply]
  refine Finset.sum_congr rfl fun k _ => ?_
  have el : lidx_main_v40 (ix2 r h) k = ix2 r k := funext fun a => Fin.ext (by match a with | ⟨0, _⟩ => rfl | ⟨1, _⟩ => rfl)
  have er : ridx_main_v40 (ix2 r h) k = ix2 k h := funext fun a => Fin.ext (by match a with | ⟨0, _⟩ => rfl | ⟨1, _⟩ => rfl)
  rw [el, er, msg1_W1]

/-- The hidden layer of type 1. -/
theorem msg1_hidden (r : Fin 800000) (h : Fin 128) :
    val_main_v46 (F := Ideal) x0 x1 x2 x3 x10 x11 (ix2 r h) = Cert.Spec.hidden (fun k : Fin 144 => val_main_v14 (F := Ideal) x0 x1 x10 x11 (ix2 r k)) (fun k h => x2 (ix3 (1 : Fin 4) k h)) (fun h => x3 (ix2 (1 : Fin 4) h)) h := by
  rw [val_main_v46_apply, val_main_v45_apply, msg1_dot1, msg1_B1, val_main_call2_v0_apply, val_main_call2_cst_apply]
  unfold Cert.Spec.hidden
  show max (_ + _) (Ideal.ofBits .f32 0x00000000#32) = _
  rw [Ideal.ofBits_zero_f32]

/-- The second weight table of type 1. -/
theorem msg1_W2 (h : Fin 128) (o : Fin 64) :
    val_main_v48 (F := Ideal) x4 (ix2 h o) = x4 (ix3 (1 : Fin 4) h o) := by
  rw [val_main_v48_apply, val_main_v47_apply]
  congr 1
  funext a
  refine Fin.ext ?_
  have hh := h.isLt
  have ho := o.isLt
  match a with
  | ⟨0, _⟩ => rfl
  | ⟨1, _⟩ => show (h.val * 64 + o.val) / 64 % 128 = h.val; omega
  | ⟨2, _⟩ => show (h.val * 64 + o.val) % 64 = o.val; omega

/-- The second bias row of type 1, broadcast over the rows. -/
theorem msg1_B2 (r : Fin 800000) (o : Fin 64) :
    val_main_v53 (F := Ideal) x5 (ix2 r o) = x5 (ix2 (1 : Fin 4) o) := by
  rw [val_main_v53_apply, val_main_v52_apply, val_main_v51_apply, val_main_v50_apply]
  congr 1
  funext a
  refine Fin.ext ?_
  have ho := o.isLt
  match a with
  | ⟨0, _⟩ => rfl
  | ⟨1, _⟩ => show o.val % 64 = o.val; omega

/-- The second product of type 1 at a row and an output. -/
theorem msg1_dot2 (r : Fin 800000) (j : Fin 64) :
    val_main_v49 (F := Ideal) x0 x1 x2 x3 x4 x10 x11 (ix2 r j)
      = ∑ h : Fin 128, Cert.Spec.hidden (fun k : Fin 144 => val_main_v14 (F := Ideal) x0 x1 x10 x11 (ix2 r k)) (fun k h => x2 (ix3 (1 : Fin 4) k h)) (fun h => x3 (ix2 (1 : Fin 4) h)) h * x4 (ix3 (1 : Fin 4) h j) := by
  rw [val_main_v49_apply]
  refine Finset.sum_congr rfl fun h _ => ?_
  have el : lidx_main_v49 (ix2 r j) h = ix2 r h := funext fun a => Fin.ext (by match a with | ⟨0, _⟩ => rfl | ⟨1, _⟩ => rfl)
  have er : ridx_main_v49 (ix2 r j) h = ix2 h j := funext fun a => Fin.ext (by match a with | ⟨0, _⟩ => rfl | ⟨1, _⟩ => rfl)
  rw [el, er, msg1_W2, msg1_hidden]

/-- The perceptron of type 1 at a row. -/
theorem msg1_mlp (r : Fin 800000) (j : Fin 64) :
    val_main_v54 (F := Ideal) x0 x1 x2 x3 x4 x5 x10 x11 (ix2 r j) = Cert.Spec.mlp (fun k : Fin 144 => val_main_v14 (F := Ideal) x0 x1 x10 x11 (ix2 r k)) (fun k h => x2 (ix3 (1 : Fin 4) k h)) (fun h => x3 (ix2 (1 : Fin 4) h)) (fun h o => x4 (ix3 (1 : Fin 4) h o)) (fun o => x5 (ix2 (1 : Fin 4) o)) j := by
  rw [val_main_v54_apply, msg1_dot2, msg1_B2]
  rfl

/-- The masked perceptron of type 1: the conditional on "the row's type is 1". -/
theorem msg1_pick (r : Fin 800000) (j : Fin 64) :
    val_main_v58 (F := Ideal) x0 x1 x2 x3 x4 x5 x10 x11 x12 (ix2 r j) = Cert.Spec.pick (x12 (ix1 r)) 1 (val_main_v54 (F := Ideal) x0 x1 x2 x3 x4 x5 x10 x11 (ix2 r j)) := by
  rw [val_main_v58_apply, val_main_call3_v1_apply, val_main_v57_apply, val_main_v56_apply, val_main_v55_apply, val_main_c_5_apply,
    val_main_call3_v2_apply, val_main_call3_v0_apply, val_main_cst_6_apply]
  have hi : idx_main_v57 (idx_main_call3_v1 (ix2 r j)) = ix1 r :=
    funext fun a => Fin.ext (by match a with | ⟨0, _⟩ => rfl)
  rw [hi]
  exact select_eq_pick _ _ 1 (by decide) _

/-! ### Edge type 2 -/

/-- The first weight table of type 2: the slice at offset 2, reshaped, is the table's plane 2. -/
theorem msg2_W1 (k : Fin 144) (h : Fin 128) :
    val_main_v61 (F := Ideal) x2 (ix2 k h) = x2 (ix3 (2 : Fin 4) k h) := by
  rw [val_main_v61_apply, val_main_v60_apply]
  congr 1
  funext a
  refine Fin.ext ?_
  have hk := k.isLt
  have hh := h.isLt
  match a with
  | ⟨0, _⟩ => rfl
  | ⟨1, _⟩ => show (k.val * 128 + h.val) / 128 % 144 = k.val; omega
  | ⟨2, _⟩ => show (k.val * 128 + h.val) % 128 = h.val; omega

/-- The first bias row of type 2, broadcast over the rows. -/
theorem msg2_B1 (r : Fin 800000) (h : Fin 128) :
    val_main_v66 (F := Ideal) x3 (ix2 r h) = x3 (ix2 (2 : Fin 4) h) := by
  rw [val_main_v66_apply, val_main_v65_apply, val_main_v64_apply, val_main_v63_apply]
  congr 1
  funext a
  refine Fin.ext ?_
  have hh := h.isLt
  match a with
  | ⟨0, _⟩ => rfl
  | ⟨1, _⟩ => show h.val % 128 = h.val; omega

/-- The first product of type 2 at a row and a hidden unit. -/
theorem msg2_dot1 (r : Fin 800000) (h : Fin 128) :
    val_main_v62 (F := Ideal) x0 x1 x2 x10 x11 (ix2 r h) = ∑ k : Fin 144, val_main_v14 (F := Ideal) x0 x1 x10 x11 (ix2 r k) * x2 (ix3 (2 : Fin 4) k h) := by
  rw [val_main_v62_apply]
  refine Finset.sum_congr rfl fun k _ => ?_
  have el : lidx_main_v62 (ix2 r h) k = ix2 r k := funext fun a => Fin.ext (by match a with | ⟨0, _⟩ => rfl | ⟨1, _⟩ => rfl)
  have er : ridx_main_v62 (ix2 r h) k = ix2 k h := funext fun a => Fin.ext (by match a with | ⟨0, _⟩ => rfl | ⟨1, _⟩ => rfl)
  rw [el, er, msg2_W1]

/-- The hidden layer of type 2. -/
theorem msg2_hidden (r : Fin 800000) (h : Fin 128) :
    val_main_v68 (F := Ideal) x0 x1 x2 x3 x10 x11 (ix2 r h) = Cert.Spec.hidden (fun k : Fin 144 => val_main_v14 (F := Ideal) x0 x1 x10 x11 (ix2 r k)) (fun k h => x2 (ix3 (2 : Fin 4) k h)) (fun h => x3 (ix2 (2 : Fin 4) h)) h := by
  rw [val_main_v68_apply, val_main_v67_apply, msg2_dot1, msg2_B1, val_main_call4_v0_apply, val_main_call4_cst_apply]
  unfold Cert.Spec.hidden
  show max (_ + _) (Ideal.ofBits .f32 0x00000000#32) = _
  rw [Ideal.ofBits_zero_f32]

/-- The second weight table of type 2. -/
theorem msg2_W2 (h : Fin 128) (o : Fin 64) :
    val_main_v70 (F := Ideal) x4 (ix2 h o) = x4 (ix3 (2 : Fin 4) h o) := by
  rw [val_main_v70_apply, val_main_v69_apply]
  congr 1
  funext a
  refine Fin.ext ?_
  have hh := h.isLt
  have ho := o.isLt
  match a with
  | ⟨0, _⟩ => rfl
  | ⟨1, _⟩ => show (h.val * 64 + o.val) / 64 % 128 = h.val; omega
  | ⟨2, _⟩ => show (h.val * 64 + o.val) % 64 = o.val; omega

/-- The second bias row of type 2, broadcast over the rows. -/
theorem msg2_B2 (r : Fin 800000) (o : Fin 64) :
    val_main_v75 (F := Ideal) x5 (ix2 r o) = x5 (ix2 (2 : Fin 4) o) := by
  rw [val_main_v75_apply, val_main_v74_apply, val_main_v73_apply, val_main_v72_apply]
  congr 1
  funext a
  refine Fin.ext ?_
  have ho := o.isLt
  match a with
  | ⟨0, _⟩ => rfl
  | ⟨1, _⟩ => show o.val % 64 = o.val; omega

/-- The second product of type 2 at a row and an output. -/
theorem msg2_dot2 (r : Fin 800000) (j : Fin 64) :
    val_main_v71 (F := Ideal) x0 x1 x2 x3 x4 x10 x11 (ix2 r j)
      = ∑ h : Fin 128, Cert.Spec.hidden (fun k : Fin 144 => val_main_v14 (F := Ideal) x0 x1 x10 x11 (ix2 r k)) (fun k h => x2 (ix3 (2 : Fin 4) k h)) (fun h => x3 (ix2 (2 : Fin 4) h)) h * x4 (ix3 (2 : Fin 4) h j) := by
  rw [val_main_v71_apply]
  refine Finset.sum_congr rfl fun h _ => ?_
  have el : lidx_main_v71 (ix2 r j) h = ix2 r h := funext fun a => Fin.ext (by match a with | ⟨0, _⟩ => rfl | ⟨1, _⟩ => rfl)
  have er : ridx_main_v71 (ix2 r j) h = ix2 h j := funext fun a => Fin.ext (by match a with | ⟨0, _⟩ => rfl | ⟨1, _⟩ => rfl)
  rw [el, er, msg2_W2, msg2_hidden]

/-- The perceptron of type 2 at a row. -/
theorem msg2_mlp (r : Fin 800000) (j : Fin 64) :
    val_main_v76 (F := Ideal) x0 x1 x2 x3 x4 x5 x10 x11 (ix2 r j) = Cert.Spec.mlp (fun k : Fin 144 => val_main_v14 (F := Ideal) x0 x1 x10 x11 (ix2 r k)) (fun k h => x2 (ix3 (2 : Fin 4) k h)) (fun h => x3 (ix2 (2 : Fin 4) h)) (fun h o => x4 (ix3 (2 : Fin 4) h o)) (fun o => x5 (ix2 (2 : Fin 4) o)) j := by
  rw [val_main_v76_apply, msg2_dot2, msg2_B2]
  rfl

/-- The masked perceptron of type 2: the conditional on "the row's type is 2". -/
theorem msg2_pick (r : Fin 800000) (j : Fin 64) :
    val_main_v80 (F := Ideal) x0 x1 x2 x3 x4 x5 x10 x11 x12 (ix2 r j) = Cert.Spec.pick (x12 (ix1 r)) 2 (val_main_v76 (F := Ideal) x0 x1 x2 x3 x4 x5 x10 x11 (ix2 r j)) := by
  rw [val_main_v80_apply, val_main_call5_v1_apply, val_main_v79_apply, val_main_v78_apply, val_main_v77_apply, val_main_c_7_apply,
    val_main_call5_v2_apply, val_main_call5_v0_apply, val_main_cst_8_apply]
  have hi : idx_main_v79 (idx_main_call5_v1 (ix2 r j)) = ix1 r :=
    funext fun a => Fin.ext (by match a with | ⟨0, _⟩ => rfl)
  rw [hi]
  exact select_eq_pick _ _ 2 (by decide) _

/-! ### Edge type 3 -/

/-- The first weight table of type 3: the slice at offset 3, reshaped, is the table's plane 3. -/
theorem msg3_W1 (k : Fin 144) (h : Fin 128) :
    val_main_v83 (F := Ideal) x2 (ix2 k h) = x2 (ix3 (3 : Fin 4) k h) := by
  rw [val_main_v83_apply, val_main_v82_apply]
  congr 1
  funext a
  refine Fin.ext ?_
  have hk := k.isLt
  have hh := h.isLt
  match a with
  | ⟨0, _⟩ => rfl
  | ⟨1, _⟩ => show (k.val * 128 + h.val) / 128 % 144 = k.val; omega
  | ⟨2, _⟩ => show (k.val * 128 + h.val) % 128 = h.val; omega

/-- The first bias row of type 3, broadcast over the rows. -/
theorem msg3_B1 (r : Fin 800000) (h : Fin 128) :
    val_main_v88 (F := Ideal) x3 (ix2 r h) = x3 (ix2 (3 : Fin 4) h) := by
  rw [val_main_v88_apply, val_main_v87_apply, val_main_v86_apply, val_main_v85_apply]
  congr 1
  funext a
  refine Fin.ext ?_
  have hh := h.isLt
  match a with
  | ⟨0, _⟩ => rfl
  | ⟨1, _⟩ => show h.val % 128 = h.val; omega

/-- The first product of type 3 at a row and a hidden unit. -/
theorem msg3_dot1 (r : Fin 800000) (h : Fin 128) :
    val_main_v84 (F := Ideal) x0 x1 x2 x10 x11 (ix2 r h) = ∑ k : Fin 144, val_main_v14 (F := Ideal) x0 x1 x10 x11 (ix2 r k) * x2 (ix3 (3 : Fin 4) k h) := by
  rw [val_main_v84_apply]
  refine Finset.sum_congr rfl fun k _ => ?_
  have el : lidx_main_v84 (ix2 r h) k = ix2 r k := funext fun a => Fin.ext (by match a with | ⟨0, _⟩ => rfl | ⟨1, _⟩ => rfl)
  have er : ridx_main_v84 (ix2 r h) k = ix2 k h := funext fun a => Fin.ext (by match a with | ⟨0, _⟩ => rfl | ⟨1, _⟩ => rfl)
  rw [el, er, msg3_W1]

/-- The hidden layer of type 3. -/
theorem msg3_hidden (r : Fin 800000) (h : Fin 128) :
    val_main_v90 (F := Ideal) x0 x1 x2 x3 x10 x11 (ix2 r h) = Cert.Spec.hidden (fun k : Fin 144 => val_main_v14 (F := Ideal) x0 x1 x10 x11 (ix2 r k)) (fun k h => x2 (ix3 (3 : Fin 4) k h)) (fun h => x3 (ix2 (3 : Fin 4) h)) h := by
  rw [val_main_v90_apply, val_main_v89_apply, msg3_dot1, msg3_B1, val_main_call6_v0_apply, val_main_call6_cst_apply]
  unfold Cert.Spec.hidden
  show max (_ + _) (Ideal.ofBits .f32 0x00000000#32) = _
  rw [Ideal.ofBits_zero_f32]

/-- The second weight table of type 3. -/
theorem msg3_W2 (h : Fin 128) (o : Fin 64) :
    val_main_v92 (F := Ideal) x4 (ix2 h o) = x4 (ix3 (3 : Fin 4) h o) := by
  rw [val_main_v92_apply, val_main_v91_apply]
  congr 1
  funext a
  refine Fin.ext ?_
  have hh := h.isLt
  have ho := o.isLt
  match a with
  | ⟨0, _⟩ => rfl
  | ⟨1, _⟩ => show (h.val * 64 + o.val) / 64 % 128 = h.val; omega
  | ⟨2, _⟩ => show (h.val * 64 + o.val) % 64 = o.val; omega

/-- The second bias row of type 3, broadcast over the rows. -/
theorem msg3_B2 (r : Fin 800000) (o : Fin 64) :
    val_main_v97 (F := Ideal) x5 (ix2 r o) = x5 (ix2 (3 : Fin 4) o) := by
  rw [val_main_v97_apply, val_main_v96_apply, val_main_v95_apply, val_main_v94_apply]
  congr 1
  funext a
  refine Fin.ext ?_
  have ho := o.isLt
  match a with
  | ⟨0, _⟩ => rfl
  | ⟨1, _⟩ => show o.val % 64 = o.val; omega

/-- The second product of type 3 at a row and an output. -/
theorem msg3_dot2 (r : Fin 800000) (j : Fin 64) :
    val_main_v93 (F := Ideal) x0 x1 x2 x3 x4 x10 x11 (ix2 r j)
      = ∑ h : Fin 128, Cert.Spec.hidden (fun k : Fin 144 => val_main_v14 (F := Ideal) x0 x1 x10 x11 (ix2 r k)) (fun k h => x2 (ix3 (3 : Fin 4) k h)) (fun h => x3 (ix2 (3 : Fin 4) h)) h * x4 (ix3 (3 : Fin 4) h j) := by
  rw [val_main_v93_apply]
  refine Finset.sum_congr rfl fun h _ => ?_
  have el : lidx_main_v93 (ix2 r j) h = ix2 r h := funext fun a => Fin.ext (by match a with | ⟨0, _⟩ => rfl | ⟨1, _⟩ => rfl)
  have er : ridx_main_v93 (ix2 r j) h = ix2 h j := funext fun a => Fin.ext (by match a with | ⟨0, _⟩ => rfl | ⟨1, _⟩ => rfl)
  rw [el, er, msg3_W2, msg3_hidden]

/-- The perceptron of type 3 at a row. -/
theorem msg3_mlp (r : Fin 800000) (j : Fin 64) :
    val_main_v98 (F := Ideal) x0 x1 x2 x3 x4 x5 x10 x11 (ix2 r j) = Cert.Spec.mlp (fun k : Fin 144 => val_main_v14 (F := Ideal) x0 x1 x10 x11 (ix2 r k)) (fun k h => x2 (ix3 (3 : Fin 4) k h)) (fun h => x3 (ix2 (3 : Fin 4) h)) (fun h o => x4 (ix3 (3 : Fin 4) h o)) (fun o => x5 (ix2 (3 : Fin 4) o)) j := by
  rw [val_main_v98_apply, msg3_dot2, msg3_B2]
  rfl

/-- The masked perceptron of type 3: the conditional on "the row's type is 3". -/
theorem msg3_pick (r : Fin 800000) (j : Fin 64) :
    val_main_v102 (F := Ideal) x0 x1 x2 x3 x4 x5 x10 x11 x12 (ix2 r j) = Cert.Spec.pick (x12 (ix1 r)) 3 (val_main_v98 (F := Ideal) x0 x1 x2 x3 x4 x5 x10 x11 (ix2 r j)) := by
  rw [val_main_v102_apply, val_main_call7_v1_apply, val_main_v101_apply, val_main_v100_apply, val_main_v99_apply, val_main_c_9_apply,
    val_main_call7_v2_apply, val_main_call7_v0_apply, val_main_cst_10_apply]
  have hi : idx_main_v101 (idx_main_call7_v1 (ix2 r j)) = ix1 r :=
    funext fun a => Fin.ext (by match a with | ⟨0, _⟩ => rfl)
  rw [hi]
  exact select_eq_pick _ _ 3 (by decide) _

/-! ## The update perceptrons, one node type at a time -/

/-! ### Node type 0 -/

/-- The first weight table of type 0: the slice at offset 0, reshaped, is the table's plane 0. -/
theorem upd0_W1 (k : Fin 64) (h : Fin 128) :
    val_main_v118 (F := Ideal) x6 (ix2 k h) = x6 (ix3 (0 : Fin 2) k h) := by
  rw [val_main_v118_apply, val_main_v117_apply]
  congr 1
  funext a
  refine Fin.ext ?_
  have hk := k.isLt
  have hh := h.isLt
  match a with
  | ⟨0, _⟩ => rfl
  | ⟨1, _⟩ => show (k.val * 128 + h.val) / 128 % 64 = k.val; omega
  | ⟨2, _⟩ => show (k.val * 128 + h.val) % 128 = h.val; omega

/-- The first bias row of type 0, broadcast over the rows. -/
theorem upd0_B1 (r : Fin 50000) (h : Fin 128) :
    val_main_v123 (F := Ideal) x7 (ix2 r h) = x7 (ix2 (0 : Fin 2) h) := by
  rw [val_main_v123_apply, val_main_v122_apply, val_main_v121_apply, val_main_v120_apply]
  congr 1
  funext a
  refine Fin.ext ?_
  have hh := h.isLt
  match a with
  | ⟨0, _⟩ => rfl
  | ⟨1, _⟩ => show h.val % 128 = h.val; omega

/-- The first product of type 0 at a row and a hidden unit. -/
theorem upd0_dot1 (r : Fin 50000) (h : Fin 128) :
    val_main_v119 (F := Ideal) x0 x1 x2 x3 x4 x5 x6 x10 x11 x12 (ix2 r h) = ∑ k : Fin 64, val_main_v115 (F := Ideal) x0 x1 x2 x3 x4 x5 x10 x11 x12 (ix2 r k) * x6 (ix3 (0 : Fin 2) k h) := by
  rw [val_main_v119_apply]
  refine Finset.sum_congr rfl fun k _ => ?_
  have el : lidx_main_v119 (ix2 r h) k = ix2 r k := funext fun a => Fin.ext (by match a with | ⟨0, _⟩ => rfl | ⟨1, _⟩ => rfl)
  have er : ridx_main_v119 (ix2 r h) k = ix2 k h := funext fun a => Fin.ext (by match a with | ⟨0, _⟩ => rfl | ⟨1, _⟩ => rfl)
  rw [el, er, upd0_W1]

/-- The hidden layer of type 0. -/
theorem upd0_hidden (r : Fin 50000) (h : Fin 128) :
    val_main_v125 (F := Ideal) x0 x1 x2 x3 x4 x5 x6 x7 x10 x11 x12 (ix2 r h) = Cert.Spec.hidden (fun k : Fin 64 => val_main_v115 (F := Ideal) x0 x1 x2 x3 x4 x5 x10 x11 x12 (ix2 r k)) (fun k h => x6 (ix3 (0 : Fin 2) k h)) (fun h => x7 (ix2 (0 : Fin 2) h)) h := by
  rw [val_main_v125_apply, val_main_v124_apply, upd0_dot1, upd0_B1, val_main_call8_v0_apply, val_main_call8_cst_apply]
  unfold Cert.Spec.hidden
  show max (_ + _) (Ideal.ofBits .f32 0x00000000#32) = _
  rw [Ideal.ofBits_zero_f32]

/-- The second weight table of type 0. -/
theorem upd0_W2 (h : Fin 128) (o : Fin 64) :
    val_main_v127 (F := Ideal) x8 (ix2 h o) = x8 (ix3 (0 : Fin 2) h o) := by
  rw [val_main_v127_apply, val_main_v126_apply]
  congr 1
  funext a
  refine Fin.ext ?_
  have hh := h.isLt
  have ho := o.isLt
  match a with
  | ⟨0, _⟩ => rfl
  | ⟨1, _⟩ => show (h.val * 64 + o.val) / 64 % 128 = h.val; omega
  | ⟨2, _⟩ => show (h.val * 64 + o.val) % 64 = o.val; omega

/-- The second bias row of type 0, broadcast over the rows. -/
theorem upd0_B2 (r : Fin 50000) (o : Fin 64) :
    val_main_v132 (F := Ideal) x9 (ix2 r o) = x9 (ix2 (0 : Fin 2) o) := by
  rw [val_main_v132_apply, val_main_v131_apply, val_main_v130_apply, val_main_v129_apply]
  congr 1
  funext a
  refine Fin.ext ?_
  have ho := o.isLt
  match a with
  | ⟨0, _⟩ => rfl
  | ⟨1, _⟩ => show o.val % 64 = o.val; omega

/-- The second product of type 0 at a row and an output. -/
theorem upd0_dot2 (r : Fin 50000) (j : Fin 64) :
    val_main_v128 (F := Ideal) x0 x1 x2 x3 x4 x5 x6 x7 x8 x10 x11 x12 (ix2 r j)
      = ∑ h : Fin 128, Cert.Spec.hidden (fun k : Fin 64 => val_main_v115 (F := Ideal) x0 x1 x2 x3 x4 x5 x10 x11 x12 (ix2 r k)) (fun k h => x6 (ix3 (0 : Fin 2) k h)) (fun h => x7 (ix2 (0 : Fin 2) h)) h * x8 (ix3 (0 : Fin 2) h j) := by
  rw [val_main_v128_apply]
  refine Finset.sum_congr rfl fun h _ => ?_
  have el : lidx_main_v128 (ix2 r j) h = ix2 r h := funext fun a => Fin.ext (by match a with | ⟨0, _⟩ => rfl | ⟨1, _⟩ => rfl)
  have er : ridx_main_v128 (ix2 r j) h = ix2 h j := funext fun a => Fin.ext (by match a with | ⟨0, _⟩ => rfl | ⟨1, _⟩ => rfl)
  rw [el, er, upd0_W2, upd0_hidden]

/-- The perceptron of type 0 at a row. -/
theorem upd0_mlp (r : Fin 50000) (j : Fin 64) :
    val_main_v133 (F := Ideal) x0 x1 x2 x3 x4 x5 x6 x7 x8 x9 x10 x11 x12 (ix2 r j) = Cert.Spec.mlp (fun k : Fin 64 => val_main_v115 (F := Ideal) x0 x1 x2 x3 x4 x5 x10 x11 x12 (ix2 r k)) (fun k h => x6 (ix3 (0 : Fin 2) k h)) (fun h => x7 (ix2 (0 : Fin 2) h)) (fun h o => x8 (ix3 (0 : Fin 2) h o)) (fun o => x9 (ix2 (0 : Fin 2) o)) j := by
  rw [val_main_v133_apply, upd0_dot2, upd0_B2]
  rfl

/-- The masked perceptron of type 0: the conditional on "the row's type is 0". -/
theorem upd0_pick (r : Fin 50000) (j : Fin 64) :
    val_main_v137 (F := Ideal) x0 x1 x2 x3 x4 x5 x6 x7 x8 x9 x10 x11 x12 x13 (ix2 r j) = Cert.Spec.pick (x13 (ix1 r)) 0 (val_main_v133 (F := Ideal) x0 x1 x2 x3 x4 x5 x6 x7 x8 x9 x10 x11 x12 (ix2 r j)) := by
  rw [val_main_v137_apply, val_main_call9_v1_apply, val_main_v136_apply, val_main_v135_apply, val_main_v134_apply, val_main_c_16_apply,
    val_main_call9_v2_apply, val_main_call9_v0_apply, val_main_cst_17_apply]
  have hi : idx_main_v136 (idx_main_call9_v1 (ix2 r j)) = ix1 r :=
    funext fun a => Fin.ext (by match a with | ⟨0, _⟩ => rfl)
  rw [hi]
  exact select_eq_pick _ _ 0 (by decide) _

/-! ### Node type 1 -/

/-- The first weight table of type 1: the slice at offset 1, reshaped, is the table's plane 1. -/
theorem upd1_W1 (k : Fin 64) (h : Fin 128) :
    val_main_v140 (F := Ideal) x6 (ix2 k h) = x6 (ix3 (1 : Fin 2) k h) := by
  rw [val_main_v140_apply, val_main_v139_apply]
  congr 1
  funext a
  refine Fin.ext ?_
  have hk := k.isLt
  have hh := h.isLt
  match a with
  | ⟨0, _⟩ => rfl
  | ⟨1, _⟩ => show (k.val * 128 + h.val) / 128 % 64 = k.val; omega
  | ⟨2, _⟩ => show (k.val * 128 + h.val) % 128 = h.val; omega

/-- The first bias row of type 1, broadcast over the rows. -/
theorem upd1_B1 (r : Fin 50000) (h : Fin 128) :
    val_main_v145 (F := Ideal) x7 (ix2 r h) = x7 (ix2 (1 : Fin 2) h) := by
  rw [val_main_v145_apply, val_main_v144_apply, val_main_v143_apply, val_main_v142_apply]
  congr 1
  funext a
  refine Fin.ext ?_
  have hh := h.isLt
  match a with
  | ⟨0, _⟩ => rfl
  | ⟨1, _⟩ => show h.val % 128 = h.val; omega

/-- The first product of type 1 at a row and a hidden unit. -/
theorem upd1_dot1 (r : Fin 50000) (h : Fin 128) :
    val_main_v141 (F := Ideal) x0 x1 x2 x3 x4 x5 x6 x10 x11 x12 (ix2 r h) = ∑ k : Fin 64, val_main_v115 (F := Ideal) x0 x1 x2 x3 x4 x5 x10 x11 x12 (ix2 r k) * x6 (ix3 (1 : Fin 2) k h) := by
  rw [val_main_v141_apply]
  refine Finset.sum_congr rfl fun k _ => ?_
  have el : lidx_main_v141 (ix2 r h) k = ix2 r k := funext fun a => Fin.ext (by match a with | ⟨0, _⟩ => rfl | ⟨1, _⟩ => rfl)
  have er : ridx_main_v141 (ix2 r h) k = ix2 k h := funext fun a => Fin.ext (by match a with | ⟨0, _⟩ => rfl | ⟨1, _⟩ => rfl)
  rw [el, er, upd1_W1]

/-- The hidden layer of type 1. -/
theorem upd1_hidden (r : Fin 50000) (h : Fin 128) :
    val_main_v147 (F := Ideal) x0 x1 x2 x3 x4 x5 x6 x7 x10 x11 x12 (ix2 r h) = Cert.Spec.hidden (fun k : Fin 64 => val_main_v115 (F := Ideal) x0 x1 x2 x3 x4 x5 x10 x11 x12 (ix2 r k)) (fun k h => x6 (ix3 (1 : Fin 2) k h)) (fun h => x7 (ix2 (1 : Fin 2) h)) h := by
  rw [val_main_v147_apply, val_main_v146_apply, upd1_dot1, upd1_B1, val_main_call10_v0_apply, val_main_call10_cst_apply]
  unfold Cert.Spec.hidden
  show max (_ + _) (Ideal.ofBits .f32 0x00000000#32) = _
  rw [Ideal.ofBits_zero_f32]

/-- The second weight table of type 1. -/
theorem upd1_W2 (h : Fin 128) (o : Fin 64) :
    val_main_v149 (F := Ideal) x8 (ix2 h o) = x8 (ix3 (1 : Fin 2) h o) := by
  rw [val_main_v149_apply, val_main_v148_apply]
  congr 1
  funext a
  refine Fin.ext ?_
  have hh := h.isLt
  have ho := o.isLt
  match a with
  | ⟨0, _⟩ => rfl
  | ⟨1, _⟩ => show (h.val * 64 + o.val) / 64 % 128 = h.val; omega
  | ⟨2, _⟩ => show (h.val * 64 + o.val) % 64 = o.val; omega

/-- The second bias row of type 1, broadcast over the rows. -/
theorem upd1_B2 (r : Fin 50000) (o : Fin 64) :
    val_main_v154 (F := Ideal) x9 (ix2 r o) = x9 (ix2 (1 : Fin 2) o) := by
  rw [val_main_v154_apply, val_main_v153_apply, val_main_v152_apply, val_main_v151_apply]
  congr 1
  funext a
  refine Fin.ext ?_
  have ho := o.isLt
  match a with
  | ⟨0, _⟩ => rfl
  | ⟨1, _⟩ => show o.val % 64 = o.val; omega

/-- The second product of type 1 at a row and an output. -/
theorem upd1_dot2 (r : Fin 50000) (j : Fin 64) :
    val_main_v150 (F := Ideal) x0 x1 x2 x3 x4 x5 x6 x7 x8 x10 x11 x12 (ix2 r j)
      = ∑ h : Fin 128, Cert.Spec.hidden (fun k : Fin 64 => val_main_v115 (F := Ideal) x0 x1 x2 x3 x4 x5 x10 x11 x12 (ix2 r k)) (fun k h => x6 (ix3 (1 : Fin 2) k h)) (fun h => x7 (ix2 (1 : Fin 2) h)) h * x8 (ix3 (1 : Fin 2) h j) := by
  rw [val_main_v150_apply]
  refine Finset.sum_congr rfl fun h _ => ?_
  have el : lidx_main_v150 (ix2 r j) h = ix2 r h := funext fun a => Fin.ext (by match a with | ⟨0, _⟩ => rfl | ⟨1, _⟩ => rfl)
  have er : ridx_main_v150 (ix2 r j) h = ix2 h j := funext fun a => Fin.ext (by match a with | ⟨0, _⟩ => rfl | ⟨1, _⟩ => rfl)
  rw [el, er, upd1_W2, upd1_hidden]

/-- The perceptron of type 1 at a row. -/
theorem upd1_mlp (r : Fin 50000) (j : Fin 64) :
    val_main_v155 (F := Ideal) x0 x1 x2 x3 x4 x5 x6 x7 x8 x9 x10 x11 x12 (ix2 r j) = Cert.Spec.mlp (fun k : Fin 64 => val_main_v115 (F := Ideal) x0 x1 x2 x3 x4 x5 x10 x11 x12 (ix2 r k)) (fun k h => x6 (ix3 (1 : Fin 2) k h)) (fun h => x7 (ix2 (1 : Fin 2) h)) (fun h o => x8 (ix3 (1 : Fin 2) h o)) (fun o => x9 (ix2 (1 : Fin 2) o)) j := by
  rw [val_main_v155_apply, upd1_dot2, upd1_B2]
  rfl

/-- The masked perceptron of type 1: the conditional on "the row's type is 1". -/
theorem upd1_pick (r : Fin 50000) (j : Fin 64) :
    val_main_v159 (F := Ideal) x0 x1 x2 x3 x4 x5 x6 x7 x8 x9 x10 x11 x12 x13 (ix2 r j) = Cert.Spec.pick (x13 (ix1 r)) 1 (val_main_v155 (F := Ideal) x0 x1 x2 x3 x4 x5 x6 x7 x8 x9 x10 x11 x12 (ix2 r j)) := by
  rw [val_main_v159_apply, val_main_call11_v1_apply, val_main_v158_apply, val_main_v157_apply, val_main_v156_apply, val_main_c_18_apply,
    val_main_call11_v2_apply, val_main_call11_v0_apply, val_main_cst_19_apply]
  have hi : idx_main_v158 (idx_main_call11_v1 (ix2 r j)) = ix1 r :=
    funext fun a => Fin.ext (by match a with | ⟨0, _⟩ => rfl)
  rw [hi]
  exact select_eq_pick _ _ 1 (by decide) _

/-! ## The two results, row by row -/

/-- The message array at edge `e`: the sum over the four edge types of the masked perceptrons; the running sum starts
    from the zero array, which adds nothing. -/
theorem ref_msg (e : Fin 800000) (j : Fin 64) :
    val_main_v103 (F := Ideal) x0 x1 x2 x3 x4 x5 x10 x11 x12 (ix2 e j)
      = Cert.Spec.msgAt (fun k : Fin 144 => val_main_v14 (F := Ideal) x0 x1 x10 x11 (ix2 e k)) (x12 (ix1 e))
          (fun t k h => x2 (ix3 t k h)) (fun t h => x3 (ix2 t h)) (fun t h o => x4 (ix3 t h o)) (fun t o => x5 (ix2 t o)) j := by
  rw [val_main_v103_apply, val_main_v81_apply, val_main_v59_apply, val_main_v37_apply, val_main_v15_apply, val_main_cst_apply,
    msg0_pick, msg1_pick, msg2_pick, msg3_pick, msg0_mlp, msg1_mlp, msg2_mlp, msg3_mlp]
  unfold Cert.Spec.msgAt
  show Ideal.ofBits .f32 0x00000000#32 + _ + _ + _ + _ = _
  rw [Ideal.ofBits_zero_f32, zero_add]

/-- The updated node array at node `n`: the sum over the two node types of the masked perceptrons of the aggregated row. -/
theorem ref_upd (n : Fin 50000) (j : Fin 64) :
    val_main_v160 (F := Ideal) x0 x1 x2 x3 x4 x5 x6 x7 x8 x9 x10 x11 x12 x13 (ix2 n j)
      = Cert.Spec.updAt (fun k : Fin 64 => val_main_v115 (F := Ideal) x0 x1 x2 x3 x4 x5 x10 x11 x12 (ix2 n k)) (x13 (ix1 n))
          (fun t k h => x6 (ix3 t k h)) (fun t h => x7 (ix2 t h)) (fun t h o => x8 (ix3 t h o)) (fun t o => x9 (ix2 t o)) j := by
  rw [val_main_v160_apply, val_main_v138_apply, val_main_v116_apply, val_main_cst_15_apply,
    upd0_pick, upd1_pick, upd0_mlp, upd1_mlp]
  unfold Cert.Spec.updAt
  show Ideal.ofBits .f32 0x00000000#32 + _ + _ = _
  rw [Ideal.ofBits_zero_f32, zero_add]

end Cert.RefRows

end
-- ==== Proof.IdealValue.lean ====
/-
  What the idealized kernel program leaves in its result array: the reference's own result function of the
  argument arrays.

  No host operation and no kernel writes an argument, so each kernel finds the arguments as launched. The edge
  rows the message kernel reads are the reference's rows with the edge type, converted exactly, in one more
  column; so the message kernel's output array is, row by row, the specification's message row, which is what the
  reference's message stage is: the two arrays are one function. The host then applies to it the very chain the
  reference applies, so the node rows are the reference's aggregate with the node type in one more column, and the
  update kernel's output array is the reference's result.
-/
import proofs.«119128_j38319698215247_1_alg».proof.Proof.IdealRun
import proofs.«119128_j38319698215247_1_alg».proof.Proof.IdealFinal0
import proofs.«119128_j38319698215247_1_alg».proof.Proof.IdealHost
import proofs.«119128_j38319698215247_1_alg».proof.Proof.RefRows

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The row functions respect equality of their table arguments -/

theorem msgAt_congr {x x' : Fin 144 → EReal} {ty : BitVec 32}
    {A A' : Fin 4 → Fin 144 → Fin 128 → EReal} {p p' : Fin 4 → Fin 128 → EReal}
    {B B' : Fin 4 → Fin 128 → Fin 64 → EReal} {q q' : Fin 4 → Fin 64 → EReal} {j : Fin 64}
    (hx : x = x') (hA : A = A') (hp : p = p') (hB : B = B') (hq : q = q') :
    Cert.Spec.msgAt x ty A p B q j = Cert.Spec.msgAt x' ty A' p' B' q' j := by
  subst hx hA hp hB hq; rfl

theorem updAt_congr {x x' : Fin 64 → EReal} {ty : BitVec 32}
    {A A' : Fin 2 → Fin 64 → Fin 128 → EReal} {p p' : Fin 2 → Fin 128 → EReal}
    {B B' : Fin 2 → Fin 128 → Fin 64 → EReal} {q q' : Fin 2 → Fin 64 → EReal} {j : Fin 64}
    (hx : x = x') (hA : A = A') (hp : p = p') (hB : B = B') (hq : q = q') :
    Cert.Spec.updAt x ty A p B q j = Cert.Spec.updAt x' ty A' p' B' q' j := by
  subst hx hA hp hB hq; rfl

/-! ## The arguments as each kernel finds them -/

/-- The first host stretch writes no argument; -/
theorem W1_keeps (b : Ref sig .tc) (h : b ∉ hostOps0_W) :
    W1 m ρ c (Proc.devRef .tc b) = m ((c : Thread nD τ).loc b) :=
  StableHlo.after_of_writes_sub hostOps0 _ hostOps0_writes h

/-- the message kernel changes none of the arrays it does not hold; -/
theorem W2_keeps (b : Ref sig .tc) (h : b ∉ hostOps0_W) (hb : ∀ w, Pipeline.arrRef spec0 w ≠ b) :
    W2 m ρ c (Proc.devRef .tc b) = m ((c : Thread nD τ).loc b) :=
  (W2_of_ne m ρ c b hb).trans (W1_keeps m ρ c b h)

/-- nor does the second host stretch write one. -/
theorem W3_keeps (b : Ref sig .tc) (h : b ∉ hostOps0_W) (hb : ∀ w, Pipeline.arrRef spec0 w ≠ b) (h1 : b ∉ hostOps1_W) :
    W3 m ρ c (Proc.devRef .tc b) = m ((c : Thread nD τ).loc b) :=
  (StableHlo.after_of_writes_sub hostOps1 _ hostOps1_writes h1).trans (W2_keeps m ρ c b h hb)

/-! ## The edge rows and the message array -/

/-- The edge rows: the reference's three pieces and the edge type's column. -/
theorem edgeX :
    (V1 m ρ c main_v16 : S800000x145.Idx → EReal)
      = concatenate S800000x145 1
          [⟨S800000x64, Cert.ReferenceIdeal.Read.val_main_v6 (F := Ideal) (m ((c : Thread nD τ).loc main_arg0)) (m ((c : Thread nD τ).loc main_arg10))⟩,
           ⟨S800000x16, ((m ((c : Thread nD τ).loc main_arg1)) : S800000x16.Idx → EReal)⟩,
           ⟨S800000x64, Cert.ReferenceIdeal.Read.val_main_v13 (F := Ideal) (m ((c : Thread nD τ).loc main_arg0)) (m ((c : Thread nD τ).loc main_arg11))⟩,
           ⟨S800000x1, broadcastInDim S800000x1 ![0] bcast_S800000_S800000x1_0
              (sitofp .f32 ((m ((c : Thread nD τ).loc main_arg12)) : IVec S800000 32) : FVec Ideal S800000 .f32)⟩]
          concatenates_S800000x64_S800000x16_S800000x64_S800000x1_S800000x145_d1 :=
  edgeRows (W0 m ρ c)

/-- Column 144 of edge `e`'s row is its type, converted exactly. -/
theorem edge_kind (e : Fin 800000) :
    (V1 m ρ c main_v16 : S800000x145.Idx → EReal) (ix2 e (144 : Fin 145))
      = (((((m ((c : Thread nD τ).loc main_arg12)) : IVec S800000 32) (ix1 e)).toInt : ℝ) : EReal) := by
  rw [edgeX m ρ c]
  refine (Cert.LibRowPack.four_last _ _ _ _ _ e).trans ?_
  exact (column_at _ _ e).trans rfl

/-- The message kernel's output array IS the reference's message stage. -/
theorem msg_eq :
    (dat0 (V1 m ρ) c).arrAt 5 cfg0.N
      = (Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) : S800000x64.Idx → EReal) := by
  rw [final0 (V1 m ρ) c (fun e => ((m ((c : Thread nD τ).loc main_arg12)) : IVec S800000 32) (ix1 e)) (edge_kind m ρ c)]
  funext i
  obtain ⟨e, j, rfl⟩ : ∃ (e : Fin 800000) (j : Fin 64), i = ix2 e j := ⟨i 0, i 1, eq_ix2 i⟩
  rw [Cert.RefRows.ref_msg]
  show Cert.Spec.msgAt (fun k : Fin 144 => (V1 m ρ c main_v16 : S800000x145.Idx → EReal) (ix2 e ⟨k.val, by have := k.isLt; omega⟩))
      (((m ((c : Thread nD τ).loc main_arg12)) : IVec S800000 32) (ix1 e))
      (fun t k h => (V1 m ρ c main_arg2 : S4x144x128.Idx → EReal) (ix3 t k h))
      (fun t h => (V1 m ρ c main_arg3 : S4x128.Idx → EReal) (ix2 t h))
      (fun t h o => (V1 m ρ c main_arg4 : S4x128x64.Idx → EReal) (ix3 t h o))
      (fun t o => (V1 m ρ c main_arg5 : S4x64.Idx → EReal) (ix2 t o)) j = _
  refine msgAt_congr (funext fun k => ?_)
    (funext fun t => funext fun k => funext fun h => congrFun (W1_keeps m ρ c main_arg2 (by decide)) (ix3 t k h))
    (funext fun t => funext fun h => congrFun (W1_keeps m ρ c main_arg3 (by decide)) (ix2 t h))
    (funext fun t => funext fun h => funext fun o => congrFun (W1_keeps m ρ c main_arg4 (by decide)) (ix3 t h o))
    (funext fun t => funext fun o => congrFun (W1_keeps m ρ c main_arg5 (by decide)) (ix2 t o))
  rw [edgeX m ρ c]
  unfold Cert.ReferenceIdeal.Read.val_main_v14
  exact Cert.LibRowPack.four_eq_three _ _ _ _ _ _ e k

/-! ## The node rows and the result array -/

/-- After the message kernel its result buffer holds the reference's message stage. -/
theorem W2_msg :
    W2 m ρ c (Proc.devRef .tc main_v17)
      = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) :=
  (W2_arr m ρ c 5).trans (msg_eq m ρ c)

/-- The node rows: the reference's aggregate and the node type's column. -/
theorem nodeY :
    (V3 m ρ c main_v32 : S50000x65.Idx → EReal)
      = concatenate S50000x65 1
          [⟨S50000x64, Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12))⟩,
           ⟨S50000x1, broadcastInDim S50000x1 ![0] bcast_S50000_S50000x1_0
              (sitofp .f32 ((m ((c : Thread nD τ).loc main_arg13)) : IVec S50000 32) : FVec Ideal S50000 .f32)⟩]
          concatenates_S50000x64_S50000x1_S50000x65_d1 := by
  have h := nodeRows (W2 m ρ c)
  rw [W2_msg m ρ c, W2_keeps m ρ c main_arg11 (by decide) (by decide),
    W2_keeps m ρ c main_arg13 (by decide) (by decide), aggOf_ref] at h
  exact h

/-- Column 64 of node `n`'s row is its type, converted exactly. -/
theorem node_kind (n : Fin 50000) :
    (V3 m ρ c main_v32 : S50000x65.Idx → EReal) (ix2 n (64 : Fin 65))
      = (((((m ((c : Thread nD τ).loc main_arg13)) : IVec S50000 32) (ix1 n)).toInt : ℝ) : EReal) := by
  rw [nodeY m ρ c]
  refine (Cert.LibRowPack.two_last _ _ _ n).trans ?_
  exact (column_at _ _ n).trans rfl

/-- The update kernel's output array IS the reference's result. -/
theorem out_eq :
    (dat1 (V3 m ρ) c).arrAt 5 cfg1.N
      = (Cert.ReferenceIdeal.Read.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) : S50000x64.Idx → EReal) := by
  rw [final1 (V3 m ρ) c (fun n => ((m ((c : Thread nD τ).loc main_arg13)) : IVec S50000 32) (ix1 n)) (node_kind m ρ c)]
  funext i
  obtain ⟨n, j, rfl⟩ : ∃ (n : Fin 50000) (j : Fin 64), i = ix2 n j := ⟨i 0, i 1, eq_ix2 i⟩
  rw [Cert.RefRows.ref_upd]
  show Cert.Spec.updAt (fun k : Fin 64 => (V3 m ρ c main_v32 : S50000x65.Idx → EReal) (ix2 n ⟨k.val, by have := k.isLt; omega⟩))
      (((m ((c : Thread nD τ).loc main_arg13)) : IVec S50000 32) (ix1 n))
      (fun t k h => (V3 m ρ c main_arg6 : S2x64x128.Idx → EReal) (ix3 t k h))
      (fun t h => (V3 m ρ c main_arg7 : S2x128.Idx → EReal) (ix2 t h))
      (fun t h o => (V3 m ρ c main_arg8 : S2x128x64.Idx → EReal) (ix3 t h o))
      (fun t o => (V3 m ρ c main_arg9 : S2x64.Idx → EReal) (ix2 t o)) j = _
  refine updAt_congr (funext fun k => ?_)
    (funext fun t => funext fun k => funext fun h => congrFun (W3_keeps m ρ c main_arg6 (by decide) (by decide) (by decide)) (ix3 t k h))
    (funext fun t => funext fun h => congrFun (W3_keeps m ρ c main_arg7 (by decide) (by decide) (by decide)) (ix2 t h))
    (funext fun t => funext fun h => funext fun o => congrFun (W3_keeps m ρ c main_arg8 (by decide) (by decide) (by decide)) (ix3 t h o))
    (funext fun t => funext fun o => congrFun (W3_keeps m ρ c main_arg9 (by decide) (by decide) (by decide)) (ix2 t o))
  rw [nodeY m ρ c]
  exact Cert.LibRowPack.two_left _ _ _ n k

/-- THE KERNEL PROGRAM'S RESULT is the reference's result function of the argument arrays. -/
theorem kernel_value :
    W4 m ρ c (Proc.devRef .tc main_v33)
      = Cert.ReferenceIdeal.Read.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W4_arr m ρ c 5).trans (out_eq m ρ c)

end Cert.KernelIdeal.Hand

end
-- ==== Proof.lean ====
/-
  The claim, assembled.

  The kernel is one layer of message passing on a graph of 50000 nodes and 800000 edges, both typed. Host operations
  gather, for every edge, the feature rows of its two end nodes and join them with the edge's own features and its type;
  a first pipelined call turns each edge's row into a message, by the two-layer perceptron of the edge's type; host
  operations add the messages up at the nodes they point to, divide each sum by the number of messages (at least
  one), and join the node's type; a second pipelined call turns each node's row into its new features, by the two-layer
  perceptron of the node's type. The reference is a program of host operations only.

  Each of the three programs — the kernel as printed, the kernel read at the extended reals, the reference — runs to
  its end from any memory, nothing faulting, and leaves its fourteen argument arrays as launched: the kernel's two
  readings by following every buffer's contents through the run of its segments (host stretch, call, host stretch,
  call), no segment writing an argument; the reference by composing its operations. Read at the extended reals from
  memories that agree on the arguments, the kernel and the reference end with one and the same result array: what the
  kernel's last segment leaves in its result buffer is the reference's result function of the fourteen arguments
  (`kernel_value`), and the reference's own run ends at that function of its arguments, which are the kernel's.
-/
import proofs.«119128_j38319698215247_1_alg».proof.Defs
import proofs.«119128_j38319698215247_1_alg».proof.Proof.Gen.Kernel
import proofs.«119128_j38319698215247_1_alg».proof.Proof.Gen.Kernel.Skeleton
import proofs.«119128_j38319698215247_1_alg».proof.Proof.Gen.Kernel.Launch
import proofs.«119128_j38319698215247_1_alg».proof.Proof.Gen.Kernel.Regions
import proofs.«119128_j38319698215247_1_alg».proof.Proof.Gen.Kernel.Points
import proofs.«119128_j38319698215247_1_alg».proof.Proof.Gen.KernelIdeal
import proofs.«119128_j38319698215247_1_alg».proof.Proof.Gen.KernelIdeal.Skeleton
import proofs.«119128_j38319698215247_1_alg».proof.Proof.Gen.KernelIdeal.Launch
import proofs.«119128_j38319698215247_1_alg».proof.Proof.Gen.KernelIdeal.Regions
import proofs.«119128_j38319698215247_1_alg».proof.Proof.Gen.KernelIdeal.Points
import proofs.«119128_j38319698215247_1_alg».proof.Proof.Gen.ReferenceIdeal
import proofs.«119128_j38319698215247_1_alg».proof.Proof.Gen.ReferenceIdeal.Run
import proofs.«119128_j38319698215247_1_alg».proof.Proof.Gen.ReferenceIdeal.Read
import proofs.«119128_j38319698215247_1_alg».proof.Proof.Gen.Pre_finite_inputs
import proofs.«119128_j38319698215247_1_alg».proof.Proof.BitsRun
import proofs.«119128_j38319698215247_1_alg».proof.Proof.IdealRun
import proofs.«119128_j38319698215247_1_alg».proof.Proof.IdealValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_K : Cert.frame_Kernel := fun m ρ _ => Cert.Kernel.Hand.frame (F := Bits) m ρ

/-- So does its reading at the extended reals. -/
theorem frame_KI : Cert.frame_KernelIdeal := fun m ρ _ => Cert.KernelIdeal.Hand.frame (F := Ideal) m ρ

/-- So does the reference: its run, the result's value dropped. -/
theorem frame_R : Cert.frame_ReferenceIdeal := fun m ρ _ =>
  (θ_run Cert.ReferenceIdeal.defs _ _).mono (fun _ h c => (h c).2) (Cert.ReferenceIdeal.Value.run (F := Ideal) m ρ)

/-- At the extended reals, from memories agreeing on the arguments, both programs end with the result array at the
    reference's composed term of the kernel's arguments, and with their arguments as launched. -/
theorem algebraic : Cert.algebraic_KernelIdeal_ReferenceIdeal := by
  intro m ρ m' ρ' _ hagree
  refine ⟨fun c => Cert.ReferenceIdeal.Read.val_main_v160 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c _ (Cert.KernelIdeal.Hand.mem_uc Cert.KernelIdeal.main_v33 (by decide))).trans (Cert.KernelIdeal.Hand.kernel_value m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c),
      (h c _ (Cert.KernelIdeal.Hand.mem_uc Cert.KernelIdeal.main_arg9 (by decide))).trans (Cert.KernelIdeal.Hand.W4_main_arg9 m ρ c),
      (h c _ (Cert.KernelIdeal.Hand.mem_uc Cert.KernelIdeal.main_arg10 (by decide))).trans (Cert.KernelIdeal.Hand.W4_main_arg10 m ρ c),
      (h c _ (Cert.KernelIdeal.Hand.mem_uc Cert.KernelIdeal.main_arg11 (by decide))).trans (Cert.KernelIdeal.Hand.W4_main_arg11 m ρ c),
      (h c _ (Cert.KernelIdeal.Hand.mem_uc Cert.KernelIdeal.main_arg12 (by decide))).trans (Cert.KernelIdeal.Hand.W4_main_arg12 m ρ c),
      (h c _ (Cert.KernelIdeal.Hand.mem_uc Cert.KernelIdeal.main_arg13 (by decide))).trans (Cert.KernelIdeal.Hand.W4_main_arg13 m ρ c)⟩)
      (Cert.KernelIdeal.Hand.run_all (F := Ideal) m ρ)
  · refine (θ_run Cert.ReferenceIdeal.defs _ _).mono (fun _ h c => ⟨(h c).1.trans ((Cert.ReferenceIdeal.Read.val_main_v160_eq m' c).trans ?_), (h c).2⟩)
      (Cert.ReferenceIdeal.Value.run (F := Ideal) m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
